-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg15 : FVec F S128 .f32) (main_arg16 : FVec F S128 .f32) (main_arg17 : FVec F S128 .f32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128x47 .f32) (main_arg9 : FVec F S47 .f32) (main_arg10 : FVec F S128x47 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v33 : IVec S_ 1) : IVec S_ 1 :=
  let main_v34 : FVec F S128x47 .f32 := Host.absf main_arg8
  let main_cst_12 : FVec F S_ .f32 := constant S_ .f32 0x7F800000#32
  let main_v35 : FVec F S128x47 .f32 := broadcastInDim S128x47 ![] bcast_S_S128x47 main_cst_12
  let main_v36 : IVec S128x47 1 := cmpf .olt main_v34 main_v35
  let main_c_13 : IVec S_ 1 := constantI S_ 1 1#1
  let main_v37 : IVec S_ 1 := (fun x v => Host.reduce IntOp.andi x v reducesTo_S128x47_S_d0_1 h_S_) main_v36 main_c_13
  let main_v38 : IVec S_ 1 := andi main_v33 main_v37
  let main_v39 : FVec F S47 .f32 := Host.absf main_arg9
  let main_cst_14 : FVec F S_ .f32 := constant S_ .f32 0x7F800000#32
  let main_v40 : FVec F S47 .f32 := broadcastInDim S47 ![] bcast_S_S47 main_cst_14
  let main_v41 : IVec S47 1 := cmpf .olt main_v39 main_v40
  let main_c_15 : IVec S_ 1 := constantI S_ 1 1#1
  let main_v42 : IVec S_ 1 := (fun x v => Host.reduce IntOp.andi x v reducesTo_S47_S_d0 h_S_) main_v41 main_c_15
  let main_v43 : IVec S_ 1 := andi main_v38 main_v42
  let main_v44 : FVec F S128x47 .f32 := Host.absf main_arg10
  let main_cst_16 : FVec F S_ .f32 := constant S_ .f32 0x7F800000#32
  let main_v45 : FVec F S128x47 .f32 := broadcastInDim S128x47 ![] bcast_S_S128x47 main_cst_16
  let main_v46 : IVec S128x47 1 := cmpf .olt main_v44 main_v45
  let main_c_17 : IVec S_ 1 := constantI S_ 1 1#1
  let main_v47 : IVec S_ 1 := (fun x v => Host.reduce IntOp.andi x v reducesTo_S128x47_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_v48 main_v49 main_v50

def fn_part1 {F : FTy → Type} [FloatOps F] (main_arg5 : FVec F S128x128 .f32) (main_arg6 : FVec F S128 .f32) (main_arg7 : FVec F S128x128 .f32) (main_arg8 : FVec F S128x47 .f32) (main_arg9 : FVec F S47 .f32) (main_arg10 : FVec F S128x47 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x47 .f32) (main_arg9 : FVec F S47 .f32) (main_arg10 : FVec F S128x47 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S5000x128 : Shape := ⟨2, ![5000, 128]⟩
abbrev S5000x1 : Shape := ⟨2, ![5000, 1]⟩
abbrev S128x64 : Shape := ⟨2, ![128, 64]⟩
abbrev S50000x64 : Shape := ⟨2, ![50000, 64]⟩
abbrev S5000x64 : Shape := ⟨2, ![5000, 64]⟩
abbrev S600000x64 : Shape := ⟨2, ![600000, 64]⟩
abbrev S64 : Shape := ⟨1, ![64]⟩
abbrev S1x64 : Shape := ⟨2, ![1, 64]⟩
abbrev S50000x47 : Shape := ⟨2, ![50000, 47]⟩

abbrev nBuf : Space → Nat
  | .hbm => 100
  | .vmem => 43
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x47, .f32⟩
  | .hbm, ⟨9, _⟩ => ⟨S47, .f32⟩
  | .hbm, ⟨10, _⟩ => ⟨S128x47, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S1x600000, .i32⟩
  | .hbm, ⟨20, _⟩ => ⟨S600000, .i32⟩
  | .hbm, ⟨21, _⟩ => ⟨S1x600000, .i32⟩
  | .hbm, ⟨22, _⟩ => ⟨S600000, .i32⟩
  | .hbm, ⟨23, _⟩ => ⟨S_, .f32⟩
  | .hbm, ⟨24, _⟩ => ⟨S600000, .f32⟩
  | .hbm, ⟨25, _⟩ => ⟨S_, .f32⟩
  | .hbm, ⟨26, _⟩ => ⟨S50000, .f32⟩
  | .hbm, ⟨27, _⟩ => ⟨S600000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S50000x128, .f32⟩
  | .hbm, ⟨55, _⟩ => ⟨S_, .i32⟩
  | .hbm, ⟨56, _⟩ => ⟨S600000, .i32⟩
  | .hbm, ⟨57, _⟩ => ⟨S600000, .i1⟩
  | .hbm, ⟨58, _⟩ => ⟨S_, .i32⟩
  | .hbm, ⟨59, _⟩ => ⟨S600000, .i32⟩
  | .hbm, ⟨60, _⟩ => ⟨S600000, .i32⟩
  | .hbm, ⟨61, _⟩ => ⟨S600000, .i32⟩
  | .hbm, ⟨62, _⟩ => ⟨S600000x1, .i32⟩
  | .hbm, ⟨63, _⟩ => ⟨S600000x128, .f32⟩
  | .hbm, ⟨64, _⟩ => ⟨S_, .f32⟩
  | .hbm, ⟨65, _⟩ => ⟨S50000x128, .f32⟩
  | .hbm, ⟨66, _⟩ => ⟨S600000x1, .i32⟩
  | .hbm, ⟨67, _⟩ => ⟨S50000x128, .f32⟩
  | .hbm, ⟨68, _⟩ => ⟨S_, .f32⟩
  | .hbm, ⟨69, _⟩ => ⟨S_, .f32⟩
  | .hbm, ⟨70, _⟩ => ⟨S128x64, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S50000x128, .f32⟩
  | .hbm, ⟨77, _⟩ => ⟨S50000x64, .f32⟩
  | .hbm, ⟨78, _⟩ => ⟨S_, .i32⟩
  | .hbm, ⟨79, _⟩ => ⟨S600000, .i32⟩
  | .hbm, ⟨80, _⟩ => ⟨S600000, .i1⟩
  | .hbm, ⟨81, _⟩ => ⟨S_, .i32⟩
  | .hbm, ⟨82, _⟩ => ⟨S600000, .i32⟩
  | .hbm, ⟨83, _⟩ => ⟨S600000, .i32⟩
  | .hbm, ⟨84, _⟩ => ⟨S600000, .i32⟩
  | .hbm, ⟨85, _⟩ => ⟨S600000x1, .i32⟩
  | .hbm, ⟨86, _⟩ => ⟨S600000x64, .f32⟩
  | .hbm, ⟨87, _⟩ => ⟨S_, .f32⟩
  | .hbm, ⟨88, _⟩ => ⟨S50000x64, .f32⟩
  | .hbm, ⟨89, _⟩ => ⟨S600000x1, .i32⟩
  | .hbm, ⟨90, _⟩ => ⟨S50000x64, .f32⟩
  | .hbm, ⟨91, _⟩ => ⟨S_, .f32⟩
  | .hbm, ⟨92, _⟩ => ⟨S_, .f32⟩
  | .hbm, ⟨93, _⟩ => ⟨S128x64, .f32⟩
  | .hbm, ⟨94, _⟩ => ⟨S_, .f32⟩
  | .hbm, ⟨95, _⟩ => ⟨S_, .f32⟩
  | .hbm, ⟨96, _⟩ => ⟨S64, .f32⟩
  | .hbm, ⟨97, _⟩ => ⟨S1x64, .f32⟩
  | .hbm, ⟨98, _⟩ => ⟨S50000x64, .f32⟩
  | .hbm, ⟨99, _⟩ => ⟨S50000x47, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S128x64, .f32⟩
  | .local _ .vmem, ⟨29, _⟩ => ⟨S5000x128, .f32⟩
  | .local _ .vmem, ⟨30, _⟩ => ⟨S5000x128, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x1, .f32⟩
  | .local _ .vmem, ⟨36, _⟩ => ⟨S5000x1, .f32⟩
  | .local _ .vmem, ⟨37, _⟩ => ⟨S5000x128, .f32⟩
  | .local _ .vmem, ⟨38, _⟩ => ⟨S5000x128, .f32⟩
  | .local _ .vmem, ⟨39, _⟩ => ⟨S128x64, .f32⟩
  | .local _ .vmem, ⟨40, _⟩ => ⟨S1x64, .f32⟩
  | .local _ .vmem, ⟨41, _⟩ => ⟨S5000x64, .f32⟩
  | .local _ .vmem, ⟨42, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_3 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_5 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_call0_v0 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45_0 : Ref sig .tc := ⟨.hbm, 76, rfl⟩
abbrev main_v45_1 : Ref sig .tc := ⟨.hbm, 77, rfl⟩
abbrev main_c_9 : Ref sig .tc := ⟨.hbm, 78, rfl⟩
abbrev main_v46 : Ref sig .tc := ⟨.hbm, 79, rfl⟩
abbrev main_v47 : Ref sig .tc := ⟨.hbm, 80, rfl⟩
abbrev main_c_10 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_11 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_12 : Ref sig .tc := ⟨.hbm, 91, rfl⟩
abbrev main_call1_v0 : Ref sig .tc := ⟨.hbm, 92, rfl⟩
abbrev main_v56 : Ref sig .tc := ⟨.hbm, 93, rfl⟩
abbrev main_cst_13 : Ref sig .tc := ⟨.hbm, 94, rfl⟩
abbrev main_call2_v0 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg11_1 : Ref sig .tc := ⟨.vmem, 30, rfl⟩
abbrev cc1_stg12_0 : Ref sig .tc := ⟨.vmem, 31, rfl⟩
abbrev cc1_stg12_1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg5_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem11_1 : DmaSem sig := 30
abbrev cc1_sem12_0 : DmaSem sig := 31
abbrev cc1_sem12_1 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem2_1 : DmaSem sig := 38
abbrev cc2_sem3_0 : DmaSem sig := 39
abbrev cc2_sem4_0 : DmaSem sig := 40
abbrev cc2_sem5_0 : DmaSem sig := 41
abbrev cc2_sem5_1 : DmaSem sig := 42

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S5000x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  pads_S128x47_S128x64_000_0170 : S128x47.Pads (![0, 0] : Fin 2 → Nat) ![0, 17] ![0, 0] S128x64
  h_S_ : 0 < S_.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  pads_S47_S64_0170 : S47.Pads (![0] : Fin 1 → Nat) ![17] ![0] S64
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S50000x64_S50000x47_0_0 : S50000x64.Slices ![0, 0] S50000x47
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S50000x128.size a
  hwx0_10 : ∀ i : grid0.Coords, EltTy.bits .f32 = 32 ∨ (Rect.block (s := S50000x128) S5000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x64.size a ≤ S128x64.size a
  hwx1_10 : ∀ i : grid1.Coords, EltTy.bits .f32 = 32 ∨ (Rect.block (s := S128x64) S128x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x128.size a ≤ S50000x128.size a
  hwx1_11 : ∀ i : grid1.Coords, EltTy.bits .f32 = 32 ∨ (Rect.block (s := S50000x128) S5000x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x64.size a ≤ S50000x64.size a
  hwx1_12 : ∀ i : grid1.Coords, EltTy.bits .f32 = 32 ∨ (Rect.block (s := S50000x64) S5000x64.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v44) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v39) S128x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v45_0) S5000x128.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v45_1) S5000x64.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v55) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45_0) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v56) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S50000x47 : Shape := ⟨2, ![50000, 47]⟩
abbrev S1x47 : Shape := ⟨2, ![1, 47]⟩

abbrev nBuf : Space → Nat
  | .hbm => 150
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x47, .f32⟩
  | 9 => ⟨S47, .f32⟩
  | 10 => ⟨S128x47, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S1x600000, .i32⟩
  | 20 => ⟨S600000, .i32⟩
  | 21 => ⟨S1x600000, .i32⟩
  | 22 => ⟨S600000, .i32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S_, .f32⟩
  | 33 => ⟨S50000x128, .f32⟩
  | 34 => ⟨S600000x1, .i32⟩
  | 35 => ⟨S50000x128, .f32⟩
  | 36 => ⟨S_, .f32⟩
  | 37 => ⟨S600000, .f32⟩
  | 38 => ⟨S_, .f32⟩
  | 39 => ⟨S50000, .f32⟩
  | 40 => ⟨S600000x1, .i32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S_, .f32⟩
  | 58 => ⟨S128, .f32⟩
  | 59 => ⟨S128, .f32⟩
  | 60 => ⟨S128, .f32⟩
  | 61 => ⟨S128, .f32⟩
  | 62 => ⟨S1x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000x128, .f32⟩
  | 80 => ⟨S_, .f32⟩
  | 81 => ⟨S50000x128, .f32⟩
  | 82 => ⟨S600000x1, .i32⟩
  | 83 => ⟨S50000x128, .f32⟩
  | 84 => ⟨S_, .f32⟩
  | 85 => ⟨S600000, .f32⟩
  | 86 => ⟨S_, .f32⟩
  | 87 => ⟨S50000, .f32⟩
  | 88 => ⟨S600000x1, .i32⟩
  | 89 => ⟨S50000, .f32⟩
  | 90 => ⟨S_, .f32⟩
  | 91 => ⟨S50000, .f32⟩
  | 92 => ⟨S50000, .f32⟩
  | 93 => ⟨S50000x1, .f32⟩
  | 94 => ⟨S50000x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S128, .f32⟩
  | 107 => ⟨S128, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S_, .i32⟩
  | 120 => ⟨S600000, .i32⟩
  | 121 => ⟨S600000, .i1⟩
  | 122 => ⟨S_, .i32⟩
  | 123 => ⟨S600000, .i32⟩
  | 124 => ⟨S600000, .i32⟩
  | 125 => ⟨S600000, .i32⟩
  | 126 => ⟨S600000x1, .i32⟩
  | 127 => ⟨S600000x128, .f32⟩
  | _ => ⟨S50000x128, .f32⟩

abbrev hbmTy0_1 (i : Nat) : BufTy := match i % 128 with
  | 0 => ⟨S_, .f32⟩
  | 1 => ⟨S50000x128, .f32⟩
  | 2 => ⟨S600000x1, .i32⟩
  | 3 => ⟨S50000x128, .f32⟩
  | 4 => ⟨S_, .f32⟩
  | 5 => ⟨S600000, .f32⟩
  | 6 => ⟨S_, .f32⟩
  | 7 => ⟨S50000, .f32⟩
  | 8 => ⟨S600000x1, .i32⟩
  | 9 => ⟨S50000, .f32⟩
  | 10 => ⟨S_, .f32⟩
  | 11 => ⟨S50000, .f32⟩
  | 12 => ⟨S50000, .f32⟩
  | 13 => ⟨S50000x1, .f32⟩
  | 14 => ⟨S50000x128, .f32⟩
  | 15 => ⟨S50000x128, .f32⟩
  | 16 => ⟨S50000x47, .f32⟩
  | 17 => ⟨S1x47, .f32⟩
  | 18 => ⟨S50000x47, .f32⟩
  | 19 => ⟨S50000x47, .f32⟩
  | 20 => ⟨S50000x47, .f32⟩
  | 21 => ⟨S50000x47, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_call0_cst : Ref sig .tc := ⟨.hbm, 68, rfl⟩
abbrev main_call0_v0 : Ref sig .tc := ⟨.hbm, 69, rfl⟩
abbrev main_v42 : Ref sig .tc := ⟨.hbm, 70, rfl⟩
abbrev main_c_5 : Ref sig .tc := ⟨.hbm, 71, rfl⟩
abbrev main_v43 : Ref sig .tc := ⟨.hbm, 72, rfl⟩
abbrev main_v44 : Ref sig .tc := ⟨.hbm, 73, rfl⟩
abbrev main_c_6 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_8 : Ref sig .tc := ⟨.hbm, 84, rfl⟩
abbrev main_v53 : Ref sig .tc := ⟨.hbm, 85, rfl⟩
abbrev main_cst_9 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_11 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_call1_cst : Ref sig .tc := ⟨.hbm, 116, rfl⟩
abbrev main_call1_v0 : Ref sig .tc := ⟨.hbm, 117, rfl⟩
abbrev main_v81 : Ref sig .tc := ⟨.hbm, 118, rfl⟩
abbrev main_c_12 : Ref sig .tc := ⟨.hbm, 119, rfl⟩
abbrev main_v82 : Ref sig .tc := ⟨.hbm, 120, rfl⟩
abbrev main_v83 : Ref sig .tc := ⟨.hbm, 121, rfl⟩
abbrev main_c_13 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_14 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_15 : Ref sig .tc := ⟨.hbm, 132, rfl⟩
abbrev main_v92 : Ref sig .tc := ⟨.hbm, 133, rfl⟩
abbrev main_cst_16 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_17 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x47_S50000x47_1_0_0_1_n_n_wf : DotDims.WF S50000x128 S128x47 S50000x47 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x47_S50000x47_1_0_0_1_n_n : DotDims S50000x128 S128x47 S50000x47 where
  lhsContracting := [1]
  rhsContracting := [0]
  lhsNonContracting := [0]
  rhsNonContracting := [1]
  lhsBatch := []
  rhsBatch := []
  wf := dot_S50000x128_S128x47_S50000x47_1_0_0_1_n_n_wf

class Facts : Prop extends Facts₀ where

variable [Facts]
-- ==== Proof.KRun.lean ====
/-
  The kernel program's run with every buffer of the TensorCore named.

  @main is three kernel regions among stretches of host operations. Run as a chain of segments from the launch memory, every
  weakly fair execution terminates without a fault and leaves every unscoped buffer b at the contents the chain's last
  boundary gives it: the fold of the host stretches' results and of what each region's write-backs leave, from the launch
  memory. The result array and the argument arrays are among these buffers.
-/
import proofs.«148049_j15126874816626_2_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from the launch memory terminates, nothing faulting, with every unscoped
    TensorCore buffer at the contents of the segment chain's last boundary. -/
theorem run_all : θ_run defs (onTc (τ := τ) (main (F := F))) ⟨m, fun _ => 0, ρ⟩ (fun r => ∀ c : Dev nD, ∀ b : Ref sig .tc,
      ¬ (Proc.devRef .tc b : DevRef τ sig).isScoped →
      r.2.mem ((c.tc : Thread nD τ).loc b) = W13 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c b hb => h c _ (mem_uc b hb))

end Cert.Sage.KRun

end
-- ==== Proof.SageSpec.lean ====
/-
  The network both programs compute, as functions on the extended reals, index by index.

  A node n of 50000 has the in-edges e (of 600000) whose destination entry, read as a signed integer, is n; an edge reads the
  row of its source entry, read signed and clamped into the array. The neighbour sum of an array f at (n, k) is the sum over
  n's in-edges of f at (source row, k); the degree is the number of in-edges, floored at one.

  A hidden layer is  max(((mean · Wl + x · Wr + b) − m) · (g · rsqrt(v + ε)) + be, 0)  where mean = neighbour sum / degree.
  One program multiplies the neighbour sum by the reciprocal of the degree and adds the bias last, the other divides by the
  degree and adds the bias before the root term: the same extended real, because a quotient by a nonzero y is the product
  with y⁻¹ and addition of extended reals is commutative and associative.

  The output layer is  mean(h) · W3l + b3 + h · W3r.  One program projects first (h · W3l on every node, then the neighbour
  sum, then the reciprocal degree), the other takes the mean first. For h ≥ 0 (h is a maximum with zero) the two agree on the
  extended reals: (a + b) · w = a · w + b · w holds for nonnegative a, b, and multiplying by the reciprocal degree, a
  nonnegative real, distributes over every sum.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- The three float literals the programs spell: 0.0, 1.0 and the batch-norm epsilon. -/
abbrev zeroE : EReal := Ideal.ofBits .f32 0x00000000#32
abbrev oneE : EReal := Ideal.ofBits .f32 0x3F800000#32
abbrev epsE : EReal := Ideal.ofBits .f32 0x3727C5AC#32

theorem zeroE_eq : zeroE = 0 := by simp [zeroE, Ideal.ofBits, Ideal.ieee]
theorem oneE_eq : oneE = 1 := by
  simp [oneE, Ideal.ofBits, Ideal.ieee, -EReal.coe_mul]; norm_num

/-- An array of rank two from a function of its two coordinates. -/
def arr2 {A B : ℕ} (f : Fin A → Fin B → EReal) : (⟨2, ![A, B]⟩ : Shape).Idx → EReal := fun i => f (i 0) (i 1)

theorem arr2_ix2 {A B : ℕ} (f : Fin A → Fin B → EReal) (a : Fin A) (b : Fin B) : arr2 f (ix2 a b) = f a b := rfl

section Graph

variable (sI dI : IVec ⟨2, ![600000, 1]⟩ 32) (cnt : (⟨1, ![50000]⟩ : Shape).Idx → EReal)

/-- The row an edge reads: its source entry read signed and clamped into [0, 49999]. -/
def srcRow (e : Fin 600000) : Fin 50000 := ⟨min (sI (ix2 e (0 : Fin 1))).toInt.toNat 49999, by omega⟩

/-- The edges landing on node n: those whose destination entry, read signed, is n. -/
def inEdges (n : Fin 50000) : Finset (Fin 600000) :=
  Finset.univ.filter fun e => (dI (ix2 e (0 : Fin 1))).toInt = (n.val : ℤ)

/-- The neighbour sum of f at (n, k), onto the zero the programs start it from. -/
def nbrSum {D : ℕ} (f : (⟨2, ![50000, D]⟩ : Shape).Idx → EReal) (n : Fin 50000) (k : Fin D) : EReal :=
  zeroE + ∑ e ∈ inEdges dI n, f (ix2 (srcRow sI e) k)

/-- The degree floored at one, and its reciprocal. -/
def deg (n : Fin 50000) : EReal := max (cnt (ix1 n)) oneE
def invDeg (n : Fin 50000) : EReal := Ideal.div oneE (deg cnt n)

/-- The batch-norm scale g · rsqrt(v + ε) of column j. -/
def bnScale (g v : (⟨1, ![128]⟩ : Shape).Idx → EReal) (j : Fin 128) : EReal :=
  g (ix1 j) * Ideal.rsqrt (v (ix1 j) + epsE)

/-- A hidden layer at (n, j) from the neighbour-sum array a: reciprocal degree multiplied in, bias added last. -/
def hidK (a x : (⟨2, ![50000, 128]⟩ : Shape).Idx → EReal) (Wl Wr : (⟨2, ![128, 128]⟩ : Shape).Idx → EReal)
    (b g be m v : (⟨1, ![128]⟩ : Shape).Idx → EReal) (n : Fin 50000) (j : Fin 128) : EReal :=
  max (((((∑ k : Fin 128, (a (ix2 n k) * invDeg cnt n) * Wl (ix2 k j)) + ∑ k : Fin 128, x (ix2 n k) * Wr (ix2 k j)) + b (ix1 j))
    - m (ix1 j)) * bnScale g v j + be (ix1 j)) zeroE

/-- The same layer: divided by the degree, bias added before the root term. -/
def hidR (a x : (⟨2, ![50000, 128]⟩ : Shape).Idx → EReal) (Wl Wr : (⟨2, ![128, 128]⟩ : Shape).Idx → EReal)
    (b g be m v : (⟨1, ![128]⟩ : Shape).Idx → EReal) (n : Fin 50000) (j : Fin 128) : EReal :=
  max (((((∑ k : Fin 128, Ideal.div (a (ix2 n k)) (deg cnt n) * Wl (ix2 k j)) + b (ix1 j)) + ∑ k : Fin 128, x (ix2 n k) * Wr (ix2 k j))
    - m (ix1 j)) * bnScale g v j + be (ix1 j)) zeroE

/-- The output layer at (n, j), projected first: neighbour sum of h · W3l, times the reciprocal degree. -/
def outK (h : (⟨2, ![50000, 128]⟩ : Shape).Idx → EReal) (W3l W3r : (⟨2, ![128, 47]⟩ : Shape).Idx → EReal)
    (b3 : (⟨1, ![47]⟩ : Shape).Idx → EReal) (n : Fin 50000) (j : Fin 47) : EReal :=
  ((nbrSum sI dI (arr2 fun r c => ∑ k : Fin 128, h (ix2 r k) * W3l (ix2 k c)) n j * invDeg cnt n) + b3 (ix1 j))
    + ∑ k : Fin 128, h (ix2 n k) * W3r (ix2 k j)

/-- The output layer at (n, j), mean first. -/
def outR (h : (⟨2, ![50000, 128]⟩ : Shape).Idx → EReal) (W3l W3r : (⟨2, ![128, 47]⟩ : Shape).Idx → EReal)
    (b3 : (⟨1, ![47]⟩ : Shape).Idx → EReal) (n : Fin 50000) (j : Fin 47) : EReal :=
  ((∑ k : Fin 128, Ideal.div (nbrSum sI dI h n k) (deg cnt n) * W3l (ix2 k j)) + b3 (ix1 j))
    + ∑ k : Fin 128, h (ix2 n k) * W3r (ix2 k j)

variable (x : (⟨2, ![50000, 128]⟩ : Shape).Idx → EReal)
  (W1l W1r W2l W2r : (⟨2, ![128, 128]⟩ : Shape).Idx → EReal) (W3l W3r : (⟨2, ![128, 47]⟩ : Shape).Idx → EReal)
  (b1 b2 g1 be1 m1 v1 g2 be2 m2 v2 : (⟨1, ![128]⟩ : Shape).Idx → EReal) (b3 : (⟨1, ![47]⟩ : Shape).Idx → EReal)

/-- The two hidden activations and the result, in the first arrangement … -/
def h1K : (⟨2, ![50000, 128]⟩ : Shape).Idx → EReal := arr2 (hidK cnt (arr2 (nbrSum sI dI x)) x W1l W1r b1 g1 be1 m1 v1)
def h2K : (⟨2, ![50000, 128]⟩ : Shape).Idx → EReal :=
  arr2 (hidK cnt (arr2 (nbrSum sI dI (h1K sI dI cnt x W1l W1r b1 g1 be1 m1 v1))) (h1K sI dI cnt x W1l W1r b1 g1 be1 m1 v1) W2l W2r b2 g2 be2 m2 v2)
def resK : (⟨2, ![50000, 47]⟩ : Shape).Idx → EReal :=
  arr2 (outK sI dI cnt (h2K sI dI cnt x W1l W1r W2l W2r b1 b2 g1 be1 m1 v1 g2 be2 m2 v2) W3l W3r b3)

/-- … and in the second. -/
def h1R : (⟨2, ![50000, 128]⟩ : Shape).Idx → EReal := arr2 (hidR cnt (arr2 (nbrSum sI dI x)) x W1l W1r b1 g1 be1 m1 v1)
def h2R : (⟨2, ![50000, 128]⟩ : Shape).Idx → EReal :=
  arr2 (hidR cnt (arr2 (nbrSum sI dI (h1R sI dI cnt x W1l W1r b1 g1 be1 m1 v1))) (h1R sI dI cnt x W1l W1r b1 g1 be1 m1 v1) W2l W2r b2 g2 be2 m2 v2)
def resR : (⟨2, ![50000, 47]⟩ : Shape).Idx → EReal :=
  arr2 (outR sI dI cnt (h2R sI dI cnt x W1l W1r W2l W2r b1 b2 g1 be1 m1 v1 g2 be2 m2 v2) W3l W3r b3)

end Graph

end Cert.Sage

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«148049_j15126874816626_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«148049_j15126874816626_2_alg».proof.Proof.LibDenseRows
import proofs.«148049_j15126874816626_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.KLayer.lean ====
/-
  The three kernel bodies, read at an entry.

  Each body computes its output block row by row: row p of the block depends on row p of the row-blocked inputs (the
  neighbour sums, the reciprocal degree, the node features) and on the whole of the small operands (weights, bias and
  batch-norm rows). So each body's value at (p, q) is written as a function of ROW DATA: the same function serves a 5000-row
  block and the 50000-row array, which is what lets a block of the result be read as a block of one whole-array function.
-/
import proofs.«148049_j15126874816626_2_alg».proof.Proof.Gen.KernelIdeal.Skeleton
import proofs.«148049_j15126874816626_2_alg».proof.Proof.SageSpec
import proofs.«148049_j15126874816626_2_alg».proof.Proof.LibPlainLayers
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Sage

open Idealize.ShloMosaic Idealize.ShloMosaic.ValueIdx Idealize.ShloMosaic.TcCoe Cert.KernelIdeal Cert.KernelIdeal.Gen

/-- A hidden layer's entry in column q, from one node's row of neighbour sums ar, its reciprocal degree iv, its feature row
    xr, the two weight matrices and the five [1, 128] rows (bias, scale, shift, mean, variance). -/
def hidRow (ar xr : Fin 128 → EReal) (iv : EReal) (Wl Wr : (⟨2, ![128, 128]⟩ : Shape).Idx → EReal)
    (b g be m v : (⟨2, ![1, 128]⟩ : Shape).Idx → EReal) (q : Fin 128) : EReal :=
  max (((((∑ k : Fin 128, (ar k * iv) * Wl (ix2 k q)) + ∑ k : Fin 128, xr k * Wr (ix2 k q)) + b (ix2 (0 : Fin 1) q))
    - m (ix2 (0 : Fin 1) q)) * (g (ix2 (0 : Fin 1) q) * Ideal.rsqrt (v (ix2 (0 : Fin 1) q) + epsE)) + be (ix2 (0 : Fin 1) q)) zeroE

/-- The projection of a hidden row h by a [128, 64] matrix, in column q. -/
def projRow (h : Fin 128 → EReal) (W : (⟨2, ![128, 64]⟩ : Shape).Idx → EReal) (q : Fin 64) : EReal :=
  ∑ k : Fin 128, h k * W (ix2 k q)

/-- The output layer's entry in column q, from one node's row of projected neighbour sums pr, its reciprocal degree, its
    hidden row, the root weight matrix and the bias row. -/
def outRow (pr : Fin 64 → EReal) (iv : EReal) (h : Fin 128 → EReal) (Wr : (⟨2, ![128, 64]⟩ : Shape).Idx → EReal)
    (b : (⟨2, ![1, 64]⟩ : Shape).Idx → EReal) (q : Fin 64) : EReal :=
  (pr q * iv + b (ix2 (0 : Fin 1) q)) + ∑ k : Fin 128, h k * Wr (ix2 k q)

theorem hidRow_congr {ar ar' xr xr' : Fin 128 → EReal} {iv iv' : EReal} {Wl Wl' Wr Wr' : (⟨2, ![128, 128]⟩ : Shape).Idx → EReal}
    {b b' g g' be be' m m' v v' : (⟨2, ![1, 128]⟩ : Shape).Idx → EReal} {q q' : Fin 128}
    (h1 : ar = ar') (h2 : xr = xr') (h3 : iv = iv') (h4 : Wl = Wl') (h5 : Wr = Wr') (h6 : b = b') (h7 : g = g') (h8 : be = be')
    (h9 : m = m') (h10 : v = v') (h11 : q = q') :
    hidRow ar xr iv Wl Wr b g be m v q = hidRow ar' xr' iv' Wl' Wr' b' g' be' m' v' q' := by
  subst h1 h2 h3 h4 h5 h6 h7 h8 h9 h10 h11; rfl

theorem projRow_congr {h h' : Fin 128 → EReal} {W W' : (⟨2, ![128, 64]⟩ : Shape).Idx → EReal} {q q' : Fin 64}
    (h1 : h = h') (h2 : W = W') (h3 : q = q') : projRow h W q = projRow h' W' q' := by
  subst h1 h2 h3; rfl

theorem outRow_congr {pr pr' : Fin 64 → EReal} {iv iv' : EReal} {h h' : Fin 128 → EReal} {Wr Wr' : (⟨2, ![128, 64]⟩ : Shape).Idx → EReal}
    {b b' : (⟨2, ![1, 64]⟩ : Shape).Idx → EReal} {q q' : Fin 64}
    (h1 : pr = pr') (h2 : iv = iv') (h3 : h = h') (h4 : Wr = Wr') (h5 : b = b') (h6 : q = q') :
    outRow pr iv h Wr b q = outRow pr' iv' h' Wr' b' q' := by
  subst h1 h2 h3 h4 h5 h6; rfl

theorem dot128_plain : dot_S5000x128_S128x128_S5000x128_1_0_0_1_n_n = DotDims.plain 5000 128 128 := rfl
theorem dot64_plain : dot_S5000x128_S128x64_S5000x64_1_0_0_1_n_n = DotDims.plain 5000 128 64 := rfl

/-- The first body's stored value at (p, q) is the hidden layer of row p's data. -/
theorem pay0_apply (x0 : Vec Ideal S5000x128 .f32) (x1 : Vec Ideal S5000x1 .f32) (x2 : Vec Ideal S5000x128 .f32)
    (x3 x4 : Vec Ideal S128x128 .f32) (x5 x6 x7 x8 x9 : Vec Ideal S1x128 .f32) (p : Fin 5000) (q : Fin 128) :
    k0_pay1 (F := Ideal) (k0_pay2 x7) (k0_pay3 x0 x1 x2 x3 x4 x5 x6 x8 x9) (ix2 p q)
      = hidRow (fun k => x0 (ix2 p k)) (fun k => x2 (ix2 p k)) (x1 (ix2 p (0 : Fin 1))) x3 x4 x5 x6 x7 x8 x9 q := by
  unfold k0_pay1 k0_pay2 k0_pay3 hidRow
  simp only [maximumf_apply, addf_apply, subf_apply, mulf_apply]
  refine congrArg₂ max (congrArg₂ (· + ·) (congrArg₂ (· * ·) (congrArg₂ (· - ·) (congrArg₂ (· + ·) (congrArg₂ (· + ·) ?_ ?_) ?_) ?_) ?_) ?_) rfl
  · refine (Cert.PlainLayers.plainMM_of_eq _ dot128_plain none _ _ p q).trans (Finset.sum_congr rfl fun k _ => ?_)
    exact congrArg₂ (· * ·) (congrArg₂ (· * ·) (congrFun (shapeCast_self x0 _) _)
      ((Cert.Columns.broadcastTo_a1_ab_apply _ _ p k).trans (congrFun (shapeCast_self x1 _) _))) rfl
  · exact Cert.PlainLayers.plainMM_of_eq _ dot128_plain none _ _ p q
  · exact (broadcastTo_1b_ab_apply _ _ p q).trans (congrFun (shapeCast_self x5 _) _)
  · exact (broadcastTo_1b_ab_apply _ _ p q).trans (congrFun (shapeCast_self x8 _) _)
  · refine (broadcastTo_1b_ab_apply _ _ p q).trans ?_
    exact congrArg₂ (· * ·) (congrFun (shapeCast_self x6 _) _)
      (congrArg Ideal.rsqrt (congrArg₂ (· + ·) (congrFun (shapeCast_self x9 _) _) rfl))
  · exact (broadcastTo_1b_ab_apply _ _ p q).trans (congrFun (shapeCast_self x7 _) _)

/-- The same at any index of the block. -/
theorem pay0_at (x0 : Vec Ideal S5000x128 .f32) (x1 : Vec Ideal S5000x1 .f32) (x2 : Vec Ideal S5000x128 .f32)
    (x3 x4 : Vec Ideal S128x128 .f32) (x5 x6 x7 x8 x9 : Vec Ideal S1x128 .f32) (j : S5000x128.Idx) :
    k0_pay1 (F := Ideal) (k0_pay2 x7) (k0_pay3 x0 x1 x2 x3 x4 x5 x6 x8 x9) j
      = hidRow (fun k => x0 (ix2 (j 0) k)) (fun k => x2 (ix2 (j 0) k)) (x1 (ix2 (j 0) (0 : Fin 1))) x3 x4 x5 x6 x7 x8 x9 (j 1) := by
  obtain ⟨p, q, rfl⟩ : ∃ (p : Fin 5000) (q : Fin 128), j = ix2 p q := ⟨j 0, j 1, eq_ix2 j⟩
  exact pay0_apply x0 x1 x2 x3 x4 x5 x6 x7 x8 x9 p q

/-- The second body's first stored value at (p, q): the same hidden layer of row p's data. -/
theorem pay1_apply (x0 : Vec Ideal S5000x128 .f32) (x1 : Vec Ideal S5000x1 .f32) (x2 : Vec Ideal S5000x128 .f32)
    (x3 x4 : Vec Ideal S128x128 .f32) (x5 x6 x7 x8 x9 : Vec Ideal S1x128 .f32) (p : Fin 5000) (q : Fin 128) :
    k1_pay1 (F := Ideal) (k1_pay3 x7) (k1_pay4 x0 x1 x2 x3 x4 x5 x8) (k1_pay5 x6 x9) (ix2 p q)
      = hidRow (fun k => x0 (ix2 p k)) (fun k => x2 (ix2 p k)) (x1 (ix2 p (0 : Fin 1))) x3 x4 x5 x6 x7 x8 x9 q := by
  unfold k1_pay1 k1_pay3 k1_pay4 k1_pay5 hidRow
  simp only [maximumf_apply, addf_apply, subf_apply, mulf_apply]
  refine congrArg₂ max (congrArg₂ (· + ·) (congrArg₂ (· * ·) (congrArg₂ (· - ·) (congrArg₂ (· + ·) (congrArg₂ (· + ·) ?_ ?_) ?_) ?_) ?_) ?_) rfl
  · refine (Cert.PlainLayers.plainMM_of_eq _ dot128_plain none _ _ p q).trans (Finset.sum_congr rfl fun k _ => ?_)
    exact congrArg₂ (· * ·) (congrArg₂ (· * ·) (congrFun (shapeCast_self x0 _) _)
      ((Cert.Columns.broadcastTo_a1_ab_apply _ _ p k).trans (congrFun (shapeCast_self x1 _) _))) rfl
  · refine (Cert.PlainLayers.plainMM_of_eq _ dot128_plain none _ _ p q).trans (Finset.sum_congr rfl fun k _ => ?_)
    exact congrArg₂ (· * ·) (congrFun (shapeCast_self x2 _) _) rfl
  · exact (broadcastTo_1b_ab_apply _ _ p q).trans (congrFun (shapeCast_self x5 _) _)
  · exact (broadcastTo_1b_ab_apply _ _ p q).trans (congrFun (shapeCast_self x8 _) _)
  · refine (broadcastTo_1b_ab_apply _ _ p q).trans ?_
    exact congrArg₂ (· * ·) (congrFun (shapeCast_self x6 _) _)
      (congrArg Ideal.rsqrt (congrArg₂ (· + ·) (congrFun (shapeCast_self x9 _) _) rfl))
  · exact (broadcastTo_1b_ab_apply _ _ p q).trans (congrFun (shapeCast_self x7 _) _)

/-- The second body's second stored value at (p, q): row p's hidden layer projected by the [128, 64] matrix. -/
theorem pay1p_apply (x0 : Vec Ideal S5000x128 .f32) (x1 : Vec Ideal S5000x1 .f32) (x2 : Vec Ideal S5000x128 .f32)
    (x3 x4 : Vec Ideal S128x128 .f32) (x5 x6 x7 x8 x9 : Vec Ideal S1x128 .f32) (x10 : Vec Ideal S128x64 .f32) (p : Fin 5000) (q : Fin 64) :
    k1_pay2 (F := Ideal) (k1_pay3 x7) (k1_pay4 x0 x1 x2 x3 x4 x5 x8) (k1_pay5 x6 x9) x10 (ix2 p q)
      = projRow (hidRow (fun k => x0 (ix2 p k)) (fun k => x2 (ix2 p k)) (x1 (ix2 p (0 : Fin 1))) x3 x4 x5 x6 x7 x8 x9) x10 q := by
  unfold k1_pay2 projRow
  refine (Cert.PlainLayers.plainMM_of_eq _ dot64_plain none _ _ p q).trans (Finset.sum_congr rfl fun k _ => ?_)
  exact congrArg₂ (· * ·) (pay1_apply x0 x1 x2 x3 x4 x5 x6 x7 x8 x9 p k) (congrFun (shapeCast_self x10 _) _)

theorem pay1_at (x0 : Vec Ideal S5000x128 .f32) (x1 : Vec Ideal S5000x1 .f32) (x2 : Vec Ideal S5000x128 .f32)
    (x3 x4 : Vec Ideal S128x128 .f32) (x5 x6 x7 x8 x9 : Vec Ideal S1x128 .f32) (j : S5000x128.Idx) :
    k1_pay1 (F := Ideal) (k1_pay3 x7) (k1_pay4 x0 x1 x2 x3 x4 x5 x8) (k1_pay5 x6 x9) j
      = hidRow (fun k => x0 (ix2 (j 0) k)) (fun k => x2 (ix2 (j 0) k)) (x1 (ix2 (j 0) (0 : Fin 1))) x3 x4 x5 x6 x7 x8 x9 (j 1) := by
  obtain ⟨p, q, rfl⟩ : ∃ (p : Fin 5000) (q : Fin 128), j = ix2 p q := ⟨j 0, j 1, eq_ix2 j⟩
  exact pay1_apply x0 x1 x2 x3 x4 x5 x6 x7 x8 x9 p q

theorem pay1p_at (x0 : Vec Ideal S5000x128 .f32) (x1 : Vec Ideal S5000x1 .f32) (x2 : Vec Ideal S5000x128 .f32)
    (x3 x4 : Vec Ideal S128x128 .f32) (x5 x6 x7 x8 x9 : Vec Ideal S1x128 .f32) (x10 : Vec Ideal S128x64 .f32) (j : S5000x64.Idx) :
    k1_pay2 (F := Ideal) (k1_pay3 x7) (k1_pay4 x0 x1 x2 x3 x4 x5 x8) (k1_pay5 x6 x9) x10 j
      = projRow (hidRow (fun k => x0 (ix2 (j 0) k)) (fun k => x2 (ix2 (j 0) k)) (x1 (ix2 (j 0) (0 : Fin 1))) x3 x4 x5 x6 x7 x8 x9) x10 (j 1) := by
  obtain ⟨p, q, rfl⟩ : ∃ (p : Fin 5000) (q : Fin 64), j = ix2 p q := ⟨j 0, j 1, eq_ix2 j⟩
  exact pay1p_apply x0 x1 x2 x3 x4 x5 x6 x7 x8 x9 x10 p q

/-- The third body's stored value at (p, q): the output layer of row p's data. -/
theorem pay2_apply (x0 : Vec Ideal S5000x64 .f32) (x1 : Vec Ideal S5000x1 .f32) (x2 : Vec Ideal S5000x128 .f32)
    (x3 : Vec Ideal S128x64 .f32) (x4 : Vec Ideal S1x64 .f32) (p : Fin 5000) (q : Fin 64) :
    k2_pay1 (F := Ideal) x0 x1 x2 x3 x4 (ix2 p q)
      = outRow (fun j => x0 (ix2 p j)) (x1 (ix2 p (0 : Fin 1))) (fun k => x2 (ix2 p k)) x3 x4 q := by
  unfold k2_pay1 outRow
  simp only [addf_apply, mulf_apply]
  refine congrArg₂ (· + ·) (congrArg₂ (· + ·) (congrArg₂ (· * ·) ?_ ?_) ?_) ?_
  · exact congrFun (shapeCast_self x0 _) _
  · exact (Cert.Columns.broadcastTo_a1_ab_apply _ _ p q).trans (congrFun (shapeCast_self x1 _) _)
  · exact (broadcastTo_1b_ab_apply _ _ p q).trans (congrFun (shapeCast_self x4 _) _)
  · refine (Cert.PlainLayers.plainMM_of_eq _ dot64_plain none _ _ p q).trans (Finset.sum_congr rfl fun k _ => ?_)
    exact congrArg₂ (· * ·) (congrFun (shapeCast_self x2 _) _) (congrFun (shapeCast_self x3 _) _)

theorem pay2_at (x0 : Vec Ideal S5000x64 .f32) (x1 : Vec Ideal S5000x1 .f32) (x2 : Vec Ideal S5000x128 .f32)
    (x3 : Vec Ideal S128x64 .f32) (x4 : Vec Ideal S1x64 .f32) (j : S5000x64.Idx) :
    k2_pay1 (F := Ideal) x0 x1 x2 x3 x4 j
      = outRow (fun c => x0 (ix2 (j 0) c)) (x1 (ix2 (j 0) (0 : Fin 1))) (fun k => x2 (ix2 (j 0) k)) x3 x4 (j 1) := by
  obtain ⟨p, q, rfl⟩ : ∃ (p : Fin 5000) (q : Fin 64), j = ix2 p q := ⟨j 0, j 1, eq_ix2 j⟩
  exact pay2_apply x0 x1 x2 x3 x4 p q

end Cert.Sage

end
-- ==== Proof.KRegion2.lean ====
/-
  The third kernel region: its output array after the run, as one function of the arrays the region finds.

  Row n of the output is the output layer of row n's data: the projected neighbour sum times the reciprocal degree, plus the
  bias row, plus the node's hidden row times the padded root matrix. The ten row blocks tile the array.
-/
import proofs.«148049_j15126874816626_2_alg».proof.Proof.Gen.KernelIdeal.Frame
import proofs.«148049_j15126874816626_2_alg».proof.Proof.KLayer

set_option maxRecDepth 16384

noncomputable section

namespace Cert.Sage.KRegion2

open Cert.KernelIdeal Cert.KernelIdeal.Gen Cert.Sage
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row n of the third layer's output is the output layer of row n's data. -/
def G2 (A0 : S50000x64.Idx → EReal) (A1 : S50000x1.Idx → EReal) (A2 : S50000x128.Idx → EReal) (A3 : S128x64.Idx → EReal)
    (A4 : S1x64.Idx → EReal) : S50000x64.Idx → EReal :=
  fun i => outRow (fun q => A0 (ix2 (i 0) q)) (A1 (ix2 (i 0) (0 : Fin 1))) (fun k => A2 (ix2 (i 0) k)) A3 A4 (i 1)

/-- The index maps, decided over the ten grid points: a row-blocked window sits at block row t, column block 0; a small
    operand at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ (∀ a : Fin 2, win2_3.index t a = 0)
    ∧ (∀ a : Fin 2, win2_4.index t a = 0)
    ∧ win2_5.index t (0 : Fin 2) = t.val ∧ win2_5.index t (1 : Fin 2) = 0 :=
  (by decide +kernel : ∀ t : Fin grid2.N, _)

/-! What each input window's block holds at point t, seen from output window 5's block. -/

theorem blk2_0 (c : Dev nD) (t : Fin cfg2.N) (j : S5000x64.Idx) (k : Fin 64) :
    iblk2 V c 0 t (ix2 (j 0) k) = V c main_v55 (ix2 ((((cfg2.win 5).blk t).view.emb j) 0) k) := by
  obtain ⟨r0a, r0b, r1a, r1b, r2a, r2b, z3, z4, o5a, o5b⟩ := idx_facts2 t
  show V c main_v55 (((cfg2.win 0).blk t).view.emb (ix2 (j 0) k)) = _
  refine congrArg _ (funext fun a => Fin.ext ?_)
  match a with
  | ⟨0, _⟩ => show win2_0.index t (0 : Fin 2) * 5000 + 1 * (j 0).val = win2_5.index t (0 : Fin 2) * 5000 + 1 * (j 0).val; omega
  | ⟨1, _⟩ => show win2_0.index t (1 : Fin 2) * 64 + 1 * k.val = k.val; omega

theorem blk2_1 (c : Dev nD) (t : Fin cfg2.N) (j : S5000x64.Idx) :
    iblk2 V c 1 t (ix2 (j 0) (0 : Fin 1)) = V c main_v12 (ix2 ((((cfg2.win 5).blk t).view.emb j) 0) (0 : Fin 1)) := by
  obtain ⟨r0a, r0b, r1a, r1b, r2a, r2b, z3, z4, o5a, o5b⟩ := idx_facts2 t
  show V c main_v12 (((cfg2.win 1).blk t).view.emb (ix2 (j 0) (0 : Fin 1))) = _
  refine congrArg _ (funext fun a => Fin.ext ?_)
  match a with
  | ⟨0, _⟩ => show win2_1.index t (0 : Fin 2) * 5000 + 1 * (j 0).val = win2_5.index t (0 : Fin 2) * 5000 + 1 * (j 0).val; omega
  | ⟨1, _⟩ => show win2_1.index t (1 : Fin 2) * 1 + 1 * 0 = 0; omega

theorem blk2_2 (c : Dev nD) (t : Fin cfg2.N) (j : S5000x64.Idx) (k : Fin 128) :
    iblk2 V c 2 t (ix2 (j 0) k) = V c main_v45_0 (ix2 ((((cfg2.win 5).blk t).view.emb j) 0) k) := by
  obtain ⟨r0a, r0b, r1a, r1b, r2a, r2b, z3, z4, o5a, o5b⟩ := idx_facts2 t
  show V c main_v45_0 (((cfg2.win 2).blk t).view.emb (ix2 (j 0) k)) = _
  refine congrArg _ (funext fun a => Fin.ext ?_)
  match a with
  | ⟨0, _⟩ => show win2_2.index t (0 : Fin 2) * 5000 + 1 * (j 0).val = win2_5.index t (0 : Fin 2) * 5000 + 1 * (j 0).val; omega
  | ⟨1, _⟩ => show win2_2.index t (1 : Fin 2) * 128 + 1 * k.val = k.val; omega

theorem col2 (t : Fin cfg2.N) (j : S5000x64.Idx) : j 1 = (((cfg2.win 5).blk t).view.emb j) 1 := by
  obtain ⟨r0a, r0b, r1a, r1b, r2a, r2b, z3, z4, o5a, o5b⟩ := idx_facts2 t
  refine Fin.ext ?_
  show (j 1).val = win2_5.index t (1 : Fin 2) * 64 + 1 * (j 1).val
  omega

theorem blk2_3 (c : Dev nD) (t : Fin cfg2.N) : iblk2 V c 3 t = V c main_v56 := by
  have e := (idx_facts2 t).2.2.2.2.2.2.1
  funext y
  show V c main_v56 (((cfg2.win 3).blk t).view.emb y) = _
  refine congrArg _ (funext fun a => Fin.ext ?_)
  match a with
  | ⟨0, _⟩ => show win2_3.index t (0 : Fin 2) * 128 + 1 * (y 0).val = (y 0).val; have := e 0; omega
  | ⟨1, _⟩ => show win2_3.index t (1 : Fin 2) * 64 + 1 * (y 1).val = (y 1).val; have := e 1; omega

theorem blk2_4 (c : Dev nD) (t : Fin cfg2.N) : iblk2 V c 4 t = V c main_v58 := by
  have e := (idx_facts2 t).2.2.2.2.2.2.2.1
  funext y
  show V c main_v58 (((cfg2.win 4).blk t).view.emb y) = _
  refine congrArg _ (funext fun a => Fin.ext ?_)
  match a with
  | ⟨0, _⟩ => show win2_4.index t (0 : Fin 2) * 1 + 1 * (y 0).val = (y 0).val; have := e 0; omega
  | ⟨1, _⟩ => show win2_4.index t (1 : Fin 2) * 64 + 1 * (y 1).val = (y 1).val; have := e 1; omega

/-- What point t flushes to output window 5 is block t of the whole-array function. -/
theorem flushed2 (c : Dev nD) (t : Fin cfg2.N) :
    (dat2 V c).flushed 5 t = ((cfg2.win 5).blk t).view.read (Elt Ideal) (G2 (V c main_v55) (V c main_v12) (V c main_v45_0) (V c main_v56) (V c main_v58)) := by
  show (cfg2.win 5).cut (grid2.coords t) ((dat2 V c).after 5 t) = _
  rw [after2_5]
  unfold out2_5
  rw [View.canon_unit_zero hz]
  simp only [View.ld_unit_zero (S := S5000x64) hz, View.ld_unit_zero (S := S5000x1) hz, View.ld_unit_zero (S := S5000x128) hz, View.ld_unit_zero (S := S128x64) hz, View.ld_unit_zero (S := S1x64) hz]
  funext j
  refine (pay2_at (iblk2 V c 0 t) (iblk2 V c 1 t) (iblk2 V c 2 t) (iblk2 V c 3 t) (iblk2 V c 4 t) j).trans ?_
  show _ = G2 (V c main_v55) (V c main_v12) (V c main_v45_0) (V c main_v56) (V c main_v58) (((cfg2.win 5).blk t).view.emb j)
  unfold G2
  exact outRow_congr (funext fun q => blk2_0 V c t j q) (blk2_1 V c t j) (funext fun k => blk2_2 V c t j k) (blk2_3 V c t) (blk2_4 V c t) (col2 t j)

/-- An index of the array is in point t's block iff each coordinate is in the block's range. -/
theorem mem_blk2 (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v59).slice (win2_5.rect t)).set ↔ _
  rw [View.set_slice_whole, Rect.mem_set_unit]
  exact Iff.rfl

/-- Row n lies in the block of point n / 5000: the ten blocks tile the array. -/
theorem cover2 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hN : grid2.N = 10 := N_2
  have ht : (i 0).val / 5000 < grid2.N := by rw [hN]; omega
  have ea : win2_5.index ⟨(i 0).val / 5000, ht⟩ (0 : Fin 2) = (i 0).val / 5000 := (idx_facts2 ⟨(i 0).val / 5000, ht⟩).2.2.2.2.2.2.2.2.1
  have eb : win2_5.index ⟨(i 0).val / 5000, ht⟩ (1 : Fin 2) = 0 := (idx_facts2 ⟨(i 0).val / 5000, ht⟩).2.2.2.2.2.2.2.2.2
  refine ⟨⟨(i 0).val / 5000, ht⟩, flush2_5 _, ?_⟩
  rw [mem_blk2]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    omega
  | ⟨1, _⟩ =>
    show win2_5.index ⟨(i 0).val / 5000, ht⟩ (1 : Fin 2) * 64 ≤ (i 1).val
      ∧ (i 1).val < win2_5.index ⟨(i 0).val / 5000, ht⟩ (1 : Fin 2) * 64 + 64
    omega

/-- Output window 5's array after the run. -/
theorem final2 (c : Dev nD) : (dat2 V c).arrAt 5 cfg2.N = G2 (V c main_v55) (V c main_v12) (V c main_v45_0) (V c main_v56) (V c main_v58) :=
  (dat2 V c).arrAt_eq_of_cover 5 _ (fun t _ => flushed2 V c t) cover2

end Cert.Sage.KRegion2

end
-- ==== Proof.KGlue.lean ====
/-
  The kernel's row functions against the specification's layers.

  A hidden row computed from the neighbour-sum array a, the feature array x and the reciprocal degree, with the five vectors
  given as [1, 128] rows, is the specification's hidden layer with the same vectors as [128] arrays. The output row, computed
  in 64 padded columns from the neighbour sum of the projected array, is in its first 47 columns the specification's
  projected-first output layer: the padded weight columns agree with the given ones there, and the projected array's entry is
  the hidden row times that column of W3l.
-/
import proofs.«148049_j15126874816626_2_alg».proof.Proof.SageSpec
import proofs.«148049_j15126874816626_2_alg».proof.Proof.KLayer

noncomputable section

open scoped BigOperators

namespace Cert.Sage

open Idealize.ShloMosaic Idealize.ShloMosaic.ValueIdx

/-- The hidden row of node n, with the vectors as [1, 128] rows, is the specification's hidden layer at (n, q). -/
theorem hidRow_eq_hidK (cnt : (⟨1, ![50000]⟩ : Shape).Idx → EReal) (a x : (⟨2, ![50000, 128]⟩ : Shape).Idx → EReal)
    (Wl Wr : (⟨2, ![128, 128]⟩ : Shape).Idx → EReal) (b g be m v : (⟨1, ![128]⟩ : Shape).Idx → EReal)
    (b' g' be' m' v' : (⟨2, ![1, 128]⟩ : Shape).Idx → EReal) (n : Fin 50000) (q : Fin 128) (iv : EReal)
    (hiv : iv = invDeg cnt n) (hb : b' (ix2 (0 : Fin 1) q) = b (ix1 q)) (hg : g' (ix2 (0 : Fin 1) q) = g (ix1 q))
    (hbe : be' (ix2 (0 : Fin 1) q) = be (ix1 q)) (hm : m' (ix2 (0 : Fin 1) q) = m (ix1 q)) (hv : v' (ix2 (0 : Fin 1) q) = v (ix1 q)) :
    hidRow (fun k => a (ix2 n k)) (fun k => x (ix2 n k)) iv Wl Wr b' g' be' m' v' q = hidK cnt a x Wl Wr b g be m v n q := by
  subst hiv
  unfold hidRow hidK bnScale
  rw [hb, hg, hbe, hm, hv]

/-- The output row of node n in a padded column j' < 47 is the specification's projected-first output layer at (n, j). -/
theorem outRow_eq_outK (sI dI : IVec ⟨2, ![600000, 1]⟩ 32) (cnt : (⟨1, ![50000]⟩ : Shape).Idx → EReal)
    (h : (⟨2, ![50000, 128]⟩ : Shape).Idx → EReal) (W3l W3r : (⟨2, ![128, 47]⟩ : Shape).Idx → EReal) (b3 : (⟨1, ![47]⟩ : Shape).Idx → EReal)
    (P : (⟨2, ![50000, 64]⟩ : Shape).Idx → EReal) (Wr' : (⟨2, ![128, 64]⟩ : Shape).Idx → EReal) (b' : (⟨2, ![1, 64]⟩ : Shape).Idx → EReal)
    (pr : Fin 64 → EReal) (iv : EReal) (hrow : Fin 128 → EReal) (n : Fin 50000) (j : Fin 47) (j' : Fin 64)
    (hpr : pr j' = nbrSum sI dI P n j') (hP : ∀ r : Fin 50000, P (ix2 r j') = ∑ k : Fin 128, h (ix2 r k) * W3l (ix2 k j))
    (hiv : iv = invDeg cnt n) (hh : ∀ k, hrow k = h (ix2 n k)) (hW : ∀ k : Fin 128, Wr' (ix2 k j') = W3r (ix2 k j))
    (hb : b' (ix2 (0 : Fin 1) j') = b3 (ix1 j)) :
    outRow pr iv hrow Wr' b' j' = outK sI dI cnt h W3l W3r b3 n j := by
  subst hiv
  unfold outRow outK
  rw [hpr, hb]
  refine congrArg₂ (· + ·) (congrArg₂ (· + ·) (congrArg₂ (· * ·) ?_ rfl) rfl) (Finset.sum_congr rfl fun k _ => by rw [hh, hW])
  unfold nbrSum
  exact congrArg₂ (· + ·) rfl (Finset.sum_congr rfl fun e _ => hP _)

end Cert.Sage

end
-- ==== Proof.LibRowScatter.lean ====
/-
  General lemmas for programs that move whole rows of an [N, D] table by an integer column of row numbers.

  * `rowGather_apply`: gathering rows of an [N, D] table at an [E, 1] column of row numbers reads, at (e, k), the table at
    (row number of e clamped into [0, N - 1], k).
  * `rowScatter_lands`: the update at (e, k) of a row scatter lands on (n, k') exactly when the row number of e is n and k = k'.
  * `rowScatterAdd_apply`: adding [E, D] updates into the rows of an [N, D] table at an [E, 1] column of row numbers reads,
    at (n, k), the table at (n, k) plus the sum over the e whose row number is n of the update at (e, k).
-/
import Idealize.ShloMosaic.PureOps.Ideal
import Idealize.ShloMosaic.PureOps.Ideal.Laws
import Idealize.ShloMosaic.Lib.ValueIdx

noncomputable section

open scoped BigOperators

namespace Cert.RowScatter

open Idealize.ShloMosaic Idealize.ShloMosaic.ValueIdx

/-! ## Gathering rows -/

/-- The dimension numbers of a row gather: operand `[N, D]`, start indices `[E, 1]`, result `[E, D]`; axis 0 of the operand
    is indexed and collapsed, axis 1 is copied whole. -/
abbrev rowGatherDims (N E D : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- On the indexed axis a row gather reads the start index `idx[e, 0]`, signed and clamped into `[0, N - 1]`. -/
private theorem rowGather_coord0 {N E D w : ℕ}
    (wf : GatherDims.WF ⟨2, ![N, D]⟩ ⟨2, ![E, 1]⟩ ⟨2, ![E, D]⟩ [1] [0] [] [0] [] 1 ![1, D])
    (idx : IVec ⟨2, ![E, 1]⟩ w) (e : Fin E) (k : Fin D) :
    (rowGatherDims N E D wf).start (ix2 e k) idx (0 : Fin 2) + (rowGatherDims N E D wf).batchCoord (ix2 e k) (0 : Fin 2)
      + (rowGatherDims N E D wf).offCoord (ix2 e k) (0 : Fin 2) = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E D wf).startIndexMap from List.mem_singleton.mpr rfl)]
  have hsi : (rowGatherDims N E D wf).siIdx (ix2 e k) ⟨List.idxOf (0 : Fin 2) (rowGatherDims N E D wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the copied axis a row gather reads the result's own column. -/
private theorem rowGather_coord1 {N E D w : ℕ}
    (wf : GatherDims.WF ⟨2, ![N, D]⟩ ⟨2, ![E, 1]⟩ ⟨2, ![E, D]⟩ [1] [0] [] [0] [] 1 ![1, D])
    (idx : IVec ⟨2, ![E, 1]⟩ w) (e : Fin E) (k : Fin D) :
    (rowGatherDims N E D wf).start (ix2 e k) idx (1 : Fin 2) + (rowGatherDims N E D wf).batchCoord (ix2 e k) (1 : Fin 2)
      + (rowGatherDims N E D wf).offCoord (ix2 e k) (1 : Fin 2) = k.val := by
  have h10 : (1 : Fin 2) ∉ [(0 : Fin 2)] := fun h => absurd (List.mem_singleton.mp h) (by decide)
  have hs : (rowGatherDims N E D wf).start (ix2 e k) idx (1 : Fin 2) = 0 := by
    unfold GatherDims.start
    rw [dif_neg (show (1 : Fin 2) ∉ (rowGatherDims N E D wf).startIndexMap from h10)]
  have ho : (rowGatherDims N E D wf).offCoord (ix2 e k) (1 : Fin 2) = k.val := by
    unfold GatherDims.offCoord
    rw [dif_pos (show (1 : Fin 2) ∈ (rowGatherDims N E D wf).sKept from
      (GatherDims.mem_sKept _ _).mpr ⟨h10, List.not_mem_nil⟩)]
    rfl
  rw [GatherDims.batchCoord_eq_zero _ _ _ List.not_mem_nil, hs, ho]
  omega

/-- A row gather reads, at (e, k), the operand at row `idx[e, 0]` (read signed, clamped into `[0, N - 1]`) and column k. -/
theorem rowGather_apply {α : Type} {N E D w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGatherDims N E D wf) x idx (ix2 e k)
      = x (ix2 ⟨min (idx (ix2 e (0 : Fin 1))).toInt.toNat (N - 1), by omega⟩ k) := by
  unfold Host.gather
  congr 1
  funext a
  match a with
  | ⟨0, _⟩ => exact Fin.ext (rowGather_coord0 wf idx e k)
  | ⟨1, _⟩ => exact Fin.ext (rowGather_coord1 wf idx e k)

/-! ## Adding updates into rows -/

/-- The dimension numbers of a row scatter: operand `[N, D]`, scatter indices `[E, 1]`, updates `[E, D]`; axis 0 of the
    operand is indexed, axis 1 of the updates is the window laid along axis 1 of the operand. -/
abbrev rowScatterDims (N E D : ℕ) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Coords
variable {N E D w : ℕ} (wf : ScatterDims.WF ⟨2, ![N, D]⟩ ⟨2, ![E, 1]⟩ ⟨2, ![E, D]⟩ [1] [0] [0] 1)
  (idx : IVec ⟨2, ![E, 1]⟩ w) (e : Fin E) (k : Fin D)

private theorem one_not_mem : (1 : Fin 2) ∉ [(0 : Fin 2)] := fun h => absurd (List.mem_singleton.mp h) (by decide)

/-- The window of update (e, k) starts, on the indexed axis, at the row number `idx[e, 0]` read signed. -/
private theorem start0 :
    (rowScatterDims N E D wf).start (ix2 e k) idx (0 : Fin 2) = (idx (ix2 e (0 : Fin 1))).toInt := by
  unfold ScatterDims.start
  rw [dif_pos (show (0 : Fin 2) ∈ (rowScatterDims N E D wf).scatterDimsToOperandDims from List.mem_singleton.mpr rfl)]
  have hsi : (rowScatterDims N E D wf).siIdx (ix2 e k)
      ⟨List.idxOf (0 : Fin 2) (rowScatterDims N E D wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the window axis the start is 0. -/
private theorem start1 : (rowScatterDims N E D wf).start (ix2 e k) idx (1 : Fin 2) = 0 := by
  unfold ScatterDims.start
  rw [dif_neg (show (1 : Fin 2) ∉ (rowScatterDims N E D wf).scatterDimsToOperandDims from one_not_mem)]

/-- The indexed axis is inserted: no window coordinate there. -/
private theorem window0 : (rowScatterDims N E D wf).window (ix2 e k) (0 : Fin 2) = 0 := by
  unfold ScatterDims.window
  rw [dif_neg]
  intro h
  have h' : (0 : Fin 2) ∈ (List.finRange 2).filter (· ∉ [(0 : Fin 2)]) := h
  simp at h'

/-- On the window axis the window coordinate is the update's column. -/
private theorem window1 : (rowScatterDims N E D wf).window (ix2 e k) (1 : Fin 2) = k.val := by
  unfold ScatterDims.window
  rw [dif_pos (show (1 : Fin 2) ∈ (rowScatterDims N E D wf).sKept from by
    show (1 : Fin 2) ∈ (List.finRange 2).filter (· ∉ [(0 : Fin 2)])
    decide)]
  rfl

end Coords

/-- The update at (e, k) of a row scatter lands on (n, k') exactly when the row number `idx[e, 0]`, read signed, is n
    and k = k'. -/
theorem rowScatter_lands {N E D w : ℕ} (wf : ScatterDims.WF ⟨2, ![N, D]⟩ ⟨2, ![E, 1]⟩ ⟨2, ![E, D]⟩ [1] [0] [0] 1)
    (idx : IVec ⟨2, ![E, 1]⟩ w) (e : Fin E) (k : Fin D) (n : Fin N) (k' : Fin D) :
    (rowScatterDims N E D wf).resultIdx? (ix2 e k) idx = some (ix2 n k')
      ↔ ((idx (ix2 e (0 : Fin 1))).toInt = (n.val : ℤ) ∧ k = k') := by
  have hs0 := start0 wf idx e k
  have hs1 := start1 wf idx e k
  have hw0 := window0 wf e k
  have hw1 := window1 wf e k
  have hn := n.isLt
  have hk := k.isLt
  unfold ScatterDims.resultIdx?
  split
  · rename_i h
    have h0 : 0 ≤ (rowScatterDims N E D wf).start (ix2 e k) idx (0 : Fin 2)
        + ((rowScatterDims N E D wf).window (ix2 e k) (0 : Fin 2) : ℤ) := (h 0).1
    rw [hs0, hw0] at h0
    constructor
    · intro heq
      have heq' := Option.some.inj heq
      have e0 : ((rowScatterDims N E D wf).start (ix2 e k) idx (0 : Fin 2)
          + ((rowScatterDims N E D wf).window (ix2 e k) (0 : Fin 2) : ℤ)).toNat = n.val :=
        congrArg Fin.val (congrFun heq' (0 : Fin 2))
      have e1 : ((rowScatterDims N E D wf).start (ix2 e k) idx (1 : Fin 2)
          + ((rowScatterDims N E D wf).window (ix2 e k) (1 : Fin 2) : ℤ)).toNat = k'.val :=
        congrArg Fin.val (congrFun heq' (1 : Fin 2))
      rw [hs0, hw0] at e0
      rw [hs1, hw1] at e1
      exact ⟨by omega, Fin.ext (by omega)⟩
    · rintro ⟨hi, rfl⟩
      congr 1
      funext a
      refine Fin.ext ?_
      match a with
      | ⟨0, _⟩ =>
        show ((rowScatterDims N E D wf).start (ix2 e k) idx (0 : Fin 2)
          + ((rowScatterDims N E D wf).window (ix2 e k) (0 : Fin 2) : ℤ)).toNat = n.val
        rw [hs0, hw0]; omega
      | ⟨1, _⟩ =>
        show ((rowScatterDims N E D wf).start (ix2 e k) idx (1 : Fin 2)
          + ((rowScatterDims N E D wf).window (ix2 e k) (1 : Fin 2) : ℤ)).toNat = k.val
        rw [hs1, hw1]; omega
  · rename_i h
    constructor
    · intro heq; exact absurd heq (by simp)
    · rintro ⟨hi, rfl⟩
      exfalso
      apply h
      intro a
      match a with
      | ⟨0, _⟩ =>
        show 0 ≤ (rowScatterDims N E D wf).start (ix2 e k) idx (0 : Fin 2)
            + ((rowScatterDims N E D wf).window (ix2 e k) (0 : Fin 2) : ℤ)
          ∧ (rowScatterDims N E D wf).start (ix2 e k) idx (0 : Fin 2)
            + ((rowScatterDims N E D wf).window (ix2 e k) (0 : Fin 2) : ℤ) < (N : ℤ)
        rw [hs0, hw0]; omega
      | ⟨1, _⟩ =>
        show 0 ≤ (rowScatterDims N E D wf).start (ix2 e k) idx (1 : Fin 2)
            + ((rowScatterDims N E D wf).window (ix2 e k) (1 : Fin 2) : ℤ)
          ∧ (rowScatterDims N E D wf).start (ix2 e k) idx (1 : Fin 2)
            + ((rowScatterDims N E D wf).window (ix2 e k) (1 : Fin 2) : ℤ) < (D : ℤ)
        rw [hs1, hw1]; omega

/-- Adding updates into rows reads, at (n, k), the operand at (n, k) plus the sum, over the e whose row number
    `idx[e, 0]` read signed is n, of the update at (e, k). -/
theorem rowScatterAdd_apply {N E D w : ℕ} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (k : Fin D) :
    Host.scatterAdd (F := Ideal) (φ := .f32) (rowScatterDims N E D wf) x idx upd (ix2 n k)
      = x (ix2 n k) + ∑ e ∈ Finset.univ.filter (fun e : Fin E => (idx (ix2 e (0 : Fin 1))).toInt = (n.val : ℤ)),
          upd (ix2 e k) := by
  show Ideal.hostScatterAdd (rowScatterDims N E D wf) x idx upd (ix2 n k) = _
  unfold Ideal.hostScatterAdd
  congr 1
  rw [Finset.sum_filter, sum_idx2, Finset.sum_filter]
  refine Finset.sum_congr rfl fun e _ => ?_
  by_cases hP : (idx (ix2 e (0 : Fin 1))).toInt = (n.val : ℤ)
  · rw [if_pos hP]
    have : ∀ b : Fin D, (if (rowScatterDims N E D wf).resultIdx? (ix2 e b) idx = some (ix2 n k) then upd (ix2 e b) else 0)
        = if k = b then upd (ix2 e b) else 0 := by
      intro b
      refine if_congr ?_ rfl rfl
      rw [rowScatter_lands]
      exact ⟨fun h => h.2.symm, fun h => ⟨hP, h.symm⟩⟩
    rw [Finset.sum_congr rfl fun b _ => this b, Finset.sum_ite_eq]
    simp
  · rw [if_neg hP]
    refine Finset.sum_eq_zero fun b _ => ?_
    rw [if_neg]
    rw [rowScatter_lands]
    exact fun h => hP h.1

end Cert.RowScatter

end
-- ==== Proof.KHost0.lean ====
/-
  The first program's host bookkeeping, read index by index: what its host operations leave in the arrays its regions read.

  * `nbr128_apply` / `nbr64_apply`: adding, into a zero array, the rows gathered from f at the source column, at the
    destination column, is the neighbour sum of f.
  * `srcIK`, `dstIK`, `cntK`: the source column, the destination column and the in-degree count as functions of the edge array.
  * Region 0's entry: the neighbour-sum array (`v22_apply`), the reciprocal-degree column (`v12_apply`), the per-column rows
    (`v23_apply` … `v27_apply`), the arguments read directly (`V1_arg0`, `V1_arg2`, `V1_arg4`).
  * Region 1's entry: the neighbour sum of region 0's output (`v38_apply`), what is carried (`V5_v12`, `V5_v28`, `V5_arg5`,
    `V5_arg7`), the per-column rows (`v40_apply` … `v44_apply`), the weight padded with zero columns (`v39_apply`).
-/
import proofs.«148049_j15126874816626_2_alg».proof.Proof.Gen.KernelIdeal.Frame
import proofs.«148049_j15126874816626_2_alg».proof.Proof.SageSpec
import proofs.«148049_j15126874816626_2_alg».proof.Proof.LibRowScatter
import proofs.«148049_j15126874816626_2_alg».proof.Proof.LibDenseRows
import Idealize.ShloMosaic.Lib.StableHlo.Run
import Idealize.ShloMosaic.Lib.ValueLayout
import Idealize.ShloMosaic.Lib.Pipeline.Value

set_option maxRecDepth 16384

noncomputable section

open scoped BigOperators

namespace Cert.Sage.KHost

open Cert.KernelIdeal Cert.KernelIdeal.Gen Cert.Sage Idealize.ShloMosaic Idealize.ShloMosaic.ValueIdx Idealize.ShloMosaic.TcCoe
open Cert.RowScatter

/-! ## The neighbour sum as the programs compute it: gather the source rows, add them into a zero array at the destinations -/

/-- Rows of f gathered at the source column and added into a zero [50000, 128] array at the destination column: at (n, k)
    the neighbour sum of f. -/
theorem nbr128_apply (f : S50000x128.Idx → EReal) (sI dI : IVec S600000x1 32) (n : Fin 50000) (k : Fin 128) :
    Host.scatterAdd (F := Ideal) (φ := .f32) scatter_S50000x128_S600000x1_S600000x128_1_0_0_1
      (broadcastInDim S50000x128 ![] bcast_S_S50000x128 (constant (F := Ideal) S_ .f32 0x00000000#32)) dI
      (Host.gather gather_S50000x128_S600000x1_S600000x128_1_0_n_n_0_1_1128 f sI) (ix2 n k) = nbrSum sI dI f n k := by
  refine (rowScatterAdd_apply (N := 50000) (E := 600000) (D := 128)
    Facts₀.scatter_S50000x128_S600000x1_S600000x128_1_0_0_1_wf _ dI _ n k).trans ?_
  unfold nbrSum inEdges
  refine congrArg₂ (· + ·) rfl (Finset.sum_congr rfl fun e _ => ?_)
  exact rowGather_apply (N := 50000) (E := 600000) (D := 128) (by decide)
    Facts₀.gather_S50000x128_S600000x1_S600000x128_1_0_n_n_0_1_1128_wf f sI e k

/-- The same at width 64. -/
theorem nbr64_apply (f : S50000x64.Idx → EReal) (sI dI : IVec S600000x1 32) (n : Fin 50000) (k : Fin 64) :
    Host.scatterAdd (F := Ideal) (φ := .f32) scatter_S50000x64_S600000x1_S600000x64_1_0_0_1
      (broadcastInDim S50000x64 ![] bcast_S_S50000x64 (constant (F := Ideal) S_ .f32 0x00000000#32)) dI
      (Host.gather gather_S50000x64_S600000x1_S600000x64_1_0_n_n_0_1_164 f sI) (ix2 n k) = nbrSum sI dI f n k := by
  refine (rowScatterAdd_apply (N := 50000) (E := 600000) (D := 64)
    Facts₀.scatter_S50000x64_S600000x1_S600000x64_1_0_0_1_wf _ dI _ n k).trans ?_
  unfold nbrSum inEdges
  refine congrArg₂ (· + ·) rfl (Finset.sum_congr rfl fun e _ => ?_)
  exact rowGather_apply (N := 50000) (E := 600000) (D := 64) (by decide)
    Facts₀.gather_S50000x64_S600000x1_S600000x64_1_0_n_n_0_1_164_wf f sI e k

/-! ## The index columns and the in-degree count, as the host operations compute them from the edge array -/

/-- The source column: row 0 of the edge array as a flat array, a negative entry wrapped by adding 50000, as an [600000, 1] column. -/
def srcIK (ei : IVec S2x600000 32) : IVec S600000x1 32 :=
  broadcastInDim S600000x1 ![0] bcast_S600000_S600000x1_0
    (select
      (cmpi CmpIPredicate.slt
        (shapeCast S600000 (extractStridedSlice S1x600000 ![0, 0] ei slices_S2x600000_S1x600000_0_0) shapeCasts_S1x600000_S600000)
        (broadcastInDim S600000 ![] bcast_S_S600000 (constantI S_ 32 0#32)))
      (addi
        (shapeCast S600000 (extractStridedSlice S1x600000 ![0, 0] ei slices_S2x600000_S1x600000_0_0) shapeCasts_S1x600000_S600000)
        (broadcastInDim S600000 ![] bcast_S_S600000 (constantI S_ 32 50000#32)))
      (shapeCast S600000 (extractStridedSlice S1x600000 ![0, 0] ei slices_S2x600000_S1x600000_0_0) shapeCasts_S1x600000_S600000))

/-- The destination column: row 1 of the edge array as a flat array, as an [600000, 1] column. -/
def dstIK (ei : IVec S2x600000 32) : IVec S600000x1 32 :=
  broadcastInDim S600000x1 ![0] bcast_S600000_S600000x1_0
    (shapeCast S600000 (extractStridedSlice S1x600000 ![1, 0] ei slices_S2x600000_S1x600000_1_0) shapeCasts_S1x600000_S600000)

/-- The in-degree count: ones added into a zero array of length 50000 at the destination column. -/
def cntK (ei : IVec S2x600000 32) : S50000.Idx → EReal :=
  Host.scatterAdd (F := Ideal) (φ := .f32) scatter_S50000_S600000x1_S600000_n_0_0_1
    (broadcastInDim S50000 ![] bcast_S_S50000 (constant (F := Ideal) S_ .f32 0x00000000#32))
    (dstIK ei)
    (broadcastInDim S600000 ![] bcast_S_S600000 (constant (F := Ideal) S_ .f32 0x3F800000#32))

variable (m : (ℓ : Loc nD τ sig) → Buf (Elt Ideal) ℓ) (ρ : Dev nD → PrngReg) (c : Dev nD)

/-- The edge array and the feature array as launched. -/
abbrev eiOf : IVec S2x600000 32 := m ((c : Thread nD τ).loc main_arg1)
abbrev xOf : S50000x128.Idx → EReal := m ((c : Thread nD τ).loc main_arg0)

/-! ## Region 0's entry -/

/-- The array region 0 reads as the neighbour sum is the host's gather-then-add of the features. -/
theorem v22_eq : (V1 m ρ c main_v22 : S50000x128.Idx → EReal)
    = Host.scatterAdd (F := Ideal) (φ := .f32) scatter_S50000x128_S600000x1_S600000x128_1_0_0_1
        (broadcastInDim S50000x128 ![] bcast_S_S50000x128 (constant (F := Ideal) S_ .f32 0x00000000#32)) (dstIK (eiOf m c))
        (Host.gather gather_S50000x128_S600000x1_S600000x128_1_0_n_n_0_1_1128 (xOf m c) (srcIK (eiOf m c))) := by
  dsimp only [V1, W1]
  after_results_simp
  rfl

/-- At (n, k) it is the neighbour sum of the features. -/
theorem v22_apply (n : Fin 50000) (k : Fin 128) :
    (V1 m ρ c main_v22 : S50000x128.Idx → EReal) (ix2 n k) = nbrSum (srcIK (eiOf m c)) (dstIK (eiOf m c)) (xOf m c) n k :=
  (congrFun (v22_eq m ρ c) (ix2 n k)).trans (nbr128_apply _ _ _ n k)

/-- One over a count floored at one, as the host computes it, is the reciprocal degree. -/
theorem invDeg_host (cnt : S50000.Idx → EReal) (n : Fin 50000) :
    Host.divf (F := Ideal) (φ := .f32)
      (broadcastInDim S50000 ![] bcast_S_S50000 (constant (F := Ideal) S_ .f32 0x3F800000#32))
      (maximumf (F := Ideal) (φ := .f32) cnt
        (broadcastInDim S50000 ![] bcast_S_S50000 (constant (F := Ideal) S_ .f32 0x3F800000#32))) (ix1 n) = invDeg cnt n := by
  unfold invDeg deg
  rfl

/-- The reciprocal-degree column region 0 reads: one over the count floored at one, as an [50000, 1] column. -/
theorem v12_eq : (V1 m ρ c main_v12 : S50000x1.Idx → EReal)
    = shapeCast S50000x1
        (Host.divf (F := Ideal) (φ := .f32)
          (broadcastInDim S50000 ![] bcast_S_S50000 (constant (F := Ideal) S_ .f32 0x3F800000#32))
          (maximumf (F := Ideal) (φ := .f32) (cntK (eiOf m c))
            (broadcastInDim S50000 ![] bcast_S_S50000 (constant (F := Ideal) S_ .f32 0x3F800000#32))))
        shapeCasts_S50000_S50000x1 := by
  dsimp only [V1, W1]
  after_results_simp
  rfl

/-- At (n, 0) it is the reciprocal of node n's degree. -/
theorem v12_apply (n : Fin 50000) :
    (V1 m ρ c main_v12 : S50000x1.Idx → EReal) (ix2 n (0 : Fin 1)) = invDeg (cntK (eiOf m c)) n := by
  refine (congrFun (v12_eq m ρ c) (ix2 n (0 : Fin 1))).trans ?_
  refine (Cert.DenseRows.shapeCast_a_a1_apply (a := 50000) _ shapeCasts_S50000_S50000x1 n (0 : Fin 1)).trans ?_
  exact invDeg_host _ n

/-! A flat [b] array reshaped to a [1, b] row reads, at (0, j), the array at j. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

/-- The per-column rows region 0 reads are the launched [128] arrays, reshaped to [1, 128]. -/
theorem v23_eq : (V1 m ρ c main_v23 : S1x128.Idx → EReal)
    = shapeCast S1x128 (m ((c : Thread nD τ).loc main_arg3) : S128.Idx → EReal) shapeCasts_S128_S1x128 := by
  dsimp only [V1, W1]; after_results_simp; rfl
theorem v24_eq : (V1 m ρ c main_v24 : S1x128.Idx → EReal)
    = shapeCast S1x128 (m ((c : Thread nD τ).loc main_arg11) : S128.Idx → EReal) shapeCasts_S128_S1x128 := by
  dsimp only [V1, W1]; after_results_simp; rfl
theorem v25_eq : (V1 m ρ c main_v25 : S1x128.Idx → EReal)
    = shapeCast S1x128 (m ((c : Thread nD τ).loc main_arg12) : S128.Idx → EReal) shapeCasts_S128_S1x128 := by
  dsimp only [V1, W1]; after_results_simp; rfl
theorem v26_eq : (V1 m ρ c main_v26 : S1x128.Idx → EReal)
    = shapeCast S1x128 (m ((c : Thread nD τ).loc main_arg13) : S128.Idx → EReal) shapeCasts_S128_S1x128 := by
  dsimp only [V1, W1]; after_results_simp; rfl
theorem v27_eq : (V1 m ρ c main_v27 : S1x128.Idx → EReal)
    = shapeCast S1x128 (m ((c : Thread nD τ).loc main_arg14) : S128.Idx → EReal) shapeCasts_S128_S1x128 := by
  dsimp only [V1, W1]; after_results_simp; rfl

/-- At (0, j) each is the launched array at j. -/
theorem v23_apply (j : Fin 128) : (V1 m ρ c main_v23 : S1x128.Idx → EReal) (ix2 (0 : Fin 1) j)
    = (m ((c : Thread nD τ).loc main_arg3) : S128.Idx → EReal) (ix1 j) :=
  (congrFun (v23_eq m ρ c) _).trans (shapeCast_b_1b_apply (b := 128) _ shapeCasts_S128_S1x128 0 j)
theorem v24_apply (j : Fin 128) : (V1 m ρ c main_v24 : S1x128.Idx → EReal) (ix2 (0 : Fin 1) j)
    = (m ((c : Thread nD τ).loc main_arg11) : S128.Idx → EReal) (ix1 j) :=
  (congrFun (v24_eq m ρ c) _).trans (shapeCast_b_1b_apply (b := 128) _ shapeCasts_S128_S1x128 0 j)
theorem v25_apply (j : Fin 128) : (V1 m ρ c main_v25 : S1x128.Idx → EReal) (ix2 (0 : Fin 1) j)
    = (m ((c : Thread nD τ).loc main_arg12) : S128.Idx → EReal) (ix1 j) :=
  (congrFun (v25_eq m ρ c) _).trans (shapeCast_b_1b_apply (b := 128) _ shapeCasts_S128_S1x128 0 j)
theorem v26_apply (j : Fin 128) : (V1 m ρ c main_v26 : S1x128.Idx → EReal) (ix2 (0 : Fin 1) j)
    = (m ((c : Thread nD τ).loc main_arg13) : S128.Idx → EReal) (ix1 j) :=
  (congrFun (v26_eq m ρ c) _).trans (shapeCast_b_1b_apply (b := 128) _ shapeCasts_S128_S1x128 0 j)
theorem v27_apply (j : Fin 128) : (V1 m ρ c main_v27 : S1x128.Idx → EReal) (ix2 (0 : Fin 1) j)
    = (m ((c : Thread nD τ).loc main_arg14) : S128.Idx → EReal) (ix1 j) :=
  (congrFun (v27_eq m ρ c) _).trans (shapeCast_b_1b_apply (b := 128) _ shapeCasts_S128_S1x128 0 j)

/-! ## Buffers a stretch of host operations does not write keep their contents -/

/-- The buffer `b` is written by no operation of the stretch `ops`: its contents after the stretch are its contents before. -/
local macro "host_keeps " b:term " over " ops:ident : tactic => `(tactic|
  exact StableHlo.after_of_forall_not_mem (b := Proc.devRef .tc $b) _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- The arguments region 0 reads directly are as launched. -/
theorem V1_arg0 : V1 m ρ c main_arg0 = m ((c : Thread nD τ).loc main_arg0) :=
  calc W1 m ρ c (Proc.devRef .tc main_arg0)
    _ = W0 m ρ c (Proc.devRef .tc main_arg0) := by host_keeps main_arg0 over hostOps0
    _ = m ((c : Thread nD τ).loc main_arg0) := rfl
theorem V1_arg2 : V1 m ρ c main_arg2 = m ((c : Thread nD τ).loc main_arg2) :=
  calc W1 m ρ c (Proc.devRef .tc main_arg2)
    _ = W0 m ρ c (Proc.devRef .tc main_arg2) := by host_keeps main_arg2 over hostOps0
    _ = m ((c : Thread nD τ).loc main_arg2) := rfl
theorem V1_arg4 : V1 m ρ c main_arg4 = m ((c : Thread nD τ).loc main_arg4) :=
  calc W1 m ρ c (Proc.devRef .tc main_arg4)
    _ = W0 m ρ c (Proc.devRef .tc main_arg4) := by host_keeps main_arg4 over hostOps0
    _ = m ((c : Thread nD τ).loc main_arg4) := rfl

/-! ## Region 1's entry -/

/-- Row 0 and row 1 of the edge array as flat arrays, and the two columns the host forms from flat arrays. -/
def eiRow0 (ei : IVec S2x600000 32) : IVec S600000 32 :=
  shapeCast S600000 (extractStridedSlice S1x600000 ![0, 0] ei slices_S2x600000_S1x600000_0_0) shapeCasts_S1x600000_S600000
def eiRow1 (ei : IVec S2x600000 32) : IVec S600000 32 :=
  shapeCast S600000 (extractStridedSlice S1x600000 ![1, 0] ei slices_S2x600000_S1x600000_1_0) shapeCasts_S1x600000_S600000
def srcColOf (v : IVec S600000 32) : IVec S600000x1 32 :=
  broadcastInDim S600000x1 ![0] bcast_S600000_S600000x1_0
    (select (cmpi CmpIPredicate.slt v (broadcastInDim S600000 ![] bcast_S_S600000 (constantI S_ 32 0#32)))
      (addi v (broadcastInDim S600000 ![] bcast_S_S600000 (constantI S_ 32 50000#32))) v)
def dstColOf (v : IVec S600000 32) : IVec S600000x1 32 := broadcastInDim S600000x1 ![0] bcast_S600000_S600000x1_0 v

theorem srcIK_eq (ei : IVec S2x600000 32) : srcIK ei = srcColOf (eiRow0 ei) := rfl
theorem dstIK_eq (ei : IVec S2x600000 32) : dstIK ei = dstColOf (eiRow1 ei) := rfl

/-- The flat rows of the edge array as the first stretch of host operations leaves them. -/
theorem W1_v1 : (W1 m ρ c (Proc.devRef .tc main_v1) : S600000.Idx → BitVec 32) = eiRow0 (eiOf m c) := by
  dsimp only [W1]; after_results_simp; rfl
theorem W1_v3 : (W1 m ρ c (Proc.devRef .tc main_v3) : S600000.Idx → BitVec 32) = eiRow1 (eiOf m c) := by
  dsimp only [W1]; after_results_simp; rfl

/-- The source column recomputed from the flat row 0 is the source column; the destination column rebroadcast from the flat
    row 1 is the destination column. -/
theorem srcI_of_v1 :
    broadcastInDim S600000x1 ![0] bcast_S600000_S600000x1_0
      (select
        (cmpi CmpIPredicate.slt (W1 m ρ c (Proc.devRef .tc main_v1) : S600000.Idx → BitVec 32)
          (broadcastInDim S600000 ![] bcast_S_S600000 (constantI S_ 32 0#32)))
        (addi (W1 m ρ c (Proc.devRef .tc main_v1) : S600000.Idx → BitVec 32)
          (broadcastInDim S600000 ![] bcast_S_S600000 (constantI S_ 32 50000#32)))
        (W1 m ρ c (Proc.devRef .tc main_v1) : S600000.Idx → BitVec 32)) = srcIK (eiOf m c) := by
  rw [W1_v1]; rfl
theorem dstI_of_v3 :
    broadcastInDim S600000x1 ![0] bcast_S600000_S600000x1_0 (W1 m ρ c (Proc.devRef .tc main_v3) : S600000.Idx → BitVec 32)
      = dstIK (eiOf m c) := by
  rw [W1_v3]; rfl

/-- The columns the first stretch itself stores are these columns. -/
theorem v6_eq : (V1 m ρ c main_v6 : S600000x1.Idx → BitVec 32) = dstIK (eiOf m c) := by
  dsimp only [V1, W1]; after_results_simp; rfl
theorem v21_eq : (V1 m ρ c main_v21 : S600000x1.Idx → BitVec 32) = dstIK (eiOf m c) := by
  dsimp only [V1, W1]; after_results_simp; rfl
theorem v18_eq : (V1 m ρ c main_v18 : S600000x1.Idx → BitVec 32) = srcIK (eiOf m c) := by
  dsimp only [V1, W1]; after_results_simp; rfl

/-- The flat rows of the edge array, written before region 0, are still there at region 0's exit. -/
theorem W2_v1 : (W2 m ρ c (Proc.devRef .tc main_v1) : S600000.Idx → BitVec 32) = eiRow0 (eiOf m c) :=
  (W2_of_ne m ρ c main_v1 (by decide)).trans (W1_v1 m ρ c)
theorem W2_v3 : (W2 m ρ c (Proc.devRef .tc main_v3) : S600000.Idx → BitVec 32) = eiRow1 (eiOf m c) :=
  (W2_of_ne m ρ c main_v3 (by decide)).trans (W1_v3 m ρ c)

/-- Region 0's output array. -/
abbrev h1Of : S50000x128.Idx → EReal := W2 m ρ c (Proc.devRef .tc main_v28)

theorem W3_v38 : (W3 m ρ c (Proc.devRef .tc main_v38) : S50000x128.Idx → EReal)
    = Host.scatterAdd (F := Ideal) (φ := .f32) scatter_S50000x128_S600000x1_S600000x128_1_0_0_1
        (broadcastInDim S50000x128 ![] bcast_S_S50000x128 (constant (F := Ideal) S_ .f32 0x00000000#32))
        (dstColOf (W2 m ρ c (Proc.devRef .tc main_v3)))
        (Host.gather gather_S50000x128_S600000x1_S600000x128_1_0_n_n_0_1_1128 (h1Of m ρ c)
          (srcColOf (W2 m ρ c (Proc.devRef .tc main_v1)))) := by
  dsimp only [W3]
  after_results_simp
  rfl

/-- The array region 1 reads as the neighbour sum is the host's gather-then-add of region 0's output. -/
theorem v38_eq : (V5 m ρ c main_v38 : S50000x128.Idx → EReal)
    = Host.scatterAdd (F := Ideal) (φ := .f32) scatter_S50000x128_S600000x1_S600000x128_1_0_0_1
        (broadcastInDim S50000x128 ![] bcast_S_S50000x128 (constant (F := Ideal) S_ .f32 0x00000000#32)) (dstIK (eiOf m c))
        (Host.gather gather_S50000x128_S600000x1_S600000x128_1_0_n_n_0_1_1128 (h1Of m ρ c) (srcIK (eiOf m c))) :=
  calc W5 m ρ c (Proc.devRef .tc main_v38)
    _ = W4 m ρ c (Proc.devRef .tc main_v38) := by host_keeps main_v38 over hostOps1_2
    _ = W3 m ρ c (Proc.devRef .tc main_v38) := by host_keeps main_v38 over hostOps1_1
    _ = _ := W3_v38 m ρ c
    _ = _ := by rw [W2_v1, W2_v3]; rfl

/-- At (n, k) it is the neighbour sum of region 0's output. -/
theorem v38_apply (n : Fin 50000) (k : Fin 128) :
    (V5 m ρ c main_v38 : S50000x128.Idx → EReal) (ix2 n k) = nbrSum (srcIK (eiOf m c)) (dstIK (eiOf m c)) (h1Of m ρ c) n k :=
  (congrFun (v38_eq m ρ c) (ix2 n k)).trans (nbr128_apply _ _ _ n k)

/-- The columns the second stretch stores are the same columns. -/
theorem v37_eq : (W3 m ρ c (Proc.devRef .tc main_v37) : S600000x1.Idx → BitVec 32) = dstIK (eiOf m c) := by
  have e : (W3 m ρ c (Proc.devRef .tc main_v37) : S600000x1.Idx → BitVec 32)
      = dstColOf (W2 m ρ c (Proc.devRef .tc main_v3)) := by
    dsimp only [W3]; after_results_simp; rfl
  rw [e, W2_v3]; rfl
theorem v34_eq : (W3 m ρ c (Proc.devRef .tc main_v34) : S600000x1.Idx → BitVec 32) = srcIK (eiOf m c) := by
  have e : (W3 m ρ c (Proc.devRef .tc main_v34) : S600000x1.Idx → BitVec 32)
      = srcColOf (W2 m ρ c (Proc.devRef .tc main_v1)) := by
    dsimp only [W3]; after_results_simp; rfl
  rw [e, W2_v1]; rfl

/-- The reciprocal-degree column is carried from region 0's entry to region 1's: region 0 only reads it, no host operation in
    between writes it. -/
theorem V5_v12 : V5 m ρ c main_v12 = V1 m ρ c main_v12 :=
  calc W5 m ρ c (Proc.devRef .tc main_v12)
    _ = W4 m ρ c (Proc.devRef .tc main_v12) := by host_keeps main_v12 over hostOps1_2
    _ = W3 m ρ c (Proc.devRef .tc main_v12) := by host_keeps main_v12 over hostOps1_1
    _ = W2 m ρ c (Proc.devRef .tc main_v12) := by host_keeps main_v12 over hostOps1
    _ = W1 m ρ c (Proc.devRef .tc main_v12) :=
      (W2_arr m ρ c 1).trans (((dat0 (V1 m ρ) c).arrAt_in 1 rfl _).trans (A_eq0 (V1 m ρ) c 1))

/-- Region 0's output array reaches region 1 unchanged. -/
theorem V5_v28 : V5 m ρ c main_v28 = W2 m ρ c (Proc.devRef .tc main_v28) :=
  calc W5 m ρ c (Proc.devRef .tc main_v28)
    _ = W4 m ρ c (Proc.devRef .tc main_v28) := by host_keeps main_v28 over hostOps1_2
    _ = W3 m ρ c (Proc.devRef .tc main_v28) := by host_keeps main_v28 over hostOps1_1
    _ = W2 m ρ c (Proc.devRef .tc main_v28) := by host_keeps main_v28 over hostOps1

/-- An argument no region-0 window names and no host operation writes is, at region 1's entry, as launched. -/
theorem V5_arg5 : V5 m ρ c main_arg5 = m ((c : Thread nD τ).loc main_arg5) :=
  calc W5 m ρ c (Proc.devRef .tc main_arg5)
    _ = W4 m ρ c (Proc.devRef .tc main_arg5) := by host_keeps main_arg5 over hostOps1_2
    _ = W3 m ρ c (Proc.devRef .tc main_arg5) := by host_keeps main_arg5 over hostOps1_1
    _ = W2 m ρ c (Proc.devRef .tc main_arg5) := by host_keeps main_arg5 over hostOps1
    _ = W1 m ρ c (Proc.devRef .tc main_arg5) := W2_of_ne m ρ c main_arg5 (by decide)
    _ = W0 m ρ c (Proc.devRef .tc main_arg5) := by host_keeps main_arg5 over hostOps0
    _ = m ((c : Thread nD τ).loc main_arg5) := rfl
theorem V5_arg7 : V5 m ρ c main_arg7 = m ((c : Thread nD τ).loc main_arg7) :=
  calc W5 m ρ c (Proc.devRef .tc main_arg7)
    _ = W4 m ρ c (Proc.devRef .tc main_arg7) := by host_keeps main_arg7 over hostOps1_2
    _ = W3 m ρ c (Proc.devRef .tc main_arg7) := by host_keeps main_arg7 over hostOps1_1
    _ = W2 m ρ c (Proc.devRef .tc main_arg7) := by host_keeps main_arg7 over hostOps1
    _ = W1 m ρ c (Proc.devRef .tc main_arg7) := W2_of_ne m ρ c main_arg7 (by decide)
    _ = W0 m ρ c (Proc.devRef .tc main_arg7) := by host_keeps main_arg7 over hostOps0
    _ = m ((c : Thread nD τ).loc main_arg7) := rfl

/-- A launched argument that only host reshapes read, as region 1's host stretches find it. -/
private theorem W4_arg (b : Ref sig .tc) (h0 : W1 m ρ c (Proc.devRef .tc b) = W0 m ρ c (Proc.devRef .tc b))
    (h1 : W3 m ρ c (Proc.devRef .tc b) = W2 m ρ c (Proc.devRef .tc b))
    (h2 : W4 m ρ c (Proc.devRef .tc b) = W3 m ρ c (Proc.devRef .tc b))
    (hw : ∀ w, Pipeline.arrRef spec0 w ≠ b) :
    W4 m ρ c (Proc.devRef .tc b) = m ((c : Thread nD τ).loc b) :=
  h2.trans (h1.trans ((W2_of_ne m ρ c b hw).trans (h0.trans rfl)))

private theorem W4_arg6 : W4 m ρ c (Proc.devRef .tc main_arg6) = m ((c : Thread nD τ).loc main_arg6) :=
  W4_arg m ρ c main_arg6 (by host_keeps main_arg6 over hostOps0) (by host_keeps main_arg6 over hostOps1)
    (by host_keeps main_arg6 over hostOps1_1) (by decide)
private theorem W4_arg15 : W4 m ρ c (Proc.devRef .tc main_arg15) = m ((c : Thread nD τ).loc main_arg15) :=
  W4_arg m ρ c main_arg15 (by host_keeps main_arg15 over hostOps0) (by host_keeps main_arg15 over hostOps1)
    (by host_keeps main_arg15 over hostOps1_1) (by decide)
private theorem W4_arg16 : W4 m ρ c (Proc.devRef .tc main_arg16) = m ((c : Thread nD τ).loc main_arg16) :=
  W4_arg m ρ c main_arg16 (by host_keeps main_arg16 over hostOps0) (by host_keeps main_arg16 over hostOps1)
    (by host_keeps main_arg16 over hostOps1_1) (by decide)
private theorem W4_arg17 : W4 m ρ c (Proc.devRef .tc main_arg17) = m ((c : Thread nD τ).loc main_arg17) :=
  W4_arg m ρ c main_arg17 (by host_keeps main_arg17 over hostOps0) (by host_keeps main_arg17 over hostOps1)
    (by host_keeps main_arg17 over hostOps1_1) (by decide)
private theorem W4_arg18 : W4 m ρ c (Proc.devRef .tc main_arg18) = m ((c : Thread nD τ).loc main_arg18) :=
  W4_arg m ρ c main_arg18 (by host_keeps main_arg18 over hostOps0) (by host_keeps main_arg18 over hostOps1)
    (by host_keeps main_arg18 over hostOps1_1) (by decide)

/-- The per-column rows region 1 reads are the launched [128] arrays, reshaped to [1, 128]. -/
theorem v40_eq : (V5 m ρ c main_v40 : S1x128.Idx → EReal)
    = shapeCast S1x128 (m ((c : Thread nD τ).loc main_arg6) : S128.Idx → EReal) shapeCasts_S128_S1x128 := by
  have e : (V5 m ρ c main_v40 : S1x128.Idx → EReal)
      = shapeCast S1x128 (W4 m ρ c (Proc.devRef .tc main_arg6) : S128.Idx → EReal) shapeCasts_S128_S1x128 := by
    dsimp only [V5, W5]; after_results_simp; rfl
  rw [e, W4_arg6]
theorem v41_eq : (V5 m ρ c main_v41 : S1x128.Idx → EReal)
    = shapeCast S1x128 (m ((c : Thread nD τ).loc main_arg15) : S128.Idx → EReal) shapeCasts_S128_S1x128 := by
  have e : (V5 m ρ c main_v41 : S1x128.Idx → EReal)
      = shapeCast S1x128 (W4 m ρ c (Proc.devRef .tc main_arg15) : S128.Idx → EReal) shapeCasts_S128_S1x128 := by
    dsimp only [V5, W5]; after_results_simp; rfl
  rw [e, W4_arg15]
theorem v42_eq : (V5 m ρ c main_v42 : S1x128.Idx → EReal)
    = shapeCast S1x128 (m ((c : Thread nD τ).loc main_arg16) : S128.Idx → EReal) shapeCasts_S128_S1x128 := by
  have e : (V5 m ρ c main_v42 : S1x128.Idx → EReal)
      = shapeCast S1x128 (W4 m ρ c (Proc.devRef .tc main_arg16) : S128.Idx → EReal) shapeCasts_S128_S1x128 := by
    dsimp only [V5, W5]; after_results_simp; rfl
  rw [e, W4_arg16]
theorem v43_eq : (V5 m ρ c main_v43 : S1x128.Idx → EReal)
    = shapeCast S1x128 (m ((c : Thread nD τ).loc main_arg17) : S128.Idx → EReal) shapeCasts_S128_S1x128 := by
  have e : (V5 m ρ c main_v43 : S1x128.Idx → EReal)
      = shapeCast S1x128 (W4 m ρ c (Proc.devRef .tc main_arg17) : S128.Idx → EReal) shapeCasts_S128_S1x128 := by
    dsimp only [V5, W5]; after_results_simp; rfl
  rw [e, W4_arg17]
theorem v44_eq : (V5 m ρ c main_v44 : S1x128.Idx → EReal)
    = shapeCast S1x128 (m ((c : Thread nD τ).loc main_arg18) : S128.Idx → EReal) shapeCasts_S128_S1x128 := by
  have e : (V5 m ρ c main_v44 : S1x128.Idx → EReal)
      = shapeCast S1x128 (W4 m ρ c (Proc.devRef .tc main_arg18) : S128.Idx → EReal) shapeCasts_S128_S1x128 := by
    dsimp only [V5, W5]; after_results_simp; rfl
  rw [e, W4_arg18]

/-- At (0, j) each is the launched array at j. -/
theorem v40_apply (j : Fin 128) : (V5 m ρ c main_v40 : S1x128.Idx → EReal) (ix2 (0 : Fin 1) j)
    = (m ((c : Thread nD τ).loc main_arg6) : S128.Idx → EReal) (ix1 j) :=
  (congrFun (v40_eq m ρ c) _).trans (shapeCast_b_1b_apply (b := 128) _ shapeCasts_S128_S1x128 0 j)
theorem v41_apply (j : Fin 128) : (V5 m ρ c main_v41 : S1x128.Idx → EReal) (ix2 (0 : Fin 1) j)
    = (m ((c : Thread nD τ).loc main_arg15) : S128.Idx → EReal) (ix1 j) :=
  (congrFun (v41_eq m ρ c) _).trans (shapeCast_b_1b_apply (b := 128) _ shapeCasts_S128_S1x128 0 j)
theorem v42_apply (j : Fin 128) : (V5 m ρ c main_v42 : S1x128.Idx → EReal) (ix2 (0 : Fin 1) j)
    = (m ((c : Thread nD τ).loc main_arg16) : S128.Idx → EReal) (ix1 j) :=
  (congrFun (v42_eq m ρ c) _).trans (shapeCast_b_1b_apply (b := 128) _ shapeCasts_S128_S1x128 0 j)
theorem v43_apply (j : Fin 128) : (V5 m ρ c main_v43 : S1x128.Idx → EReal) (ix2 (0 : Fin 1) j)
    = (m ((c : Thread nD τ).loc main_arg17) : S128.Idx → EReal) (ix1 j) :=
  (congrFun (v43_eq m ρ c) _).trans (shapeCast_b_1b_apply (b := 128) _ shapeCasts_S128_S1x128 0 j)
theorem v44_apply (j : Fin 128) : (V5 m ρ c main_v44 : S1x128.Idx → EReal) (ix2 (0 : Fin 1) j)
    = (m ((c : Thread nD τ).loc main_arg18) : S128.Idx → EReal) (ix1 j) :=
  (congrFun (v44_eq m ρ c) _).trans (shapeCast_b_1b_apply (b := 128) _ shapeCasts_S128_S1x128 0 j)

/-- An [A, B] array padded on the right of its columns up to [A, B'] reads, at (k, j), the array at (k, j) when j is below B
    and the padding value beyond. -/
private theorem pad_cols_apply {α : Type} {A B B' hi : ℕ} (x : (⟨2, ![A, B]⟩ : Shape).Idx → α) {u : Shape} (v : u.Idx → α)
    (h : (⟨2, ![A, B]⟩ : Shape).Pads ![0, 0] ![0, hi] ![0, 0] ⟨2, ![A, B']⟩) (hu : 0 < u.numel) (k : Fin A) (j : Fin B') :
    pad ⟨2, ![A, B']⟩ ![0, 0] ![0, hi] ![0, 0] x v h hu (ix2 k j)
      = if hj : j.val < B then x (ix2 k ⟨j.val, hj⟩) else v (Shape.Idx.first hu) := by
  unfold pad
  by_cases hj : j.val < B
  · rw [dif_pos hj]
    split
    · refine congrArg x (funext fun a => Fin.ext ?_)
      match a with
      | ⟨0, _⟩ =>
        show (k.val - 0) / (0 + 1) = k.val
        rw [Nat.sub_zero, Nat.zero_add, Nat.div_one]
      | ⟨1, _⟩ =>
        show (j.val - 0) / (0 + 1) = j.val
        rw [Nat.sub_zero, Nat.zero_add, Nat.div_one]
    · rename_i hin
      exfalso
      apply hin
      intro a
      match a with
      | ⟨0, _⟩ =>
        show 0 ≤ k.val ∧ (k.val - 0) % (0 + 1) = 0 ∧ (k.val - 0) / (0 + 1) < A
        rw [Nat.sub_zero, Nat.zero_add, Nat.div_one, Nat.mod_one]
        exact ⟨Nat.zero_le _, rfl, k.isLt⟩
      | ⟨1, _⟩ =>
        show 0 ≤ j.val ∧ (j.val - 0) % (0 + 1) = 0 ∧ (j.val - 0) / (0 + 1) < B
        rw [Nat.sub_zero, Nat.zero_add, Nat.div_one, Nat.mod_one]
        exact ⟨Nat.zero_le _, rfl, hj⟩
  · rw [dif_neg hj]
    split
    · rename_i hin
      exfalso
      have h1 : (j.val - 0) / (0 + 1) < B := (hin (1 : Fin 2)).2.2
      rw [Nat.sub_zero, Nat.zero_add, Nat.div_one] at h1
      exact hj h1
    · rfl

/-- The [128, 64] weight region 1 reads is the launched [128, 47] weight with 17 zero columns appended. -/
theorem v39_eq : (V5 m ρ c main_v39 : S128x64.Idx → EReal)
    = pad S128x64 ![0, 0] ![0, 17] ![0, 0] (m ((c : Thread nD τ).loc main_arg8) : S128x47.Idx → EReal)
        (constant (F := Ideal) S_ .f32 0x00000000#32) pads_S128x47_S128x64_000_0170 h_S_ := by
  have e8 : W2 m ρ c (Proc.devRef .tc main_arg8) = m ((c : Thread nD τ).loc main_arg8) :=
    calc W2 m ρ c (Proc.devRef .tc main_arg8)
      _ = W1 m ρ c (Proc.devRef .tc main_arg8) := W2_of_ne m ρ c main_arg8 (by decide)
      _ = W0 m ρ c (Proc.devRef .tc main_arg8) := by host_keeps main_arg8 over hostOps0
      _ = m ((c : Thread nD τ).loc main_arg8) := rfl
  have e4 : (W4 m ρ c (Proc.devRef .tc main_v39) : S128x64.Idx → EReal)
      = pad S128x64 ![0, 0] ![0, 17] ![0, 0] (W2 m ρ c (Proc.devRef .tc main_arg8) : S128x47.Idx → EReal)
          (constant (F := Ideal) S_ .f32 0x00000000#32) pads_S128x47_S128x64_000_0170 h_S_ := by
    dsimp only [W4]; after_results_simp; rfl
  have e5 : V5 m ρ c main_v39 = W4 m ρ c (Proc.devRef .tc main_v39) := by host_keeps main_v39 over hostOps1_2
  rw [e5, e4, e8]

/-- At (k, j) it is the launched weight at (k, j) for j below 47 and zero beyond. -/
theorem v39_apply (k : Fin 128) (j : Fin 64) : (V5 m ρ c main_v39 : S128x64.Idx → EReal) (ix2 k j)
    = if h : j.val < 47 then (m ((c : Thread nD τ).loc main_arg8) : S128x47.Idx → EReal) (ix2 k ⟨j.val, h⟩) else zeroE :=
  (congrFun (v39_eq m ρ c) (ix2 k j)).trans
    (pad_cols_apply (A := 128) (B := 47) (B' := 64) (hi := 17) _ _ pads_S128x47_S128x64_000_0170 h_S_ k j)

end Cert.Sage.KHost

end
-- ==== Proof.KHost2.lean ====
/-
  The buffers of the first arrangement at region 2's entry and after the last stretch, read index by index.

  Between the regions the host stretches write new arrays out of old ones; an array that a stretch does not write keeps
  its contents across it, and an input window of a region keeps its array across the region. Folding these facts from
  one boundary to the next: the edge entries and the reciprocal-degree column reach region 2 as they left the first
  stretch; region 2's first input is the scatter-add, onto zeros at the destination entries, of the rows of region 1's
  second output gathered at the wrapped source entries; the weights and the bias of the output layer enter region 2
  padded with zeros from 47 to 64 columns; and the result is the first 47 columns of region 2's output.
-/
import proofs.«148049_j15126874816626_2_alg».proof.Proof.Gen.KernelIdeal.Frame
import proofs.«148049_j15126874816626_2_alg».proof.Proof.SageSpec
import proofs.«148049_j15126874816626_2_alg».proof.Proof.LibRowScatter
import proofs.«148049_j15126874816626_2_alg».proof.Proof.LibDenseRows
import Idealize.ShloMosaic.Lib.StableHlo.Run
import Idealize.ShloMosaic.Lib.KernelVsHost
import Idealize.ShloMosaic.Lib.ValueLayout
import Idealize.ShloMosaic.Lib.Pipeline.Value

set_option maxRecDepth 16384

noncomputable section

namespace Cert.Sage.KHost

open Cert.KernelIdeal Cert.KernelIdeal.Gen Cert.Sage Idealize.ShloMosaic Idealize.ShloMosaic.ValueIdx Idealize.ShloMosaic.TcCoe

variable (m : (ℓ : Loc nD τ sig) → Buf (Elt Ideal) ℓ) (ρ : Dev nD → PrngReg) (c : Dev nD)

/-- A buffer that no operation of a stretch writes keeps its contents across the stretch. -/
local macro "keeps " s:ident b:term:max : tactic =>
  `(tactic| exact StableHlo.after_of_forall_not_mem (b := Proc.devRef .tc $b) _ _ (List.forall_iff_forall_mem.mp (by
      simp only [$s:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Buffers carried unchanged to a later boundary -/

/-- The source entries, written before region 0, are still there at region 1's exit. -/
theorem W6_v1 : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := by keeps hostOps1_2 main_v1
    _ = W3 m ρ c (Proc.devRef .tc main_v1) := by keeps hostOps1_1 main_v1
    _ = W2 m ρ c (Proc.devRef .tc main_v1) := by keeps hostOps1 main_v1
    _ = W1 m ρ c (Proc.devRef .tc main_v1) := W2_of_ne m ρ c main_v1 (by decide)

/-- The destination entries, written before region 0, are still there at region 1's exit. -/
theorem W6_v3 : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by keeps hostOps1_2 main_v3
    _ = W3 m ρ c (Proc.devRef .tc main_v3) := by keeps hostOps1_1 main_v3
    _ = W2 m ρ c (Proc.devRef .tc main_v3) := by keeps hostOps1 main_v3
    _ = W1 m ρ c (Proc.devRef .tc main_v3) := W2_of_ne m ρ c main_v3 (by decide)

/-- The reciprocal-degree column, an input of all three regions, enters region 2 as it entered region 0. -/
theorem V11_v12 : V11 m ρ c main_v12 = V1 m ρ c main_v12 :=
  calc W11 m ρ c (Proc.devRef .tc main_v12)
    _ = W10 m ρ c (Proc.devRef .tc main_v12) := by keeps hostOps2_4 main_v12
    _ = W9 m ρ c (Proc.devRef .tc main_v12) := by keeps hostOps2_3 main_v12
    _ = W8 m ρ c (Proc.devRef .tc main_v12) := by keeps hostOps2_2 main_v12
    _ = W7 m ρ c (Proc.devRef .tc main_v12) := by keeps hostOps2_1 main_v12
    _ = W6 m ρ c (Proc.devRef .tc main_v12) := by keeps hostOps2 main_v12
    _ = W5 m ρ c (Proc.devRef .tc main_v12) :=
        (W6_arr m ρ c 1).trans (((dat1 (V5 m ρ) c).arrAt_in 1 rfl _).trans (A_eq1 (V5 m ρ) c 1))
    _ = W4 m ρ c (Proc.devRef .tc main_v12) := by keeps hostOps1_2 main_v12
    _ = W3 m ρ c (Proc.devRef .tc main_v12) := by keeps hostOps1_1 main_v12
    _ = W2 m ρ c (Proc.devRef .tc main_v12) := by keeps hostOps1 main_v12
    _ = W1 m ρ c (Proc.devRef .tc main_v12) :=
        (W2_arr m ρ c 1).trans (((dat0 (V1 m ρ) c).arrAt_in 1 rfl _).trans (A_eq0 (V1 m ρ) c 1))

/-- Region 1's first output enters region 2 as region 1 left it. -/
theorem V11_v45_0 : V11 m ρ c main_v45_0 = W6 m ρ c (Proc.devRef .tc main_v45_0) :=
  calc W11 m ρ c (Proc.devRef .tc main_v45_0)
    _ = W10 m ρ c (Proc.devRef .tc main_v45_0) := by keeps hostOps2_4 main_v45_0
    _ = W9 m ρ c (Proc.devRef .tc main_v45_0) := by keeps hostOps2_3 main_v45_0
    _ = W8 m ρ c (Proc.devRef .tc main_v45_0) := by keeps hostOps2_2 main_v45_0
    _ = W7 m ρ c (Proc.devRef .tc main_v45_0) := by keeps hostOps2_1 main_v45_0
    _ = W6 m ρ c (Proc.devRef .tc main_v45_0) := by keeps hostOps2 main_v45_0

/-- The output projection's root weights are as launched when the padding reads them. -/
theorem W7_arg10 : W7 m ρ c (Proc.devRef .tc main_arg10) = m ((c : Thread nD τ).loc main_arg10) :=
  calc W7 m ρ c (Proc.devRef .tc main_arg10)
    _ = W6 m ρ c (Proc.devRef .tc main_arg10) := by keeps hostOps2 main_arg10
    _ = W5 m ρ c (Proc.devRef .tc main_arg10) := W6_of_ne m ρ c main_arg10 (by decide)
    _ = W4 m ρ c (Proc.devRef .tc main_arg10) := by keeps hostOps1_2 main_arg10
    _ = W3 m ρ c (Proc.devRef .tc main_arg10) := by keeps hostOps1_1 main_arg10
    _ = W2 m ρ c (Proc.devRef .tc main_arg10) := by keeps hostOps1 main_arg10
    _ = W1 m ρ c (Proc.devRef .tc main_arg10) := W2_of_ne m ρ c main_arg10 (by decide)
    _ = W0 m ρ c (Proc.devRef .tc main_arg10) := by keeps hostOps0 main_arg10
    _ = m ((c : Thread nD τ).loc main_arg10) := rfl

/-- The output bias is as launched when the padding reads it. -/
theorem W9_arg9 : W9 m ρ c (Proc.devRef .tc main_arg9) = m ((c : Thread nD τ).loc main_arg9) :=
  calc W9 m ρ c (Proc.devRef .tc main_arg9)
    _ = W8 m ρ c (Proc.devRef .tc main_arg9) := by keeps hostOps2_2 main_arg9
    _ = W7 m ρ c (Proc.devRef .tc main_arg9) := by keeps hostOps2_1 main_arg9
    _ = W6 m ρ c (Proc.devRef .tc main_arg9) := by keeps hostOps2 main_arg9
    _ = W5 m ρ c (Proc.devRef .tc main_arg9) := W6_of_ne m ρ c main_arg9 (by decide)
    _ = W4 m ρ c (Proc.devRef .tc main_arg9) := by keeps hostOps1_2 main_arg9
    _ = W3 m ρ c (Proc.devRef .tc main_arg9) := by keeps hostOps1_1 main_arg9
    _ = W2 m ρ c (Proc.devRef .tc main_arg9) := by keeps hostOps1 main_arg9
    _ = W1 m ρ c (Proc.devRef .tc main_arg9) := W2_of_ne m ρ c main_arg9 (by decide)
    _ = W0 m ρ c (Proc.devRef .tc main_arg9) := by keeps hostOps0 main_arg9
    _ = m ((c : Thread nD τ).loc main_arg9) := rfl

/-! ## What the host stretches before region 2 write, over any contents U at their start -/

open Idealize.ShloMosaic.StableHlo in
set_option maxHeartbeats 4000000 in
/-- The neighbour sum of width 64: the scatter-add, onto zeros at the destination entries, of the rows gathered at the
    wrapped source entries. -/
theorem hostOps2_v55 (U : Valuation τ sig (Elt Ideal)) :
    (StableHlo.after (hostOps2 (F := Ideal)) U (Proc.devRef .tc main_v55) : S50000x64.Idx → EReal) =
    Host.scatterAdd (F := Ideal) scatter_S50000x64_S600000x1_S600000x64_1_0_0_1
      (broadcastInDim S50000x64 ![] bcast_S_S50000x64 (constant (F := Ideal) S_ .f32 0x00000000#32))
      (broadcastInDim S600000x1 ![0] bcast_S600000_S600000x1_0 (U (Proc.devRef .tc main_v3)))
      (Host.gather gather_S50000x64_S600000x1_S600000x64_1_0_n_n_0_1_164 (U (Proc.devRef .tc main_v45_1))
        (broadcastInDim S600000x1 ![0] bcast_S600000_S600000x1_0
          (select (cmpi .slt (U (Proc.devRef .tc main_v1)) (broadcastInDim S600000 ![] bcast_S_S600000 (constantI S_ 32 0#32)))
            (addi (U (Proc.devRef .tc main_v1)) (broadcastInDim S600000 ![] bcast_S_S600000 (constantI S_ 32 50000#32)))
            (U (Proc.devRef .tc main_v1))))) := by
  after_results_simp

/-- Region 2's first input is that scatter-add of region 1's second output. -/
theorem v55_term : (V11 m ρ c main_v55 : S50000x64.Idx → EReal) =
    Host.scatterAdd (F := Ideal) scatter_S50000x64_S600000x1_S600000x64_1_0_0_1
      (broadcastInDim S50000x64 ![] bcast_S_S50000x64 (constant (F := Ideal) S_ .f32 0x00000000#32))
      (broadcastInDim S600000x1 ![0] bcast_S600000_S600000x1_0 (W6 m ρ c (Proc.devRef .tc main_v3)))
      (Host.gather gather_S50000x64_S600000x1_S600000x64_1_0_n_n_0_1_164 (W6 m ρ c (Proc.devRef .tc main_v45_1))
        (broadcastInDim S600000x1 ![0] bcast_S600000_S600000x1_0
          (select (cmpi .slt (W6 m ρ c (Proc.devRef .tc main_v1)) (broadcastInDim S600000 ![] bcast_S_S600000 (constantI S_ 32 0#32)))
            (addi (W6 m ρ c (Proc.devRef .tc main_v1)) (broadcastInDim S600000 ![] bcast_S_S600000 (constantI S_ 32 50000#32)))
            (W6 m ρ c (Proc.devRef .tc main_v1))))) :=
  calc W11 m ρ c (Proc.devRef .tc main_v55)
    _ = W10 m ρ c (Proc.devRef .tc main_v55) := by keeps hostOps2_4 main_v55
    _ = W9 m ρ c (Proc.devRef .tc main_v55) := by keeps hostOps2_3 main_v55
    _ = W8 m ρ c (Proc.devRef .tc main_v55) := by keeps hostOps2_2 main_v55
    _ = W7 m ρ c (Proc.devRef .tc main_v55) := by keeps hostOps2_1 main_v55
    _ = _ := hostOps2_v55 (W6 m ρ c)

/-! ## Padding with a scalar, read at an index -/

/-- A 128 × 47 array padded on the right to 64 columns reads the array in the first 47 columns and the padding scalar
    beyond. -/
theorem pad_cols_apply (x : S128x47.Idx → EReal) (v : S_.Idx → EReal) (k : Fin 128) (j : Fin 64) :
    pad S128x64 ![0, 0] ![0, 17] ![0, 0] x v pads_S128x47_S128x64_000_0170 h_S_ (ix2 k j)
      = if h : j.val < 47 then x (ix2 k ⟨j.val, h⟩) else v (Shape.Idx.first h_S_) := by
  by_cases h : j.val < 47
  · rw [dif_pos h]
    exact pad_apply_of_inside _ _ _ x v _ _ _ (ix2 k (⟨j.val, h⟩ : Fin 47)) (fun a => by
      match a with
      | ⟨0, _⟩ => show k.val = 0 + k.val * (0 + 1); omega
      | ⟨1, _⟩ => show j.val = 0 + j.val * (0 + 1); omega)
  · rw [dif_neg h]
    exact pad_apply_of_not_inside _ _ _ x v _ _ _ (1 : Fin 2) (fun hin => h (by
      have e : (j.val - 0) / (0 + 1) < 47 := hin.2.2
      omega))

/-- A vector of 47 entries padded to 64 reads the vector in the first 47 entries and the padding scalar beyond. -/
theorem pad_vec_apply (x : S47.Idx → EReal) (v : S_.Idx → EReal) (j : Fin 64) :
    pad S64 ![0] ![17] ![0] x v pads_S47_S64_0170 h_S_ (ix1 j)
      = if h : j.val < 47 then x (ix1 ⟨j.val, h⟩) else v (Shape.Idx.first h_S_) := by
  by_cases h : j.val < 47
  · rw [dif_pos h]
    exact pad_apply_of_inside _ _ _ x v _ _ _ (ix1 (⟨j.val, h⟩ : Fin 47)) (fun a => by
      match a with
      | ⟨0, _⟩ => show j.val = 0 + j.val * (0 + 1); omega)
  · rw [dif_neg h]
    exact pad_apply_of_not_inside _ _ _ x v _ _ _ (0 : Fin 1) (fun hin => h (by
      have e : (j.val - 0) / (0 + 1) < 47 := hin.2.2
      omega))

open Idealize.ShloMosaic.StableHlo in
set_option maxHeartbeats 4000000 in
/-- The first stretch leaves the zero it writes last in its own buffer. -/
theorem hostOps2_cst12 (U : Valuation τ sig (Elt Ideal)) :
    (StableHlo.after (hostOps2 (F := Ideal)) U (Proc.devRef .tc main_cst_12) : S_.Idx → EReal)
      = constant (F := Ideal) S_ .f32 0x00000000#32 := by
  after_results_simp

open Idealize.ShloMosaic.StableHlo in
set_option maxHeartbeats 4000000 in
/-- The second stretch pads the root weights of the output layer from 47 to 64 columns with the scalar it is handed. -/
theorem hostOps2_1_v56 (U : Valuation τ sig (Elt Ideal)) :
    (StableHlo.after (hostOps2_1 (F := Ideal)) U (Proc.devRef .tc main_v56) : S128x64.Idx → EReal)
      = pad S128x64 ![0, 0] ![0, 17] ![0, 0] (U (Proc.devRef .tc main_arg10) : S128x47.Idx → EReal)
          (U (Proc.devRef .tc main_cst_12) : S_.Idx → EReal) pads_S128x47_S128x64_000_0170 h_S_ := by
  after_results_simp
  rfl

open Idealize.ShloMosaic.StableHlo in
set_option maxHeartbeats 4000000 in
/-- The third stretch writes a zero. -/
theorem hostOps2_2_cst13 (U : Valuation τ sig (Elt Ideal)) :
    (StableHlo.after (hostOps2_2 (F := Ideal)) U (Proc.devRef .tc main_cst_13) : S_.Idx → EReal)
      = constant (F := Ideal) S_ .f32 0x00000000#32 := by
  after_results_simp

open Idealize.ShloMosaic.StableHlo in
set_option maxHeartbeats 4000000 in
/-- The fourth stretch pads the output bias from 47 to 64 entries with the scalar it is handed. -/
theorem hostOps2_3_v57 (U : Valuation τ sig (Elt Ideal)) :
    (StableHlo.after (hostOps2_3 (F := Ideal)) U (Proc.devRef .tc main_v57) : S64.Idx → EReal)
      = pad S64 ![0] ![17] ![0] (U (Proc.devRef .tc main_arg9) : S47.Idx → EReal)
          (U (Proc.devRef .tc main_cst_13) : S_.Idx → EReal) pads_S47_S64_0170 h_S_ := by
  after_results_simp
  rfl

open Idealize.ShloMosaic.StableHlo in
set_option maxHeartbeats 4000000 in
/-- The fifth stretch lays the padded bias out as one row. -/
theorem hostOps2_4_v58 (U : Valuation τ sig (Elt Ideal)) :
    (StableHlo.after (hostOps2_4 (F := Ideal)) U (Proc.devRef .tc main_v58) : S1x64.Idx → EReal)
      = shapeCast S1x64 (U (Proc.devRef .tc main_v57) : S64.Idx → EReal) shapeCasts_S64_S1x64 := by
  after_results_simp
  rfl

open Idealize.ShloMosaic.StableHlo in
set_option maxHeartbeats 4000000 in
/-- The last stretch cuts the first 47 columns out of region 2's output. -/
theorem hostOps3_v60 (U : Valuation τ sig (Elt Ideal)) :
    (StableHlo.after (hostOps3 (F := Ideal)) U (Proc.devRef .tc main_v60) : S50000x47.Idx → EReal)
      = extractStridedSlice S50000x47 ![0, 0] (U (Proc.devRef .tc main_v59) : S50000x64.Idx → EReal) slices_S50000x64_S50000x47_0_0 := by
  after_results_simp

/-! ## Region 2's padded weights and bias, and the result, read at an index -/

/-- The scalar zero the programs spell, at its one index. -/
theorem constant_zero_apply (i : S_.Idx) : constant (F := Ideal) S_ .f32 0x00000000#32 i = zeroE := rfl

/-- Region 2's fourth input is the root weights of the output layer padded with zeros. -/
theorem V11_v56 : (V11 m ρ c main_v56 : S128x64.Idx → EReal)
    = pad S128x64 ![0, 0] ![0, 17] ![0, 0] (m ((c : Thread nD τ).loc main_arg10) : S128x47.Idx → EReal)
        (constant (F := Ideal) S_ .f32 0x00000000#32) pads_S128x47_S128x64_000_0170 h_S_ :=
  calc W11 m ρ c (Proc.devRef .tc main_v56)
    _ = W10 m ρ c (Proc.devRef .tc main_v56) := by keeps hostOps2_4 main_v56
    _ = W9 m ρ c (Proc.devRef .tc main_v56) := by keeps hostOps2_3 main_v56
    _ = W8 m ρ c (Proc.devRef .tc main_v56) := by keeps hostOps2_2 main_v56
    _ = pad S128x64 ![0, 0] ![0, 17] ![0, 0] (W7 m ρ c (Proc.devRef .tc main_arg10) : S128x47.Idx → EReal)
          (W7 m ρ c (Proc.devRef .tc main_cst_12) : S_.Idx → EReal) pads_S128x47_S128x64_000_0170 h_S_ :=
        hostOps2_1_v56 (W7 m ρ c)
    _ = _ := by
        have e : (W7 m ρ c (Proc.devRef .tc main_cst_12) : S_.Idx → EReal) = constant (F := Ideal) S_ .f32 0x00000000#32 :=
          hostOps2_cst12 (W6 m ρ c)
        rw [W7_arg10 m ρ c, e]

/-- The padded root weights at (k, j): the weight for j < 47, zero beyond. -/
theorem v56_apply (k : Fin 128) (j : Fin 64) :
    (V11 m ρ c main_v56 : S128x64.Idx → EReal) (ix2 k j)
      = if h : j.val < 47 then (m ((c : Thread nD τ).loc main_arg10) : S128x47.Idx → EReal) (ix2 k ⟨j.val, h⟩) else zeroE := by
  rw [V11_v56 m ρ c, pad_cols_apply]
  rfl

/-- Region 2's fifth input is the output bias padded with zeros, as one row. -/
theorem V11_v58 : (V11 m ρ c main_v58 : S1x64.Idx → EReal)
    = shapeCast S1x64 (pad S64 ![0] ![17] ![0] (m ((c : Thread nD τ).loc main_arg9) : S47.Idx → EReal)
        (constant (F := Ideal) S_ .f32 0x00000000#32) pads_S47_S64_0170 h_S_) shapeCasts_S64_S1x64 :=
  calc W11 m ρ c (Proc.devRef .tc main_v58)
    _ = shapeCast S1x64 (W10 m ρ c (Proc.devRef .tc main_v57) : S64.Idx → EReal) shapeCasts_S64_S1x64 :=
        hostOps2_4_v58 (W10 m ρ c)
    _ = shapeCast S1x64 (pad S64 ![0] ![17] ![0] (W9 m ρ c (Proc.devRef .tc main_arg9) : S47.Idx → EReal)
          (W9 m ρ c (Proc.devRef .tc main_cst_13) : S_.Idx → EReal) pads_S47_S64_0170 h_S_) shapeCasts_S64_S1x64 :=
        congrArg (fun x : S64.Idx → EReal => shapeCast S1x64 x shapeCasts_S64_S1x64) (hostOps2_3_v57 (W9 m ρ c))
    _ = _ := by
        have e : (W9 m ρ c (Proc.devRef .tc main_cst_13) : S_.Idx → EReal) = constant (F := Ideal) S_ .f32 0x00000000#32 :=
          hostOps2_2_cst13 (W8 m ρ c)
        rw [W9_arg9 m ρ c, e]

/-- The padded bias at (0, j): the bias for j < 47, zero beyond. -/
theorem v58_apply (j : Fin 64) :
    (V11 m ρ c main_v58 : S1x64.Idx → EReal) (ix2 (0 : Fin 1) j)
      = if h : j.val < 47 then (m ((c : Thread nD τ).loc main_arg9) : S47.Idx → EReal) (ix1 ⟨j.val, h⟩) else zeroE := by
  rw [V11_v58 m ρ c, shapeCast_a_1a_apply, pad_vec_apply]
  rfl

/-- The result at (n, j) is region 2's output at (n, j), j < 47. -/
theorem v60_apply (n : Fin 50000) (j : Fin 47) :
    (W13 m ρ c (Proc.devRef .tc main_v60) : S50000x47.Idx → EReal) (ix2 n j)
      = (W12 m ρ c (Proc.devRef .tc main_v59) : S50000x64.Idx → EReal) (ix2 n ⟨j.val, by omega⟩) := by
  have e : (W13 m ρ c (Proc.devRef .tc main_v60) : S50000x47.Idx → EReal)
      = extractStridedSlice S50000x47 ![0, 0] (W12 m ρ c (Proc.devRef .tc main_v59) : S50000x64.Idx → EReal)
          slices_S50000x64_S50000x47_0_0 := hostOps3_v60 (W12 m ρ c)
  rw [e]
  exact slice2_axis1_apply 0 _ _ n j ⟨j.val, by omega⟩ (by simp)

end Cert.Sage.KHost

end
-- ==== Proof.KRegion1.lean ====
/-
  The second kernel region: its two output arrays after the run, each as one function of the arrays the region finds.

  As in the first region the ten grid points stage and flush row blocks of 5000; row n of the first output is the hidden layer
  of row n's data, row n of the second output is that hidden row projected by the padded [128, 64] matrix. Each output's ten
  blocks tile its array.
-/
import proofs.«148049_j15126874816626_2_alg».proof.Proof.Gen.KernelIdeal.Frame
import proofs.«148049_j15126874816626_2_alg».proof.Proof.KLayer

set_option maxRecDepth 16384

noncomputable section

namespace Cert.Sage.KRegion1

open Cert.KernelIdeal Cert.KernelIdeal.Gen Cert.Sage
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row n of the second layer's first output is the hidden layer of row n's data … -/
def G1h (A0 : S50000x128.Idx → EReal) (A1 : S50000x1.Idx → EReal) (A2 : S50000x128.Idx → EReal) (A3 A4 : S128x128.Idx → EReal)
    (A5 A6 A7 A8 A9 : S1x128.Idx → EReal) (A10 : S128x64.Idx → EReal) : S50000x128.Idx → EReal :=
  fun i => hidRow (fun k => A0 (ix2 (i 0) k)) (fun k => A2 (ix2 (i 0) k)) (A1 (ix2 (i 0) (0 : Fin 1))) A3 A4 A5 A6 A7 A8 A9 (i 1)

/-- … and row n of its second output is that row projected by the [128, 64] matrix. -/
def G1p (A0 : S50000x128.Idx → EReal) (A1 : S50000x1.Idx → EReal) (A2 : S50000x128.Idx → EReal) (A3 A4 : S128x128.Idx → EReal)
    (A5 A6 A7 A8 A9 : S1x128.Idx → EReal) (A10 : S128x64.Idx → EReal) : S50000x64.Idx → EReal :=
  fun i => projRow (hidRow (fun k => A0 (ix2 (i 0) k)) (fun k => A2 (ix2 (i 0) k)) (A1 (ix2 (i 0) (0 : Fin 1))) A3 A4 A5 A6 A7 A8 A9) A10 (i 1)

/-- The first stored value does not read the projection matrix. -/
theorem pay1_at' (x0 : Vec Ideal S5000x128 .f32) (x1 : Vec Ideal S5000x1 .f32) (x2 : Vec Ideal S5000x128 .f32)
    (x3 x4 : Vec Ideal S128x128 .f32) (x5 x6 x7 x8 x9 : Vec Ideal S1x128 .f32) (x10 : Vec Ideal S128x64 .f32) (j : S5000x128.Idx) :
    k1_pay1 (F := Ideal) (k1_pay3 x7) (k1_pay4 x0 x1 x2 x3 x4 x5 x8) (k1_pay5 x6 x9) j
      = hidRow (fun k => x0 (ix2 (j 0) k)) (fun k => x2 (ix2 (j 0) k)) (x1 (ix2 (j 0) (0 : Fin 1))) x3 x4 x5 x6 x7 x8 x9 (j 1) :=
  pay1_at x0 x1 x2 x3 x4 x5 x6 x7 x8 x9 j

/-- The index maps, decided over the ten grid points: a row-blocked window sits at block row t, column block 0; a small
    operand at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ (∀ a : Fin 2, win1_3.index t a = 0)
    ∧ (∀ a : Fin 2, win1_4.index t a = 0)
    ∧ (∀ a : Fin 2, win1_5.index t a = 0)
    ∧ (∀ a : Fin 2, win1_6.index t a = 0)
    ∧ (∀ a : Fin 2, win1_7.index t a = 0)
    ∧ (∀ a : Fin 2, win1_8.index t a = 0)
    ∧ (∀ a : Fin 2, win1_9.index t a = 0)
    ∧ (∀ a : Fin 2, win1_10.index t a = 0)
    ∧ win1_11.index t (0 : Fin 2) = t.val ∧ win1_11.index t (1 : Fin 2) = 0
    ∧ win1_12.index t (0 : Fin 2) = t.val ∧ win1_12.index t (1 : Fin 2) = 0 :=
  (by decide +kernel : ∀ t : Fin grid1.N, _)

/-! What each input window's block holds at point t, seen from output window 11's block. -/

theorem blk1_0_11 (c : Dev nD) (t : Fin cfg1.N) (j : S5000x128.Idx) (k : Fin 128) :
    iblk1 V c 0 t (ix2 (j 0) k) = V c main_v38 (ix2 ((((cfg1.win 11).blk t).view.emb j) 0) k) := by
  obtain ⟨r0a, r0b, r1a, r1b, r2a, r2b, z3, z4, z5, z6, z7, z8, z9, z10, o11a, o11b, o12a, o12b⟩ := idx_facts1 t
  show V c main_v38 (((cfg1.win 0).blk t).view.emb (ix2 (j 0) k)) = _
  refine congrArg _ (funext fun a => Fin.ext ?_)
  match a with
  | ⟨0, _⟩ => show win1_0.index t (0 : Fin 2) * 5000 + 1 * (j 0).val = win1_11.index t (0 : Fin 2) * 5000 + 1 * (j 0).val; omega
  | ⟨1, _⟩ => show win1_0.index t (1 : Fin 2) * 128 + 1 * k.val = k.val; omega

theorem blk1_1_11 (c : Dev nD) (t : Fin cfg1.N) (j : S5000x128.Idx) :
    iblk1 V c 1 t (ix2 (j 0) (0 : Fin 1)) = V c main_v12 (ix2 ((((cfg1.win 11).blk t).view.emb j) 0) (0 : Fin 1)) := by
  obtain ⟨r0a, r0b, r1a, r1b, r2a, r2b, z3, z4, z5, z6, z7, z8, z9, z10, o11a, o11b, o12a, o12b⟩ := idx_facts1 t
  show V c main_v12 (((cfg1.win 1).blk t).view.emb (ix2 (j 0) (0 : Fin 1))) = _
  refine congrArg _ (funext fun a => Fin.ext ?_)
  match a with
  | ⟨0, _⟩ => show win1_1.index t (0 : Fin 2) * 5000 + 1 * (j 0).val = win1_11.index t (0 : Fin 2) * 5000 + 1 * (j 0).val; omega
  | ⟨1, _⟩ => show win1_1.index t (1 : Fin 2) * 1 + 1 * 0 = 0; omega

theorem blk1_2_11 (c : Dev nD) (t : Fin cfg1.N) (j : S5000x128.Idx) (k : Fin 128) :
    iblk1 V c 2 t (ix2 (j 0) k) = V c main_v28 (ix2 ((((cfg1.win 11).blk t).view.emb j) 0) k) := by
  obtain ⟨r0a, r0b, r1a, r1b, r2a, r2b, z3, z4, z5, z6, z7, z8, z9, z10, o11a, o11b, o12a, o12b⟩ := idx_facts1 t
  show V c main_v28 (((cfg1.win 2).blk t).view.emb (ix2 (j 0) k)) = _
  refine congrArg _ (funext fun a => Fin.ext ?_)
  match a with
  | ⟨0, _⟩ => show win1_2.index t (0 : Fin 2) * 5000 + 1 * (j 0).val = win1_11.index t (0 : Fin 2) * 5000 + 1 * (j 0).val; omega
  | ⟨1, _⟩ => show win1_2.index t (1 : Fin 2) * 128 + 1 * k.val = k.val; omega

theorem col1_11 (t : Fin cfg1.N) (j : S5000x128.Idx) : j 1 = (((cfg1.win 11).blk t).view.emb j) 1 := by
  obtain ⟨r0a, r0b, r1a, r1b, r2a, r2b, z3, z4, z5, z6, z7, z8, z9, z10, o11a, o11b, o12a, o12b⟩ := idx_facts1 t
  refine Fin.ext ?_
  show (j 1).val = win1_11.index t (1 : Fin 2) * 128 + 1 * (j 1).val
  omega

/-! What each input window's block holds at point t, seen from output window 12's block. -/

theorem blk1_0_12 (c : Dev nD) (t : Fin cfg1.N) (j : S5000x64.Idx) (k : Fin 128) :
    iblk1 V c 0 t (ix2 (j 0) k) = V c main_v38 (ix2 ((((cfg1.win 12).blk t).view.emb j) 0) k) := by
  obtain ⟨r0a, r0b, r1a, r1b, r2a, r2b, z3, z4, z5, z6, z7, z8, z9, z10, o11a, o11b, o12a, o12b⟩ := idx_facts1 t
  show V c main_v38 (((cfg1.win 0).blk t).view.emb (ix2 (j 0) k)) = _
  refine congrArg _ (funext fun a => Fin.ext ?_)
  match a with
  | ⟨0, _⟩ => show win1_0.index t (0 : Fin 2) * 5000 + 1 * (j 0).val = win1_12.index t (0 : Fin 2) * 5000 + 1 * (j 0).val; omega
  | ⟨1, _⟩ => show win1_0.index t (1 : Fin 2) * 128 + 1 * k.val = k.val; omega

theorem blk1_1_12 (c : Dev nD) (t : Fin cfg1.N) (j : S5000x64.Idx) :
    iblk1 V c 1 t (ix2 (j 0) (0 : Fin 1)) = V c main_v12 (ix2 ((((cfg1.win 12).blk t).view.emb j) 0) (0 : Fin 1)) := by
  obtain ⟨r0a, r0b, r1a, r1b, r2a, r2b, z3, z4, z5, z6, z7, z8, z9, z10, o11a, o11b, o12a, o12b⟩ := idx_facts1 t
  show V c main_v12 (((cfg1.win 1).blk t).view.emb (ix2 (j 0) (0 : Fin 1))) = _
  refine congrArg _ (funext fun a => Fin.ext ?_)
  match a with
  | ⟨0, _⟩ => show win1_1.index t (0 : Fin 2) * 5000 + 1 * (j 0).val = win1_12.index t (0 : Fin 2) * 5000 + 1 * (j 0).val; omega
  | ⟨1, _⟩ => show win1_1.index t (1 : Fin 2) * 1 + 1 * 0 = 0; omega

theorem blk1_2_12 (c : Dev nD) (t : Fin cfg1.N) (j : S5000x64.Idx) (k : Fin 128) :
    iblk1 V c 2 t (ix2 (j 0) k) = V c main_v28 (ix2 ((((cfg1.win 12).blk t).view.emb j) 0) k) := by
  obtain ⟨r0a, r0b, r1a, r1b, r2a, r2b, z3, z4, z5, z6, z7, z8, z9, z10, o11a, o11b, o12a, o12b⟩ := idx_facts1 t
  show V c main_v28 (((cfg1.win 2).blk t).view.emb (ix2 (j 0) k)) = _
  refine congrArg _ (funext fun a => Fin.ext ?_)
  match a with
  | ⟨0, _⟩ => show win1_2.index t (0 : Fin 2) * 5000 + 1 * (j 0).val = win1_12.index t (0 : Fin 2) * 5000 + 1 * (j 0).val; omega
  | ⟨1, _⟩ => show win1_2.index t (1 : Fin 2) * 128 + 1 * k.val = k.val; omega

theorem col1_12 (t : Fin cfg1.N) (j : S5000x64.Idx) : j 1 = (((cfg1.win 12).blk t).view.emb j) 1 := by
  obtain ⟨r0a, r0b, r1a, r1b, r2a, r2b, z3, z4, z5, z6, z7, z8, z9, z10, o11a, o11b, o12a, o12b⟩ := idx_facts1 t
  refine Fin.ext ?_
  show (j 1).val = win1_12.index t (1 : Fin 2) * 64 + 1 * (j 1).val
  omega

theorem blk1_3 (c : Dev nD) (t : Fin cfg1.N) : iblk1 V c 3 t = V c main_arg5 := by
  have e := (idx_facts1 t).2.2.2.2.2.2.1
  funext y
  show V c main_arg5 (((cfg1.win 3).blk t).view.emb y) = _
  refine congrArg _ (funext fun a => Fin.ext ?_)
  match a with
  | ⟨0, _⟩ => show win1_3.index t (0 : Fin 2) * 128 + 1 * (y 0).val = (y 0).val; have := e 0; omega
  | ⟨1, _⟩ => show win1_3.index t (1 : Fin 2) * 128 + 1 * (y 1).val = (y 1).val; have := e 1; omega

theorem blk1_4 (c : Dev nD) (t : Fin cfg1.N) : iblk1 V c 4 t = V c main_arg7 := by
  have e := (idx_facts1 t).2.2.2.2.2.2.2.1
  funext y
  show V c main_arg7 (((cfg1.win 4).blk t).view.emb y) = _
  refine congrArg _ (funext fun a => Fin.ext ?_)
  match a with
  | ⟨0, _⟩ => show win1_4.index t (0 : Fin 2) * 128 + 1 * (y 0).val = (y 0).val; have := e 0; omega
  | ⟨1, _⟩ => show win1_4.index t (1 : Fin 2) * 128 + 1 * (y 1).val = (y 1).val; have := e 1; omega

theorem blk1_5 (c : Dev nD) (t : Fin cfg1.N) : iblk1 V c 5 t = V c main_v40 := by
  have e := (idx_facts1 t).2.2.2.2.2.2.2.2.1
  funext y
  show V c main_v40 (((cfg1.win 5).blk t).view.emb y) = _
  refine congrArg _ (funext fun a => Fin.ext ?_)
  match a with
  | ⟨0, _⟩ => show win1_5.index t (0 : Fin 2) * 1 + 1 * (y 0).val = (y 0).val; have := e 0; omega
  | ⟨1, _⟩ => show win1_5.index t (1 : Fin 2) * 128 + 1 * (y 1).val = (y 1).val; have := e 1; omega

theorem blk1_6 (c : Dev nD) (t : Fin cfg1.N) : iblk1 V c 6 t = V c main_v41 := by
  have e := (idx_facts1 t).2.2.2.2.2.2.2.2.2.1
  funext y
  show V c main_v41 (((cfg1.win 6).blk t).view.emb y) = _
  refine congrArg _ (funext fun a => Fin.ext ?_)
  match a with
  | ⟨0, _⟩ => show win1_6.index t (0 : Fin 2) * 1 + 1 * (y 0).val = (y 0).val; have := e 0; omega
  | ⟨1, _⟩ => show win1_6.index t (1 : Fin 2) * 128 + 1 * (y 1).val = (y 1).val; have := e 1; omega

theorem blk1_7 (c : Dev nD) (t : Fin cfg1.N) : iblk1 V c 7 t = V c main_v42 := by
  have e := (idx_facts1 t).2.2.2.2.2.2.2.2.2.2.1
  funext y
  show V c main_v42 (((cfg1.win 7).blk t).view.emb y) = _
  refine congrArg _ (funext fun a => Fin.ext ?_)
  match a with
  | ⟨0, _⟩ => show win1_7.index t (0 : Fin 2) * 1 + 1 * (y 0).val = (y 0).val; have := e 0; omega
  | ⟨1, _⟩ => show win1_7.index t (1 : Fin 2) * 128 + 1 * (y 1).val = (y 1).val; have := e 1; omega

theorem blk1_8 (c : Dev nD) (t : Fin cfg1.N) : iblk1 V c 8 t = V c main_v43 := by
  have e := (idx_facts1 t).2.2.2.2.2.2.2.2.2.2.2.1
  funext y
  show V c main_v43 (((cfg1.win 8).blk t).view.emb y) = _
  refine congrArg _ (funext fun a => Fin.ext ?_)
  match a with
  | ⟨0, _⟩ => show win1_8.index t (0 : Fin 2) * 1 + 1 * (y 0).val = (y 0).val; have := e 0; omega
  | ⟨1, _⟩ => show win1_8.index t (1 : Fin 2) * 128 + 1 * (y 1).val = (y 1).val; have := e 1; omega

theorem blk1_9 (c : Dev nD) (t : Fin cfg1.N) : iblk1 V c 9 t = V c main_v44 := by
  have e := (idx_facts1 t).2.2.2.2.2.2.2.2.2.2.2.2.1
  funext y
  show V c main_v44 (((cfg1.win 9).blk t).view.emb y) = _
  refine congrArg _ (funext fun a => Fin.ext ?_)
  match a with
  | ⟨0, _⟩ => show win1_9.index t (0 : Fin 2) * 1 + 1 * (y 0).val = (y 0).val; have := e 0; omega
  | ⟨1, _⟩ => show win1_9.index t (1 : Fin 2) * 128 + 1 * (y 1).val = (y 1).val; have := e 1; omega

theorem blk1_10 (c : Dev nD) (t : Fin cfg1.N) : iblk1 V c 10 t = V c main_v39 := by
  have e := (idx_facts1 t).2.2.2.2.2.2.2.2.2.2.2.2.2.1
  funext y
  show V c main_v39 (((cfg1.win 10).blk t).view.emb y) = _
  refine congrArg _ (funext fun a => Fin.ext ?_)
  match a with
  | ⟨0, _⟩ => show win1_10.index t (0 : Fin 2) * 128 + 1 * (y 0).val = (y 0).val; have := e 0; omega
  | ⟨1, _⟩ => show win1_10.index t (1 : Fin 2) * 64 + 1 * (y 1).val = (y 1).val; have := e 1; omega

/-- What point t flushes to output window 11 is block t of the whole-array function. -/
theorem flushed1_11 (c : Dev nD) (t : Fin cfg1.N) :
    (dat1 V c).flushed 11 t = ((cfg1.win 11).blk t).view.read (Elt Ideal) (G1h (V c main_v38) (V c main_v12) (V c main_v28) (V c main_arg5) (V c main_arg7) (V c main_v40) (V c main_v41) (V c main_v42) (V c main_v43) (V c main_v44) (V c main_v39)) := by
  show (cfg1.win 11).cut (grid1.coords t) ((dat1 V c).after 11 t) = _
  rw [after1_11]
  unfold out1_11
  rw [View.canon_unit_zero hz]
  simp only [View.ld_unit_zero (S := S5000x128) hz, View.ld_unit_zero (S := S5000x1) hz, View.ld_unit_zero (S := S128x128) hz, View.ld_unit_zero (S := S1x128) hz, View.ld_unit_zero (S := S128x64) hz]
  funext j
  refine (pay1_at' (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) j).trans ?_
  show _ = G1h (V c main_v38) (V c main_v12) (V c main_v28) (V c main_arg5) (V c main_arg7) (V c main_v40) (V c main_v41) (V c main_v42) (V c main_v43) (V c main_v44) (V c main_v39) (((cfg1.win 11).blk t).view.emb j)
  unfold G1h
  exact hidRow_congr (funext fun k => blk1_0_11 V c t j k) (funext fun k => blk1_2_11 V c t j k) (blk1_1_11 V c t j) (blk1_3 V c t) (blk1_4 V c t)
    (blk1_5 V c t) (blk1_6 V c t) (blk1_7 V c t) (blk1_8 V c t) (blk1_9 V c t) (col1_11 t j)

/-- An index of the array is in point t's block iff each coordinate is in the block's range. -/
theorem mem_blk1_11 (t : Fin cfg1.N) (i : S50000x128.Idx) :
    i ∈ ((cfg1.win 11).blk t).view.set ↔ ∀ a : Fin 2, win1_11.index t a * S5000x128.size a ≤ (i a).val
      ∧ (i a).val < win1_11.index t a * S5000x128.size a + S5000x128.size a := by
  show i ∈ ((View.whole main_v45_0).slice (win1_11.rect t)).set ↔ _
  rw [View.set_slice_whole, Rect.mem_set_unit]
  exact Iff.rfl

/-- Row n lies in the block of point n / 5000: the ten blocks tile the array. -/
theorem cover1_11 (i : S50000x128.Idx) : ∃ t : Fin cfg1.N, (cfg1.win 11).flush t = true ∧ i ∈ ((cfg1.win 11).blk t).view.set := by
  have hi0 : (i 0).val < 50000 := (i 0).isLt
  have hi1 : (i 1).val < 128 := (i 1).isLt
  have hN : grid1.N = 10 := N_1
  have ht : (i 0).val / 5000 < grid1.N := by rw [hN]; omega
  have ea : win1_11.index ⟨(i 0).val / 5000, ht⟩ (0 : Fin 2) = (i 0).val / 5000 := (idx_facts1 ⟨(i 0).val / 5000, ht⟩).2.2.2.2.2.2.2.2.2.2.2.2.2.2.1
  have eb : win1_11.index ⟨(i 0).val / 5000, ht⟩ (1 : Fin 2) = 0 := (idx_facts1 ⟨(i 0).val / 5000, ht⟩).2.2.2.2.2.2.2.2.2.2.2.2.2.2.2.1
  refine ⟨⟨(i 0).val / 5000, ht⟩, flush1_11 _, ?_⟩
  rw [mem_blk1_11]
  intro a
  match a with
  | ⟨0, _⟩ =>
    show win1_11.index ⟨(i 0).val / 5000, ht⟩ (0 : Fin 2) * 5000 ≤ (i 0).val
      ∧ (i 0).val < win1_11.index ⟨(i 0).val / 5000, ht⟩ (0 : Fin 2) * 5000 + 5000
    omega
  | ⟨1, _⟩ =>
    show win1_11.index ⟨(i 0).val / 5000, ht⟩ (1 : Fin 2) * 128 ≤ (i 1).val
      ∧ (i 1).val < win1_11.index ⟨(i 0).val / 5000, ht⟩ (1 : Fin 2) * 128 + 128
    omega

/-- Output window 11's array after the run. -/
theorem final1_11 (c : Dev nD) : (dat1 V c).arrAt 11 cfg1.N = G1h (V c main_v38) (V c main_v12) (V c main_v28) (V c main_arg5) (V c main_arg7) (V c main_v40) (V c main_v41) (V c main_v42) (V c main_v43) (V c main_v44) (V c main_v39) :=
  (dat1 V c).arrAt_eq_of_cover 11 _ (fun t _ => flushed1_11 V c t) cover1_11

/-- What point t flushes to output window 12 is block t of the whole-array function. -/
theorem flushed1_12 (c : Dev nD) (t : Fin cfg1.N) :
    (dat1 V c).flushed 12 t = ((cfg1.win 12).blk t).view.read (Elt Ideal) (G1p (V c main_v38) (V c main_v12) (V c main_v28) (V c main_arg5) (V c main_arg7) (V c main_v40) (V c main_v41) (V c main_v42) (V c main_v43) (V c main_v44) (V c main_v39)) := by
  show (cfg1.win 12).cut (grid1.coords t) ((dat1 V c).after 12 t) = _
  rw [after1_12]
  unfold out1_12
  rw [View.canon_unit_zero hz]
  simp only [View.ld_unit_zero (S := S5000x128) hz, View.ld_unit_zero (S := S5000x1) hz, View.ld_unit_zero (S := S128x128) hz, View.ld_unit_zero (S := S1x128) hz, View.ld_unit_zero (S := S128x64) hz]
  funext j
  refine (pay1p_at (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) j).trans ?_
  show _ = G1p (V c main_v38) (V c main_v12) (V c main_v28) (V c main_arg5) (V c main_arg7) (V c main_v40) (V c main_v41) (V c main_v42) (V c main_v43) (V c main_v44) (V c main_v39) (((cfg1.win 12).blk t).view.emb j)
  unfold G1p
  exact projRow_congr (funext fun q => hidRow_congr (funext fun k => blk1_0_12 V c t j k) (funext fun k => blk1_2_12 V c t j k) (blk1_1_12 V c t j) (blk1_3 V c t)
    (blk1_4 V c t) (blk1_5 V c t) (blk1_6 V c t) (blk1_7 V c t) (blk1_8 V c t) (blk1_9 V c t) rfl) (blk1_10 V c t) (col1_12 t j)

/-- An index of the array is in point t's block iff each coordinate is in the block's range. -/
theorem mem_blk1_12 (t : Fin cfg1.N) (i : S50000x64.Idx) :
    i ∈ ((cfg1.win 12).blk t).view.set ↔ ∀ a : Fin 2, win1_12.index t a * S5000x64.size a ≤ (i a).val
      ∧ (i a).val < win1_12.index t a * S5000x64.size a + S5000x64.size a := by
  show i ∈ ((View.whole main_v45_1).slice (win1_12.rect t)).set ↔ _
  rw [View.set_slice_whole, Rect.mem_set_unit]
  exact Iff.rfl

/-- Row n lies in the block of point n / 5000: the ten blocks tile the array. -/
theorem cover1_12 (i : S50000x64.Idx) : ∃ t : Fin cfg1.N, (cfg1.win 12).flush t = true ∧ i ∈ ((cfg1.win 12).blk t).view.set := by
  have hi0 : (i 0).val < 50000 := (i 0).isLt
  have hi1 : (i 1).val < 64 := (i 1).isLt
  have hN : grid1.N = 10 := N_1
  have ht : (i 0).val / 5000 < grid1.N := by rw [hN]; omega
  have ea : win1_12.index ⟨(i 0).val / 5000, ht⟩ (0 : Fin 2) = (i 0).val / 5000 := (idx_facts1 ⟨(i 0).val / 5000, ht⟩).2.2.2.2.2.2.2.2.2.2.2.2.2.2.2.2.1
  have eb : win1_12.index ⟨(i 0).val / 5000, ht⟩ (1 : Fin 2) = 0 := (idx_facts1 ⟨(i 0).val / 5000, ht⟩).2.2.2.2.2.2.2.2.2.2.2.2.2.2.2.2.2
  refine ⟨⟨(i 0).val / 5000, ht⟩, flush1_12 _, ?_⟩
  rw [mem_blk1_12]
  intro a
  match a with
  | ⟨0, _⟩ =>
    show win1_12.index ⟨(i 0).val / 5000, ht⟩ (0 : Fin 2) * 5000 ≤ (i 0).val
      ∧ (i 0).val < win1_12.index ⟨(i 0).val / 5000, ht⟩ (0 : Fin 2) * 5000 + 5000
    omega
  | ⟨1, _⟩ =>
    show win1_12.index ⟨(i 0).val / 5000, ht⟩ (1 : Fin 2) * 64 ≤ (i 1).val
      ∧ (i 1).val < win1_12.index ⟨(i 0).val / 5000, ht⟩ (1 : Fin 2) * 64 + 64
    omega

/-- Output window 12's array after the run. -/
theorem final1_12 (c : Dev nD) : (dat1 V c).arrAt 12 cfg1.N = G1p (V c main_v38) (V c main_v12) (V c main_v28) (V c main_arg5) (V c main_arg7) (V c main_v40) (V c main_v41) (V c main_v42) (V c main_v43) (V c main_v44) (V c main_v39) :=
  (dat1 V c).arrAt_eq_of_cover 12 _ (fun t _ => flushed1_12 V c t) cover1_12

end Cert.Sage.KRegion1

end
-- ==== Proof.KRegion0.lean ====
/-
  The first kernel region: its output array after the run, as one function of the arrays the region finds.

  The grid has ten points; point t stages rows 5000·t … 5000·t + 4999 of the three row-blocked inputs, the whole of each small
  operand, and flushes rows 5000·t … 5000·t + 4999 of the output. What point t flushes is block t of ONE whole-array
  function (row n of the output is the hidden layer of row n's data), and the ten blocks tile the array, so the array ends as
  that function.
-/
import proofs.«148049_j15126874816626_2_alg».proof.Proof.Gen.KernelIdeal.Frame
import proofs.«148049_j15126874816626_2_alg».proof.Proof.KLayer

set_option maxRecDepth 16384

noncomputable section

namespace Cert.Sage.KRegion

open Cert.KernelIdeal Cert.KernelIdeal.Gen Cert.Sage
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row n of the first layer's output is the hidden layer of row n's data. -/
def G0 (A0 : S50000x128.Idx → EReal) (A1 : S50000x1.Idx → EReal) (A2 : S50000x128.Idx → EReal) (A3 A4 : S128x128.Idx → EReal)
    (A5 A6 A7 A8 A9 : S1x128.Idx → EReal) : S50000x128.Idx → EReal :=
  fun i => hidRow (fun k => A0 (ix2 (i 0) k)) (fun k => A2 (ix2 (i 0) k)) (A1 (ix2 (i 0) (0 : Fin 1))) A3 A4 A5 A6 A7 A8 A9 (i 1)

/-- The index maps, decided over the ten grid points: the row-blocked windows sit at block row t, column block 0; the small
    operands at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ (∀ a : Fin 2, win0_3.index t a = 0) ∧ (∀ a : Fin 2, win0_4.index t a = 0) ∧ (∀ a : Fin 2, win0_5.index t a = 0)
    ∧ (∀ a : Fin 2, win0_6.index t a = 0) ∧ (∀ a : Fin 2, win0_7.index t a = 0) ∧ (∀ a : Fin 2, win0_8.index t a = 0)
    ∧ (∀ a : Fin 2, win0_9.index t a = 0)
    ∧ win0_10.index t (0 : Fin 2) = t.val ∧ win0_10.index t (1 : Fin 2) = 0 :=
  (by decide +kernel : ∀ t : Fin grid0.N, _)

/-! What each input window's block holds at point t, against the array the region finds. -/

theorem blk0_0 (c : Dev nD) (t : Fin cfg0.N) (j : S5000x128.Idx) (k : Fin 128) :
    iblk0 V c 0 t (ix2 (j 0) k) = V c main_v22 (ix2 ((((cfg0.win 10).blk t).view.emb j) 0) k) := by
  obtain ⟨e0a, e0b, e1a, e1b, e2a, e2b, -, -, -, -, -, -, -, e10a, e10b⟩ := idx_facts0 t
  show V c main_v22 (((cfg0.win 0).blk t).view.emb (ix2 (j 0) k)) = _
  refine congrArg _ (funext fun a => Fin.ext ?_)
  match a with
  | ⟨0, _⟩ => show win0_0.index t (0 : Fin 2) * 5000 + 1 * (j 0).val = win0_10.index t (0 : Fin 2) * 5000 + 1 * (j 0).val; omega
  | ⟨1, _⟩ => show win0_0.index t (1 : Fin 2) * 128 + 1 * k.val = k.val; omega

theorem blk0_2 (c : Dev nD) (t : Fin cfg0.N) (j : S5000x128.Idx) (k : Fin 128) :
    iblk0 V c 2 t (ix2 (j 0) k) = V c main_arg0 (ix2 ((((cfg0.win 10).blk t).view.emb j) 0) k) := by
  obtain ⟨e0a, e0b, e1a, e1b, e2a, e2b, -, -, -, -, -, -, -, e10a, e10b⟩ := idx_facts0 t
  show V c main_arg0 (((cfg0.win 2).blk t).view.emb (ix2 (j 0) k)) = _
  refine congrArg _ (funext fun a => Fin.ext ?_)
  match a with
  | ⟨0, _⟩ => show win0_2.index t (0 : Fin 2) * 5000 + 1 * (j 0).val = win0_10.index t (0 : Fin 2) * 5000 + 1 * (j 0).val; omega
  | ⟨1, _⟩ => show win0_2.index t (1 : Fin 2) * 128 + 1 * k.val = k.val; omega

theorem blk0_1 (c : Dev nD) (t : Fin cfg0.N) (j : S5000x128.Idx) :
    iblk0 V c 1 t (ix2 (j 0) (0 : Fin 1)) = V c main_v12 (ix2 ((((cfg0.win 10).blk t).view.emb j) 0) (0 : Fin 1)) := by
  obtain ⟨e0a, e0b, e1a, e1b, e2a, e2b, -, -, -, -, -, -, -, e10a, e10b⟩ := idx_facts0 t
  show V c main_v12 (((cfg0.win 1).blk t).view.emb (ix2 (j 0) (0 : Fin 1))) = _
  refine congrArg _ (funext fun a => Fin.ext ?_)
  match a with
  | ⟨0, _⟩ => show win0_1.index t (0 : Fin 2) * 5000 + 1 * (j 0).val = win0_10.index t (0 : Fin 2) * 5000 + 1 * (j 0).val; omega
  | ⟨1, _⟩ => show win0_1.index t (1 : Fin 2) * 1 + 1 * 0 = 0; omega

theorem blk0_3 (c : Dev nD) (t : Fin cfg0.N) : iblk0 V c 3 t = V c main_arg2 := by
  have e := (idx_facts0 t).2.2.2.2.2.2.1
  funext y
  show V c main_arg2 (((cfg0.win 3).blk t).view.emb y) = _
  refine congrArg _ (funext fun a => Fin.ext ?_)
  match a with
  | ⟨0, _⟩ => show win0_3.index t (0 : Fin 2) * 128 + 1 * (y 0).val = (y 0).val; have := e 0; omega
  | ⟨1, _⟩ => show win0_3.index t (1 : Fin 2) * 128 + 1 * (y 1).val = (y 1).val; have := e 1; omega

theorem blk0_4 (c : Dev nD) (t : Fin cfg0.N) : iblk0 V c 4 t = V c main_arg4 := by
  have e := (idx_facts0 t).2.2.2.2.2.2.2.1
  funext y
  show V c main_arg4 (((cfg0.win 4).blk t).view.emb y) = _
  refine congrArg _ (funext fun a => Fin.ext ?_)
  match a with
  | ⟨0, _⟩ => show win0_4.index t (0 : Fin 2) * 128 + 1 * (y 0).val = (y 0).val; have := e 0; omega
  | ⟨1, _⟩ => show win0_4.index t (1 : Fin 2) * 128 + 1 * (y 1).val = (y 1).val; have := e 1; omega

theorem blk0_5 (c : Dev nD) (t : Fin cfg0.N) : iblk0 V c 5 t = V c main_v23 := by
  have e := (idx_facts0 t).2.2.2.2.2.2.2.2.1
  funext y
  show V c main_v23 (((cfg0.win 5).blk t).view.emb y) = _
  refine congrArg _ (funext fun a => Fin.ext ?_)
  match a with
  | ⟨0, _⟩ => show win0_5.index t (0 : Fin 2) * 1 + 1 * (y 0).val = (y 0).val; have := e 0; omega
  | ⟨1, _⟩ => show win0_5.index t (1 : Fin 2) * 128 + 1 * (y 1).val = (y 1).val; have := e 1; omega

theorem blk0_6 (c : Dev nD) (t : Fin cfg0.N) : iblk0 V c 6 t = V c main_v24 := by
  have e := (idx_facts0 t).2.2.2.2.2.2.2.2.2.1
  funext y
  show V c main_v24 (((cfg0.win 6).blk t).view.emb y) = _
  refine congrArg _ (funext fun a => Fin.ext ?_)
  match a with
  | ⟨0, _⟩ => show win0_6.index t (0 : Fin 2) * 1 + 1 * (y 0).val = (y 0).val; have := e 0; omega
  | ⟨1, _⟩ => show win0_6.index t (1 : Fin 2) * 128 + 1 * (y 1).val = (y 1).val; have := e 1; omega

theorem blk0_7 (c : Dev nD) (t : Fin cfg0.N) : iblk0 V c 7 t = V c main_v25 := by
  have e := (idx_facts0 t).2.2.2.2.2.2.2.2.2.2.1
  funext y
  show V c main_v25 (((cfg0.win 7).blk t).view.emb y) = _
  refine congrArg _ (funext fun a => Fin.ext ?_)
  match a with
  | ⟨0, _⟩ => show win0_7.index t (0 : Fin 2) * 1 + 1 * (y 0).val = (y 0).val; have := e 0; omega
  | ⟨1, _⟩ => show win0_7.index t (1 : Fin 2) * 128 + 1 * (y 1).val = (y 1).val; have := e 1; omega

theorem blk0_8 (c : Dev nD) (t : Fin cfg0.N) : iblk0 V c 8 t = V c main_v26 := by
  have e := (idx_facts0 t).2.2.2.2.2.2.2.2.2.2.2.1
  funext y
  show V c main_v26 (((cfg0.win 8).blk t).view.emb y) = _
  refine congrArg _ (funext fun a => Fin.ext ?_)
  match a with
  | ⟨0, _⟩ => show win0_8.index t (0 : Fin 2) * 1 + 1 * (y 0).val = (y 0).val; have := e 0; omega
  | ⟨1, _⟩ => show win0_8.index t (1 : Fin 2) * 128 + 1 * (y 1).val = (y 1).val; have := e 1; omega

theorem blk0_9 (c : Dev nD) (t : Fin cfg0.N) : iblk0 V c 9 t = V c main_v27 := by
  have e := (idx_facts0 t).2.2.2.2.2.2.2.2.2.2.2.2.1
  funext y
  show V c main_v27 (((cfg0.win 9).blk t).view.emb y) = _
  refine congrArg _ (funext fun a => Fin.ext ?_)
  match a with
  | ⟨0, _⟩ => show win0_9.index t (0 : Fin 2) * 1 + 1 * (y 0).val = (y 0).val; have := e 0; omega
  | ⟨1, _⟩ => show win0_9.index t (1 : Fin 2) * 128 + 1 * (y 1).val = (y 1).val; have := e 1; omega

theorem col0 (t : Fin cfg0.N) (j : S5000x128.Idx) : j 1 = (((cfg0.win 10).blk t).view.emb j) 1 := by
  obtain ⟨-, -, -, -, -, -, -, -, -, -, -, -, -, e10a, e10b⟩ := idx_facts0 t
  refine Fin.ext ?_
  show (j 1).val = win0_10.index t (1 : Fin 2) * 128 + 1 * (j 1).val
  omega

/-- What point t flushes is block t of the whole-array function. -/
theorem flushed0 (c : Dev nD) (t : Fin cfg0.N) :
    (dat0 V c).flushed 10 t = ((cfg0.win 10).blk t).view.read (Elt Ideal)
      (G0 (V c main_v22) (V c main_v12) (V c main_arg0) (V c main_arg2) (V c main_arg4) (V c main_v23) (V c main_v24) (V c main_v25)
        (V c main_v26) (V c main_v27)) := by
  show (cfg0.win 10).cut (grid0.coords t) ((dat0 V c).after 10 t) = _
  rw [after0_10]
  unfold out0_10
  rw [View.canon_unit_zero hz]
  simp only [View.ld_unit_zero (S := S5000x128) hz, View.ld_unit_zero (S := S5000x1) hz, View.ld_unit_zero (S := S128x128) hz,
    View.ld_unit_zero (S := S1x128) hz]
  funext j
  refine (pay0_at (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) j).trans ?_
  show _ = G0 (V c main_v22) (V c main_v12) (V c main_arg0) (V c main_arg2) (V c main_arg4) (V c main_v23) (V c main_v24)
    (V c main_v25) (V c main_v26) (V c main_v27) (((cfg0.win 10).blk t).view.emb j)
  unfold G0
  exact hidRow_congr (funext fun k => blk0_0 V c t j k) (funext fun k => blk0_2 V c t j k) (blk0_1 V c t j) (blk0_3 V c t) (blk0_4 V c t)
    (blk0_5 V c t) (blk0_6 V c t) (blk0_7 V c t) (blk0_8 V c t) (blk0_9 V c t) (col0 t j)

/-- An index of the array is in point t's block iff each coordinate is in the block's range. -/
theorem mem_blk0 (t : Fin cfg0.N) (i : S50000x128.Idx) :
    i ∈ ((cfg0.win 10).blk t).view.set ↔ ∀ a : Fin 2, win0_10.index t a * S5000x128.size a ≤ (i a).val
      ∧ (i a).val < win0_10.index t a * S5000x128.size a + S5000x128.size a := by
  show i ∈ ((View.whole main_v28).slice (win0_10.rect t)).set ↔ _
  rw [View.set_slice_whole, Rect.mem_set_unit]
  exact Iff.rfl

/-- Row n lies in the block of point n / 5000: the ten blocks tile the array. -/
theorem cover0 (i : S50000x128.Idx) : ∃ t : Fin cfg0.N, (cfg0.win 10).flush t = true ∧ i ∈ ((cfg0.win 10).blk t).view.set := by
  have hi0 : (i 0).val < 50000 := (i 0).isLt
  have hi1 : (i 1).val < 128 := (i 1).isLt
  have hN : grid0.N = 10 := N_0
  have ht : (i 0).val / 5000 < grid0.N := by rw [hN]; omega
  obtain ⟨-, -, -, -, -, -, -, -, -, -, -, -, -, e10a, e10b⟩ := idx_facts0 ⟨(i 0).val / 5000, ht⟩
  refine ⟨⟨(i 0).val / 5000, ht⟩, flush0_10 _, ?_⟩
  rw [mem_blk0]
  intro a
  match a with
  | ⟨0, _⟩ =>
    show win0_10.index ⟨(i 0).val / 5000, ht⟩ (0 : Fin 2) * 5000 ≤ (i 0).val
      ∧ (i 0).val < win0_10.index ⟨(i 0).val / 5000, ht⟩ (0 : Fin 2) * 5000 + 5000
    have e : win0_10.index ⟨(i 0).val / 5000, ht⟩ (0 : Fin 2) = (i 0).val / 5000 := e10a
    omega
  | ⟨1, _⟩ =>
    show win0_10.index ⟨(i 0).val / 5000, ht⟩ (1 : Fin 2) * 128 ≤ (i 1).val
      ∧ (i 1).val < win0_10.index ⟨(i 0).val / 5000, ht⟩ (1 : Fin 2) * 128 + 128
    omega

/-- The first region's output array after the run. -/
theorem final0 (c : Dev nD) : (dat0 V c).arrAt 10 cfg0.N
    = G0 (V c main_v22) (V c main_v12) (V c main_arg0) (V c main_arg2) (V c main_arg4) (V c main_v23) (V c main_v24) (V c main_v25)
        (V c main_v26) (V c main_v27) :=
  (dat0 V c).arrAt_eq_of_cover 10 _ (fun t _ => flushed0 V c t) cover0

end Cert.Sage.KRegion

end
-- ==== Proof.KValue1.lean ====
/-
  The first hidden activation, as the kernel program leaves it.

  After the first region the buffer of its output holds, row by row, the hidden layer of what the region found: the neighbour
  sums of the node features (the scatter-add, at the destination entries, of the rows gathered at the source entries), the
  reciprocal floored degree, the features, the two weight matrices and the five vectors as rows. That is the specification's
  first hidden activation of the argument arrays.
-/
import proofs.«148049_j15126874816626_2_alg».proof.Proof.Gen.KernelIdeal.Frame
import proofs.«148049_j15126874816626_2_alg».proof.Proof.KRegion0
import proofs.«148049_j15126874816626_2_alg».proof.Proof.KGlue
import proofs.«148049_j15126874816626_2_alg».proof.Proof.KHost0

set_option maxRecDepth 16384

noncomputable section

namespace Cert.Sage.KValue

open Cert.KernelIdeal Cert.KernelIdeal.Gen Cert.Sage Cert.Sage.KHost
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- The specification's first hidden activation of this memory's argument arrays. -/
def h1Of : S50000x128.Idx → EReal :=
  h1K (srcIK (eiOf m c)) (dstIK (eiOf m c)) (cntK (eiOf m c)) (xOf m c) (m ((c : Thread nD τ).loc main_arg2)) (m ((c : Thread nD τ).loc main_arg4))
    (m ((c : Thread nD τ).loc main_arg3)) (m ((c : Thread nD τ).loc main_arg11)) (m ((c : Thread nD τ).loc main_arg12))
    (m ((c : Thread nD τ).loc main_arg13)) (m ((c : Thread nD τ).loc main_arg14))

/-- The first region's output buffer at its exit is the first hidden activation. -/
theorem h1_eq : (W2 m ρ c (Proc.devRef .tc main_v28) : S50000x128.Idx → EReal) = h1Of m c := by
  refine (W2_arr m ρ c 10).trans ?_
  refine (KRegion.final0 (V1 m ρ) c).trans ?_
  funext i
  obtain ⟨n, q, rfl⟩ : ∃ (n : Fin 50000) (q : Fin 128), i = ix2 n q := ⟨i 0, i 1, eq_ix2 i⟩
  unfold KRegion.G0 h1Of h1K
  refine (hidRow_congr (funext fun k => v22_apply m ρ c n k) (funext fun k => congrFun (V1_arg0 m ρ c) _) (v12_apply m ρ c n)
    (V1_arg2 m ρ c) (V1_arg4 m ρ c) rfl rfl rfl rfl rfl rfl).trans ?_
  exact hidRow_eq_hidK (cntK (eiOf m c)) (arr2 (nbrSum (srcIK (eiOf m c)) (dstIK (eiOf m c)) (xOf m c))) (xOf m c) _ _ _ _ _ _ _
    _ _ _ _ _ n q _ rfl (v23_apply m ρ c q) (v24_apply m ρ c q) (v25_apply m ρ c q) (v26_apply m ρ c q) (v27_apply m ρ c q)

end Cert.Sage.KValue

end
-- ==== Proof.KValue2.lean ====
/-
  The second hidden activation and its projection, as the kernel program leaves them.

  The second region finds the neighbour sums of the first hidden activation, the same reciprocal degree, the first hidden
  activation itself, the second layer's weights and vectors, and W3l padded with 17 zero columns. Its first output is, row by
  row, the second hidden activation; its second output is, in each of the first 47 columns, that hidden row times the column
  of W3l.
-/
import proofs.«148049_j15126874816626_2_alg».proof.Proof.Gen.KernelIdeal.Frame
import proofs.«148049_j15126874816626_2_alg».proof.Proof.KRegion1
import proofs.«148049_j15126874816626_2_alg».proof.Proof.KGlue
import proofs.«148049_j15126874816626_2_alg».proof.Proof.KHost0
import proofs.«148049_j15126874816626_2_alg».proof.Proof.KValue1

set_option maxRecDepth 16384

noncomputable section

open scoped BigOperators

namespace Cert.Sage.KValue

open Cert.KernelIdeal Cert.KernelIdeal.Gen Cert.Sage Cert.Sage.KHost
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- The specification's second hidden activation of this memory's argument arrays. -/
def h2Of : S50000x128.Idx → EReal :=
  arr2 (hidK (cntK (eiOf m c)) (arr2 (nbrSum (srcIK (eiOf m c)) (dstIK (eiOf m c)) (h1Of m c))) (h1Of m c)
    (m ((c : Thread nD τ).loc main_arg5)) (m ((c : Thread nD τ).loc main_arg7)) (m ((c : Thread nD τ).loc main_arg6))
    (m ((c : Thread nD τ).loc main_arg15)) (m ((c : Thread nD τ).loc main_arg16)) (m ((c : Thread nD τ).loc main_arg17))
    (m ((c : Thread nD τ).loc main_arg18)))

/-- The hidden row the second region computes for node n, in column q, is the second hidden activation at (n, q). -/
theorem h2_row (n : Fin 50000) (q : Fin 128) :
    hidRow (fun k => (V5 m ρ c main_v38 : S50000x128.Idx → EReal) (ix2 n k)) (fun k => (V5 m ρ c main_v28 : S50000x128.Idx → EReal) (ix2 n k))
      ((V5 m ρ c main_v12 : S50000x1.Idx → EReal) (ix2 n (0 : Fin 1))) (V5 m ρ c main_arg5) (V5 m ρ c main_arg7) (V5 m ρ c main_v40)
      (V5 m ρ c main_v41) (V5 m ρ c main_v42) (V5 m ρ c main_v43) (V5 m ρ c main_v44) q = h2Of m c (ix2 n q) := by
  refine (hidRow_congr (funext fun k => (v38_apply m ρ c n k).trans (congrArg (fun f => nbrSum (srcIK (eiOf m c)) (dstIK (eiOf m c)) f n k) (h1_eq m ρ c)))
    (funext fun k => (congrFun (V5_v28 m ρ c) _).trans (congrFun (h1_eq m ρ c) _))
    ((congrFun (V5_v12 m ρ c) _).trans (v12_apply m ρ c n)) (V5_arg5 m ρ c) (V5_arg7 m ρ c) rfl rfl rfl rfl rfl rfl).trans ?_
  exact hidRow_eq_hidK (cntK (eiOf m c)) (arr2 (nbrSum (srcIK (eiOf m c)) (dstIK (eiOf m c)) (h1Of m c))) (h1Of m c) _ _ _ _ _ _ _
    _ _ _ _ _ n q _ rfl (v40_apply m ρ c q) (v41_apply m ρ c q) (v42_apply m ρ c q) (v43_apply m ρ c q) (v44_apply m ρ c q)

/-- The second region's first output buffer at its exit is the second hidden activation. -/
theorem h2_eq : (W6 m ρ c (Proc.devRef .tc main_v45_0) : S50000x128.Idx → EReal) = h2Of m c := by
  refine (W6_arr m ρ c 11).trans ?_
  refine (KRegion1.final1_11 (V5 m ρ) c).trans ?_
  funext i
  obtain ⟨n, q, rfl⟩ : ∃ (n : Fin 50000) (q : Fin 128), i = ix2 n q := ⟨i 0, i 1, eq_ix2 i⟩
  exact h2_row m ρ c n q

/-- The second region's second output buffer at its exit, in a column j < 47: the second hidden row times column j of W3l. -/
theorem p2_apply (r : Fin 50000) (j : Fin 47) :
    (W6 m ρ c (Proc.devRef .tc main_v45_1) : S50000x64.Idx → EReal) (ix2 r (⟨j.val, by omega⟩ : Fin 64))
      = ∑ k : Fin 128, h2Of m c (ix2 r k) * (m ((c : Thread nD τ).loc main_arg8) : S128x47.Idx → EReal) (ix2 k j) := by
  refine (congrFun ((W6_arr m ρ c 12).trans (KRegion1.final1_12 (V5 m ρ) c)) _).trans ?_
  show projRow _ _ _ = _
  unfold projRow
  refine Finset.sum_congr rfl fun k _ => congrArg₂ (· * ·) (h2_row m ρ c r k) ?_
  exact (v39_apply m ρ c k ⟨j.val, by omega⟩).trans (dif_pos j.isLt)

end Cert.Sage.KValue

end
-- ==== Proof.SageAlgebra.lean ====
/-
  Extended-real algebra for the two arrangements of the network of SageSpec: no program is involved.

  A quotient by a nonzero y is the product with y⁻¹; the degree is at least one, so its reciprocal is a nonnegative real;
  multiplication by a nonnegative real distributes over every sum of extended reals, and (a + b) · w = a · w + b · w
  for nonnegative a, b. With these the two arrangements of a hidden layer and of the output layer are the same extended real.
-/
import proofs.«148049_j15126874816626_2_alg».proof.Proof.SageSpec

noncomputable section

open scoped BigOperators

namespace Cert.Sage

open Idealize.ShloMosaic Idealize.ShloMosaic.ValueIdx

/-- A quotient by a nonzero extended real is the product with the reciprocal 1 / c. -/
theorem div_eq_mul_inv (a c : EReal) (hc : c ≠ 0) : Ideal.div a c = a * Ideal.div oneE c := by
  unfold Ideal.div
  rw [if_neg hc, if_neg hc, oneE_eq, one_mul]

/-- A nonnegative family sums, then multiplies, as it multiplies termwise, then sums. -/
theorem sum_mul_of_nonneg {ι : Type} (s : Finset ι) (f : ι → EReal) (c : EReal) (hf : ∀ i ∈ s, 0 ≤ f i) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih fun i hi => hf i (Finset.mem_insert_of_mem hi)]

/-- Multiplication by a nonnegative extended real other than ⊤ distributes over every finite sum. -/
theorem sum_mul_of_ne_top {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

section Graph

variable (sI dI : IVec ⟨2, ![600000, 1]⟩ 32) (cnt : (⟨1, ![50000]⟩ : Shape).Idx → EReal)

/-- The degree, a maximum with one, is at least one. -/
theorem one_le_deg (n : Fin 50000) : 1 ≤ deg cnt n := by
  unfold deg
  rw [oneE_eq]
  exact le_max_right _ _

/-- The degree, being at least one, is not zero. -/
theorem deg_ne_zero (n : Fin 50000) : deg cnt n ≠ 0 :=
  (lt_of_lt_of_le zero_lt_one (one_le_deg cnt n)).ne'

/-- The reciprocal degree is a nonnegative real: zero when the degree is ⊤, the real reciprocal otherwise. -/
theorem invDeg_real (n : Fin 50000) : ∃ r : ℝ, 0 ≤ r ∧ invDeg cnt n = (r : EReal) := by
  have h1 := one_le_deg cnt n
  have h0 := deg_ne_zero cnt n
  unfold invDeg Ideal.div
  rw [if_neg h0, oneE_eq, one_mul]
  generalize deg cnt n = d at h1
  induction d using EReal.rec with
  | bot => exact absurd (lt_of_lt_of_le zero_lt_one h1) not_lt_bot
  | coe y =>
    have hy : (1 : ℝ) ≤ y := by exact_mod_cast h1
    exact ⟨y⁻¹, inv_nonneg.mpr (by linarith), (EReal.coe_inv y).symm⟩
  | top => exact ⟨0, le_rfl, by simp [EReal.inv_top]⟩

/-- The two arrangements of a hidden layer are the same extended real: the quotient by the degree is the product with its
    reciprocal, and (A + B) + b = (A + b) + B. -/
theorem hidK_eq_hidR (a x : (⟨2, ![50000, 128]⟩ : Shape).Idx → EReal) (Wl Wr : (⟨2, ![128, 128]⟩ : Shape).Idx → EReal)
    (b g be m v : (⟨1, ![128]⟩ : Shape).Idx → EReal) (n : Fin 50000) (j : Fin 128) :
    hidK cnt a x Wl Wr b g be m v n j = hidR cnt a x Wl Wr b g be m v n j := by
  have hs : ∀ k : Fin 128, Ideal.div (a (ix2 n k)) (deg cnt n) = a (ix2 n k) * invDeg cnt n :=
    fun k => div_eq_mul_inv _ _ (deg_ne_zero cnt n)
  unfold hidK hidR
  simp only [hs]
  rw [add_right_comm]

/-- Projecting then averaging over the in-edges is averaging then projecting, for a nonnegative array h. -/
theorem proj_mean (h : (⟨2, ![50000, 128]⟩ : Shape).Idx → EReal) (W3l : (⟨2, ![128, 47]⟩ : Shape).Idx → EReal)
    (n : Fin 50000) (j : Fin 47) (hh : ∀ i, 0 ≤ h i) :
    nbrSum sI dI (arr2 fun r c => ∑ k : Fin 128, h (ix2 r k) * W3l (ix2 k c)) n j * invDeg cnt n
      = ∑ k : Fin 128, Ideal.div (nbrSum sI dI h n k) (deg cnt n) * W3l (ix2 k j) := by
  obtain ⟨r, hr0, hr⟩ := invDeg_real cnt n
  have hρ0 : 0 ≤ invDeg cnt n := by rw [hr]; exact_mod_cast hr0
  have hρt : invDeg cnt n ≠ ⊤ := by rw [hr]; exact EReal.coe_ne_top r
  have hd : ∀ a : EReal, Ideal.div a (deg cnt n) = a * invDeg cnt n :=
    fun a => div_eq_mul_inv _ _ (deg_ne_zero cnt n)
  simp only [nbrSum, zeroE_eq, zero_add, arr2_ix2, hd]
  rw [Finset.sum_comm, sum_mul_of_ne_top _ _ _ hρ0 hρt]
  refine Finset.sum_congr rfl fun k _ => ?_
  rw [mul_right_comm, sum_mul_of_nonneg _ _ _ fun e _ => hh _]

/-- The two arrangements of the output layer agree on a nonnegative hidden activation. -/
theorem outK_eq_outR (h : (⟨2, ![50000, 128]⟩ : Shape).Idx → EReal) (W3l W3r : (⟨2, ![128, 47]⟩ : Shape).Idx → EReal)
    (b3 : (⟨1, ![47]⟩ : Shape).Idx → EReal) (n : Fin 50000) (j : Fin 47) (hh : ∀ i, 0 ≤ h i) :
    outK sI dI cnt h W3l W3r b3 n j = outR sI dI cnt h W3l W3r b3 n j := by
  unfold outK outR
  rw [proj_mean sI dI cnt h W3l n j hh]

variable (x : (⟨2, ![50000, 128]⟩ : Shape).Idx → EReal)
  (W1l W1r W2l W2r : (⟨2, ![128, 128]⟩ : Shape).Idx → EReal) (W3l W3r : (⟨2, ![128, 47]⟩ : Shape).Idx → EReal)
  (b1 b2 g1 be1 m1 v1 g2 be2 m2 v2 : (⟨1, ![128]⟩ : Shape).Idx → EReal) (b3 : (⟨1, ![47]⟩ : Shape).Idx → EReal)

/-- The second hidden activation is a maximum with zero, hence nonnegative. -/
theorem h2K_nonneg : ∀ i, 0 ≤ h2K sI dI cnt x W1l W1r W2l W2r b1 b2 g1 be1 m1 v1 g2 be2 m2 v2 i := by
  intro i
  unfold h2K arr2 hidK
  calc (0 : EReal) = zeroE := zeroE_eq.symm
    _ ≤ _ := le_max_right _ _

/-- The first hidden activations of the two arrangements are the same array. -/
theorem h1K_eq_h1R : h1K sI dI cnt x W1l W1r b1 g1 be1 m1 v1 = h1R sI dI cnt x W1l W1r b1 g1 be1 m1 v1 := by
  funext i
  unfold h1K h1R arr2
  exact hidK_eq_hidR cnt _ _ _ _ _ _ _ _ _ _ _

/-- The second hidden activations of the two arrangements are the same array. -/
theorem h2K_eq_h2R : h2K sI dI cnt x W1l W1r W2l W2r b1 b2 g1 be1 m1 v1 g2 be2 m2 v2
    = h2R sI dI cnt x W1l W1r W2l W2r b1 b2 g1 be1 m1 v1 g2 be2 m2 v2 := by
  funext i
  unfold h2K h2R arr2
  rw [h1K_eq_h1R]
  exact hidK_eq_hidR cnt _ _ _ _ _ _ _ _ _ _ _

/-- The two arrangements of the whole network are the same array of extended reals. -/
theorem resK_eq_resR : resK sI dI cnt x W1l W1r W2l W2r W3l W3r b1 b2 g1 be1 m1 v1 g2 be2 m2 v2 b3
    = resR sI dI cnt x W1l W1r W2l W2r W3l W3r b1 b2 g1 be1 m1 v1 g2 be2 m2 v2 b3 := by
  funext i
  unfold resK resR arr2
  rw [← h2K_eq_h2R]
  exact outK_eq_outR sI dI cnt _ W3l W3r b3 _ _ (h2K_nonneg sI dI cnt x W1l W1r W2l W2r b1 b2 g1 be1 m1 v1 g2 be2 m2 v2)

end Graph

end Cert.Sage

end
-- ==== Proof.RefValue.lean ====
/-
  The reference program's result, at the extended reals, is the specification's second arrangement (Cert.Sage.resR).

  The edge array enters only through three composed terms, kept opaque here: the gathers' start indices (the source row of
  the edge array, shifted by 50000 where negative), the scatters' indices (its destination row) and the float count array
  (the scatter-add of ones onto zeros). Every other operation is read at an index.
-/
import proofs.«148049_j15126874816626_2_alg».proof.Proof.Gen.ReferenceIdeal.Read
import proofs.«148049_j15126874816626_2_alg».proof.Proof.SageSpec
import proofs.«148049_j15126874816626_2_alg».proof.Proof.LibRowScatter

noncomputable section

open scoped BigOperators

namespace Cert.Sage.Ref

open Cert.ReferenceIdeal Cert.ReferenceIdeal.Gen Cert.ReferenceIdeal.Read Idealize.ShloMosaic Idealize.ShloMosaic.ValueIdx
  Idealize.ShloMosaic.StableHlo

/-! ## The three terms of the edge array -/

/-- The gathers' start indices. -/
def srcI (ei : IVec ⟨2, ![2, 600000]⟩ 32) : IVec ⟨2, ![600000, 1]⟩ 32 := val_main_v9 (F := Ideal) ei
/-- The scatters' indices. -/
def dstI (ei : IVec ⟨2, ![2, 600000]⟩ 32) : IVec ⟨2, ![600000, 1]⟩ 32 := val_main_v12 (F := Ideal) ei
/-- The count array: ones scatter-added onto zeros along the destination row. -/
def cntA (ei : IVec ⟨2, ![2, 600000]⟩ 32) : (⟨1, ![50000]⟩ : Shape).Idx → EReal := val_main_v17 (F := Ideal) ei

section Terms
variable (ei : IVec ⟨2, ![2, 600000]⟩ 32)

theorem v9_eq : val_main_v9 (F := Ideal) ei = srcI ei := rfl
theorem v48_eq : val_main_v48 (F := Ideal) ei = srcI ei := rfl
theorem v87_eq : val_main_v87 (F := Ideal) ei = srcI ei := rfl
theorem v12_eq : val_main_v12 (F := Ideal) ei = dstI ei := rfl
theorem v16_eq : val_main_v16 (F := Ideal) ei = dstI ei := rfl
theorem v51_eq : val_main_v51 (F := Ideal) ei = dstI ei := rfl
theorem v55_eq : val_main_v55 (F := Ideal) ei = dstI ei := rfl
theorem v90_eq : val_main_v90 (F := Ideal) ei = dstI ei := rfl
theorem v94_eq : val_main_v94 (F := Ideal) ei = dstI ei := rfl
theorem v17_eq : val_main_v17 (F := Ideal) ei = cntA ei := rfl
theorem v56_eq : val_main_v56 (F := Ideal) ei = cntA ei := rfl
theorem v95_eq : val_main_v95 (F := Ideal) ei = cntA ei := rfl

end Terms

/-! ## Index equations: the composed index functions at coordinates -/

theorem ix_deg (n : Fin 50000) (k : Fin 128) : idx_main_v20 (idx_main_v21 (ix2 n k)) = ix1 n :=
  funext fun a => Fin.ext (by match a with | ⟨0, _⟩ => rfl)
theorem ix_row (n : Fin 50000) (j : Fin 128) : idx_main_v24 (idx_main_v25 (ix2 n j)) = ix1 j :=
  funext fun a => Fin.ext (by match a with | ⟨0, _⟩ => rfl)
theorem ix_lhs (n : Fin 50000) (j k : Fin 128) : lidx_main_v27 (ix2 n j) k = ix2 n k :=
  funext fun a => Fin.ext (by match a with | ⟨0, _⟩ => rfl | ⟨1, _⟩ => rfl)
theorem ix_rhs (n : Fin 50000) (j k : Fin 128) : ridx_main_v27 (ix2 n j) k = ix2 k j :=
  funext fun a => Fin.ext (by match a with | ⟨0, _⟩ => rfl | ⟨1, _⟩ => rfl)

/-! ## The broadcast operands at coordinates -/

section Rows
variable (ei : IVec ⟨2, ![2, 600000]⟩ 32) (b g v : (⟨1, ![128]⟩ : Shape).Idx → EReal)

/-- The degree column max(count, 1), broadcast along the row. -/
theorem deg_apply (n : Fin 50000) (k : Fin 128) :
    val_main_v21 (F := Ideal) ei (ix2 n k) = Cert.Sage.deg (cntA ei) n := by
  rw [val_main_v21_apply, val_main_v20_apply, val_main_v19_apply, val_main_v18_apply, val_main_cst_3_apply, ix_deg]
  rfl

/-- A [128] vector broadcast to every row. -/
theorem row_apply (n : Fin 50000) (j : Fin 128) : val_main_v25 (F := Ideal) b (ix2 n j) = b (ix1 j) := by
  rw [val_main_v25_apply, val_main_v24_apply, ix_row]

/-- The batch-norm scale g · rsqrt(v + ε), broadcast to every row. -/
theorem scale_apply (n : Fin 50000) (j : Fin 128) :
    val_main_v37 (F := Ideal) g v (ix2 n j) = Cert.Sage.bnScale g v j := by
  rw [val_main_v37_apply, val_main_v36_apply, val_main_v35_apply, val_main_v34_apply, val_main_v33_apply,
    val_main_v32_apply, val_main_cst_4_apply]
  show g (idx_main_v24 (idx_main_v25 (ix2 n j))) * Ideal.rsqrt (v (idx_main_v24 (idx_main_v25 (ix2 n j))) + Cert.Sage.epsE) = _
  rw [ix_row]
  rfl

/-- The zero the maximum is taken with. -/
theorem relu_zero (i : (⟨2, ![50000, 128]⟩ : Shape).Idx) : val_main_call0_v0 (F := Ideal) i = Cert.Sage.zeroE := by
  rw [val_main_call0_v0_apply, val_main_call0_cst_apply]
  rfl

end Rows

/-! ## The neighbour sum -/

section Nbr
variable (sI dI : IVec ⟨2, ![600000, 1]⟩ 32) (f : (⟨2, ![50000, 128]⟩ : Shape).Idx → EReal)

/-- Rows gathered along the source entries, scatter-added onto zeros along the destination entries. -/
theorem nbr_apply (n : Fin 50000) (k : Fin 128) :
    (Host.scatterAdd (F := Ideal) (φ := .f32) scatter_S50000x128_S600000x1_S600000x128_1_0_0_1 (val_main_v11 (F := Ideal)) dI
      (Host.gather gather_S50000x128_S600000x1_S600000x128_1_0_n_n_0_1_1128 f sI) (ix2 n k) : EReal)
    = Cert.Sage.nbrSum sI dI f n k := by
  have hz : val_main_v11 (F := Ideal) (ix2 n k) = Cert.Sage.zeroE := by
    rw [val_main_v11_apply, val_main_cst_apply]
    rfl
  refine (Cert.RowScatter.rowScatterAdd_apply (N := 50000) (E := 600000) (D := 128)
    scatter_S50000x128_S600000x1_S600000x128_1_0_0_1_wf (val_main_v11 (F := Ideal)) dI
    (Host.gather gather_S50000x128_S600000x1_S600000x128_1_0_n_n_0_1_1128 f sI) n k).trans ?_
  rw [hz]
  unfold Cert.Sage.nbrSum Cert.Sage.inEdges
  refine congrArg (fun t => Cert.Sage.zeroE + t) (Finset.sum_congr rfl fun e _ => ?_)
  exact Cert.RowScatter.rowGather_apply (N := 50000) (E := 600000) (D := 128) (by decide)
    gather_S50000x128_S600000x1_S600000x128_1_0_n_n_0_1_1128_wf f sI e k

end Nbr

/-! ## More index equations, one per composed index function -/

theorem ix_lhs23 (n : Fin 50000) (j k : Fin 128) : lidx_main_v23 (ix2 n j) k = ix2 n k :=
  funext fun a => Fin.ext (by match a with | ⟨0, _⟩ => rfl | ⟨1, _⟩ => rfl)
theorem ix_rhs23 (n : Fin 50000) (j k : Fin 128) : ridx_main_v23 (ix2 n j) k = ix2 k j :=
  funext fun a => Fin.ext (by match a with | ⟨0, _⟩ => rfl | ⟨1, _⟩ => rfl)
theorem ix_lhs62 (n : Fin 50000) (j k : Fin 128) : lidx_main_v62 (ix2 n j) k = ix2 n k :=
  funext fun a => Fin.ext (by match a with | ⟨0, _⟩ => rfl | ⟨1, _⟩ => rfl)
theorem ix_rhs62 (n : Fin 50000) (j k : Fin 128) : ridx_main_v62 (ix2 n j) k = ix2 k j :=
  funext fun a => Fin.ext (by match a with | ⟨0, _⟩ => rfl | ⟨1, _⟩ => rfl)
theorem ix_lhs66 (n : Fin 50000) (j k : Fin 128) : lidx_main_v66 (ix2 n j) k = ix2 n k :=
  funext fun a => Fin.ext (by match a with | ⟨0, _⟩ => rfl | ⟨1, _⟩ => rfl)
theorem ix_rhs66 (n : Fin 50000) (j k : Fin 128) : ridx_main_v66 (ix2 n j) k = ix2 k j :=
  funext fun a => Fin.ext (by match a with | ⟨0, _⟩ => rfl | ⟨1, _⟩ => rfl)
theorem ix_lhs101 (n : Fin 50000) (j : Fin 47) (k : Fin 128) : lidx_main_v101 (ix2 n j) k = ix2 n k :=
  funext fun a => Fin.ext (by match a with | ⟨0, _⟩ => rfl | ⟨1, _⟩ => rfl)
theorem ix_rhs101 (n : Fin 50000) (j : Fin 47) (k : Fin 128) : ridx_main_v101 (ix2 n j) k = ix2 k j :=
  funext fun a => Fin.ext (by match a with | ⟨0, _⟩ => rfl | ⟨1, _⟩ => rfl)
theorem ix_lhs105 (n : Fin 50000) (j : Fin 47) (k : Fin 128) : lidx_main_v105 (ix2 n j) k = ix2 n k :=
  funext fun a => Fin.ext (by match a with | ⟨0, _⟩ => rfl | ⟨1, _⟩ => rfl)
theorem ix_rhs105 (n : Fin 50000) (j : Fin 47) (k : Fin 128) : ridx_main_v105 (ix2 n j) k = ix2 k j :=
  funext fun a => Fin.ext (by match a with | ⟨0, _⟩ => rfl | ⟨1, _⟩ => rfl)
theorem ix_row47 (n : Fin 50000) (j : Fin 47) : idx_main_v102 (idx_main_v103 (ix2 n j)) = ix1 j :=
  funext fun a => Fin.ext (by match a with | ⟨0, _⟩ => rfl)

/-! ## The first hidden layer -/

section Layer1
variable (x : (⟨2, ![50000, 128]⟩ : Shape).Idx → EReal) (ei : IVec ⟨2, ![2, 600000]⟩ 32)
  (W1l W1r : (⟨2, ![128, 128]⟩ : Shape).Idx → EReal) (b1 g1 be1 m1 v1 : (⟨1, ![128]⟩ : Shape).Idx → EReal)

theorem v13_apply (n : Fin 50000) (k : Fin 128) :
    val_main_v13 (F := Ideal) x ei (ix2 n k) = Cert.Sage.nbrSum (srcI ei) (dstI ei) x n k :=
  nbr_apply (srcI ei) (dstI ei) x n k

/-- The mean: the neighbour sum divided by the degree. -/
theorem v22_apply (n : Fin 50000) (k : Fin 128) :
    val_main_v22 (F := Ideal) x ei (ix2 n k)
      = Ideal.div (Cert.Sage.nbrSum (srcI ei) (dstI ei) x n k) (Cert.Sage.deg (cntA ei) n) := by
  rw [val_main_v22_apply, v13_apply, deg_apply]
  rfl

theorem h1_apply (n : Fin 50000) (j : Fin 128) :
    val_main_v42 (F := Ideal) x ei W1l b1 W1r g1 be1 m1 v1 (ix2 n j)
      = Cert.Sage.hidR (cntA ei) (Cert.Sage.arr2 (Cert.Sage.nbrSum (srcI ei) (dstI ei) x)) x W1l W1r b1 g1 be1 m1 v1 n j := by
  have e1 : ∀ k : Fin 128, val_main_v22 (F := Ideal) x ei (lidx_main_v23 (ix2 n j) k) * W1l (ridx_main_v23 (ix2 n j) k)
      = Ideal.div (Cert.Sage.nbrSum (srcI ei) (dstI ei) x n k) (Cert.Sage.deg (cntA ei) n) * W1l (ix2 k j) := fun k => by
    rw [ix_lhs23, ix_rhs23, v22_apply]
  have e2 : ∀ k : Fin 128, x (lidx_main_v27 (ix2 n j) k) * W1r (ridx_main_v27 (ix2 n j) k) = x (ix2 n k) * W1r (ix2 k j) :=
    fun k => by rw [ix_lhs, ix_rhs]
  rw [val_main_v42_apply, val_main_v41_apply, val_main_v38_apply, val_main_v31_apply, val_main_v28_apply,
    val_main_v26_apply, val_main_v23_apply, val_main_v27_apply, relu_zero, scale_apply, row_apply,
    show val_main_v30 (F := Ideal) m1 = val_main_v25 (F := Ideal) m1 from rfl, row_apply,
    show val_main_v40 (F := Ideal) be1 = val_main_v25 (F := Ideal) be1 from rfl, row_apply,
    Finset.sum_congr rfl fun k _ => e1 k, Finset.sum_congr rfl fun k _ => e2 k]
  rfl

end Layer1

/-! ## The second hidden layer: the same operations on the first layer's result -/

section Layer2
variable (x : (⟨2, ![50000, 128]⟩ : Shape).Idx → EReal) (ei : IVec ⟨2, ![2, 600000]⟩ 32)
  (W1l W1r W2l W2r : (⟨2, ![128, 128]⟩ : Shape).Idx → EReal)
  (b1 g1 be1 m1 v1 b2 g2 be2 m2 v2 : (⟨1, ![128]⟩ : Shape).Idx → EReal)

theorem v52_apply (n : Fin 50000) (k : Fin 128) :
    val_main_v52 (F := Ideal) x ei W1l b1 W1r g1 be1 m1 v1 (ix2 n k)
      = Cert.Sage.nbrSum (srcI ei) (dstI ei) (val_main_v42 (F := Ideal) x ei W1l b1 W1r g1 be1 m1 v1) n k :=
  nbr_apply (srcI ei) (dstI ei) (val_main_v42 (F := Ideal) x ei W1l b1 W1r g1 be1 m1 v1) n k

theorem v61_apply (n : Fin 50000) (k : Fin 128) :
    val_main_v61 (F := Ideal) x ei W1l b1 W1r g1 be1 m1 v1 (ix2 n k)
      = Ideal.div (Cert.Sage.nbrSum (srcI ei) (dstI ei) (val_main_v42 (F := Ideal) x ei W1l b1 W1r g1 be1 m1 v1) n k)
          (Cert.Sage.deg (cntA ei) n) := by
  rw [val_main_v61_apply, v52_apply, show val_main_v60 (F := Ideal) ei = val_main_v21 (F := Ideal) ei from rfl, deg_apply]
  rfl

theorem h2_apply (n : Fin 50000) (j : Fin 128) :
    val_main_v81 (F := Ideal) x ei W1l b1 W1r W2l b2 W2r g1 be1 m1 v1 g2 be2 m2 v2 (ix2 n j)
      = Cert.Sage.hidR (cntA ei)
          (Cert.Sage.arr2 (Cert.Sage.nbrSum (srcI ei) (dstI ei) (val_main_v42 (F := Ideal) x ei W1l b1 W1r g1 be1 m1 v1)))
          (val_main_v42 (F := Ideal) x ei W1l b1 W1r g1 be1 m1 v1) W2l W2r b2 g2 be2 m2 v2 n j := by
  have e1 : ∀ k : Fin 128, val_main_v61 (F := Ideal) x ei W1l b1 W1r g1 be1 m1 v1 (lidx_main_v62 (ix2 n j) k)
        * W2l (ridx_main_v62 (ix2 n j) k)
      = Ideal.div (Cert.Sage.nbrSum (srcI ei) (dstI ei) (val_main_v42 (F := Ideal) x ei W1l b1 W1r g1 be1 m1 v1) n k)
          (Cert.Sage.deg (cntA ei) n) * W2l (ix2 k j) := fun k => by
    rw [ix_lhs62, ix_rhs62, v61_apply]
  have e2 : ∀ k : Fin 128, val_main_v42 (F := Ideal) x ei W1l b1 W1r g1 be1 m1 v1 (lidx_main_v66 (ix2 n j) k)
        * W2r (ridx_main_v66 (ix2 n j) k)
      = val_main_v42 (F := Ideal) x ei W1l b1 W1r g1 be1 m1 v1 (ix2 n k) * W2r (ix2 k j) := fun k => by
    rw [ix_lhs66, ix_rhs66]
  rw [val_main_v81_apply, val_main_v80_apply, val_main_v77_apply, val_main_v70_apply, val_main_v67_apply,
    val_main_v65_apply, val_main_v62_apply, val_main_v66_apply,
    show val_main_call1_v0 (F := Ideal) = val_main_call0_v0 (F := Ideal) from rfl, relu_zero,
    show val_main_v76 (F := Ideal) g2 v2 = val_main_v37 (F := Ideal) g2 v2 from rfl, scale_apply,
    show val_main_v64 (F := Ideal) b2 = val_main_v25 (F := Ideal) b2 from rfl, row_apply,
    show val_main_v69 (F := Ideal) m2 = val_main_v25 (F := Ideal) m2 from rfl, row_apply,
    show val_main_v79 (F := Ideal) be2 = val_main_v25 (F := Ideal) be2 from rfl, row_apply,
    Finset.sum_congr rfl fun k _ => e1 k, Finset.sum_congr rfl fun k _ => e2 k]
  rfl

end Layer2

/-! ## The output layer and the whole network -/

section Out
variable (x : (⟨2, ![50000, 128]⟩ : Shape).Idx → EReal) (ei : IVec ⟨2, ![2, 600000]⟩ 32)
  (W1l : (⟨2, ![128, 128]⟩ : Shape).Idx → EReal) (b1 : (⟨1, ![128]⟩ : Shape).Idx → EReal)
  (W1r W2l : (⟨2, ![128, 128]⟩ : Shape).Idx → EReal) (b2 : (⟨1, ![128]⟩ : Shape).Idx → EReal)
  (W2r : (⟨2, ![128, 128]⟩ : Shape).Idx → EReal) (W3l : (⟨2, ![128, 47]⟩ : Shape).Idx → EReal)
  (b3 : (⟨1, ![47]⟩ : Shape).Idx → EReal) (W3r : (⟨2, ![128, 47]⟩ : Shape).Idx → EReal)
  (g1 be1 m1 v1 g2 be2 m2 v2 : (⟨1, ![128]⟩ : Shape).Idx → EReal)

theorem v91_apply (n : Fin 50000) (k : Fin 128) :
    val_main_v91 (F := Ideal) x ei W1l b1 W1r W2l b2 W2r g1 be1 m1 v1 g2 be2 m2 v2 (ix2 n k)
      = Cert.Sage.nbrSum (srcI ei) (dstI ei)
          (val_main_v81 (F := Ideal) x ei W1l b1 W1r W2l b2 W2r g1 be1 m1 v1 g2 be2 m2 v2) n k :=
  nbr_apply (srcI ei) (dstI ei) (val_main_v81 (F := Ideal) x ei W1l b1 W1r W2l b2 W2r g1 be1 m1 v1 g2 be2 m2 v2) n k

theorem v100_apply (n : Fin 50000) (k : Fin 128) :
    val_main_v100 (F := Ideal) x ei W1l b1 W1r W2l b2 W2r g1 be1 m1 v1 g2 be2 m2 v2 (ix2 n k)
      = Ideal.div (Cert.Sage.nbrSum (srcI ei) (dstI ei)
          (val_main_v81 (F := Ideal) x ei W1l b1 W1r W2l b2 W2r g1 be1 m1 v1 g2 be2 m2 v2) n k) (Cert.Sage.deg (cntA ei) n) := by
  rw [val_main_v100_apply, v91_apply, show val_main_v99 (F := Ideal) ei = val_main_v21 (F := Ideal) ei from rfl, deg_apply]
  rfl

theorem out_apply (n : Fin 50000) (j : Fin 47) :
    val_main_v106 (F := Ideal) x ei W1l b1 W1r W2l b2 W2r W3l b3 W3r g1 be1 m1 v1 g2 be2 m2 v2 (ix2 n j)
      = Cert.Sage.outR (srcI ei) (dstI ei) (cntA ei)
          (val_main_v81 (F := Ideal) x ei W1l b1 W1r W2l b2 W2r g1 be1 m1 v1 g2 be2 m2 v2) W3l W3r b3 n j := by
  have e1 : ∀ k : Fin 128, val_main_v100 (F := Ideal) x ei W1l b1 W1r W2l b2 W2r g1 be1 m1 v1 g2 be2 m2 v2 (lidx_main_v101 (ix2 n j) k)
        * W3l (ridx_main_v101 (ix2 n j) k)
      = Ideal.div (Cert.Sage.nbrSum (srcI ei) (dstI ei)
          (val_main_v81 (F := Ideal) x ei W1l b1 W1r W2l b2 W2r g1 be1 m1 v1 g2 be2 m2 v2) n k) (Cert.Sage.deg (cntA ei) n)
        * W3l (ix2 k j) := fun k => by
    rw [ix_lhs101, ix_rhs101, v100_apply]
  have e2 : ∀ k : Fin 128, val_main_v81 (F := Ideal) x ei W1l b1 W1r W2l b2 W2r g1 be1 m1 v1 g2 be2 m2 v2 (lidx_main_v105 (ix2 n j) k)
        * W3r (ridx_main_v105 (ix2 n j) k)
      = val_main_v81 (F := Ideal) x ei W1l b1 W1r W2l b2 W2r g1 be1 m1 v1 g2 be2 m2 v2 (ix2 n k) * W3r (ix2 k j) := fun k => by
    rw [ix_lhs105, ix_rhs105]
  rw [val_main_v106_apply, val_main_v104_apply, val_main_v101_apply, val_main_v105_apply, val_main_v103_apply,
    val_main_v102_apply, ix_row47, Finset.sum_congr rfl fun k _ => e1 k, Finset.sum_congr rfl fun k _ => e2 k]
  rfl

/-- The first hidden activation is the specification's. -/
theorem h1_eq : val_main_v42 (F := Ideal) x ei W1l b1 W1r g1 be1 m1 v1
    = Cert.Sage.h1R (srcI ei) (dstI ei) (cntA ei) x W1l W1r b1 g1 be1 m1 v1 := by
  funext i
  obtain ⟨n, j, rfl⟩ : ∃ (n : Fin 50000) (j : Fin 128), i = ix2 n j := ⟨i 0, i 1, eq_ix2 i⟩
  exact h1_apply x ei W1l W1r b1 g1 be1 m1 v1 n j

/-- The second hidden activation is the specification's. -/
theorem h2_eq : val_main_v81 (F := Ideal) x ei W1l b1 W1r W2l b2 W2r g1 be1 m1 v1 g2 be2 m2 v2
    = Cert.Sage.h2R (srcI ei) (dstI ei) (cntA ei) x W1l W1r W2l W2r b1 b2 g1 be1 m1 v1 g2 be2 m2 v2 := by
  funext i
  obtain ⟨n, j, rfl⟩ : ∃ (n : Fin 50000) (j : Fin 128), i = ix2 n j := ⟨i 0, i 1, eq_ix2 i⟩
  rw [h2_apply, h1_eq]
  rfl

/-- The reference program's result is the specification's second arrangement. -/
theorem ref_eq : val_main_v106 (F := Ideal) x ei W1l b1 W1r W2l b2 W2r W3l b3 W3r g1 be1 m1 v1 g2 be2 m2 v2
    = Cert.Sage.resR (srcI ei) (dstI ei) (cntA ei) x W1l W1r W2l W2r W3l W3r b1 b2 g1 be1 m1 v1 g2 be2 m2 v2 b3 := by
  funext i
  obtain ⟨n, j, rfl⟩ : ∃ (n : Fin 50000) (j : Fin 47), i = ix2 n j := ⟨i 0, i 1, eq_ix2 i⟩
  rw [out_apply, h2_eq]
  rfl

end Out

/-! ## The run theorem's result term -/

section Run
open Idealize.ShloMosaic.TcCoe Idealize.SL.Sem

/-- The term the run theorem states for the result is the specification's second arrangement of the arguments in memory. -/
theorem res_eq (m : (ℓ : Loc nD τ sig) → Buf (Elt Ideal) ℓ) (c : Dev nD) :
    Cert.ReferenceIdeal.Value.res_main_v106 (F := Ideal) m c
      = Cert.Sage.resR (srcI (m ((c.tc : Thread nD τ).loc main_arg1))) (dstI (m ((c.tc : Thread nD τ).loc main_arg1)))
          (cntA (m ((c.tc : Thread nD τ).loc main_arg1)))
          (m ((c.tc : Thread nD τ).loc main_arg0)) (m ((c.tc : Thread nD τ).loc main_arg2)) (m ((c.tc : Thread nD τ).loc main_arg4))
          (m ((c.tc : Thread nD τ).loc main_arg5)) (m ((c.tc : Thread nD τ).loc main_arg7)) (m ((c.tc : Thread nD τ).loc main_arg8))
          (m ((c.tc : Thread nD τ).loc main_arg10)) (m ((c.tc : Thread nD τ).loc main_arg3)) (m ((c.tc : Thread nD τ).loc main_arg6))
          (m ((c.tc : Thread nD τ).loc main_arg11)) (m ((c.tc : Thread nD τ).loc main_arg12)) (m ((c.tc : Thread nD τ).loc main_arg13))
          (m ((c.tc : Thread nD τ).loc main_arg14)) (m ((c.tc : Thread nD τ).loc main_arg15)) (m ((c.tc : Thread nD τ).loc main_arg16))
          (m ((c.tc : Thread nD τ).loc main_arg17)) (m ((c.tc : Thread nD τ).loc main_arg18)) (m ((c.tc : Thread nD τ).loc main_arg9)) := by
  rw [val_main_v106_eq]
  exact ref_eq _ _ _ _ _ _ _ _ _ _ _ _ _ _ _ _ _ _ _

end Run

end Cert.Sage.Ref

end
-- ==== Proof.EdgeBridge.lean ====
/-
  The two arrangements read the edge array through the same three terms.

  The source column (row 0 of the edge array, a negative entry shifted by 50000), the destination column (row 1) and the
  count array (ones scatter-added onto zeros along the destination column) are spelled by the same operations on both
  sides, so the terms are equal by unfolding.
-/
import proofs.«148049_j15126874816626_2_alg».proof.Proof.KHost0
import proofs.«148049_j15126874816626_2_alg».proof.Proof.RefValue

noncomputable section

namespace Cert.Sage.Bridge

open Idealize.ShloMosaic

variable (ei : IVec ⟨2, ![2, 600000]⟩ 32)

/-- The source columns of the two sides are the same array. -/
theorem srcI_eq : Cert.Sage.KHost.srcIK ei = Cert.Sage.Ref.srcI ei := rfl

/-- The destination columns of the two sides are the same array. -/
theorem dstI_eq : Cert.Sage.KHost.dstIK ei = Cert.Sage.Ref.dstI ei := rfl

/-- The count arrays of the two sides are the same array. -/
theorem cnt_eq : Cert.Sage.KHost.cntK ei = Cert.Sage.Ref.cntA ei := rfl

end Cert.Sage.Bridge

end
-- ==== Proof.KValue.lean ====
/-
  The result array, as the kernel program leaves it, and its agreement with the reference's.

  The third region finds the neighbour sums of the projected array (width 64), the reciprocal degree, the second hidden
  activation, W3r padded with 17 zero columns and the bias padded with 17 zeros as a row; its output, sliced to the first 47
  columns, is the specification's projected-first output layer of the second hidden activation. So the kernel program's result
  is the specification's first arrangement of the argument arrays, which is the second arrangement (the reference's): the
  edge index arrays and the degree are the same terms of the edge array in both programs.
-/
import proofs.«148049_j15126874816626_2_alg».proof.Proof.Gen.KernelIdeal.Frame
import proofs.«148049_j15126874816626_2_alg».proof.Proof.KRegion2
import proofs.«148049_j15126874816626_2_alg».proof.Proof.KGlue
import proofs.«148049_j15126874816626_2_alg».proof.Proof.KHost0
import proofs.«148049_j15126874816626_2_alg».proof.Proof.KHost2
import proofs.«148049_j15126874816626_2_alg».proof.Proof.KValue2
import proofs.«148049_j15126874816626_2_alg».proof.Proof.SageAlgebra
import proofs.«148049_j15126874816626_2_alg».proof.Proof.RefValue
import proofs.«148049_j15126874816626_2_alg».proof.Proof.EdgeBridge

set_option maxRecDepth 16384

noncomputable section

open scoped BigOperators

namespace Cert.Sage.KValue

open Cert.KernelIdeal Cert.KernelIdeal.Gen Cert.Sage Cert.Sage.KHost
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- The start indices the third gather uses are the source index array … -/
theorem srcI_W6 :
    broadcastInDim S600000x1 ![0] bcast_S600000_S600000x1_0
      (select (cmpi .slt (W6 m ρ c (Proc.devRef .tc main_v1)) (broadcastInDim S600000 ![] bcast_S_S600000 (constantI S_ 32 0#32)))
        (addi (W6 m ρ c (Proc.devRef .tc main_v1)) (broadcastInDim S600000 ![] bcast_S_S600000 (constantI S_ 32 50000#32)))
        (W6 m ρ c (Proc.devRef .tc main_v1))) = srcIK (eiOf m c) := by
  rw [W6_v1 m ρ c]; exact srcI_of_v1 m ρ c

/-- … and the scatter's index operand is the destination index array. -/
theorem dstI_W6 : broadcastInDim S600000x1 ![0] bcast_S600000_S600000x1_0 (W6 m ρ c (Proc.devRef .tc main_v3)) = dstIK (eiOf m c) := by
  rw [W6_v3 m ρ c]; exact dstI_of_v3 m ρ c

/-- The third region's first input at (n, j'): the neighbour sum of the projected array. -/
theorem v55_apply (n : Fin 50000) (j' : Fin 64) :
    (V11 m ρ c main_v55 : S50000x64.Idx → EReal) (ix2 n j')
      = nbrSum (srcIK (eiOf m c)) (dstIK (eiOf m c)) (W6 m ρ c (Proc.devRef .tc main_v45_1) : S50000x64.Idx → EReal) n j' := by
  refine (congrFun (v55_term m ρ c) _).trans ?_
  refine (nbr64_apply _ _ _ n j').trans ?_
  exact congrArg₂ (fun s d => nbrSum s d (W6 m ρ c (Proc.devRef .tc main_v45_1) : S50000x64.Idx → EReal) n j') (srcI_W6 m ρ c) (dstI_W6 m ρ c)

/-- The specification's first arrangement of this memory's argument arrays. -/
def kres : S50000x47.Idx → EReal :=
  resK (srcIK (eiOf m c)) (dstIK (eiOf m c)) (cntK (eiOf m c)) (m ((c : Thread nD τ).loc main_arg0)) (m ((c : Thread nD τ).loc main_arg2)) (m ((c : Thread nD τ).loc main_arg4)) (m ((c : Thread nD τ).loc main_arg5)) (m ((c : Thread nD τ).loc main_arg7)) (m ((c : Thread nD τ).loc main_arg8)) (m ((c : Thread nD τ).loc main_arg10)) (m ((c : Thread nD τ).loc main_arg3)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg9))

/-- The result buffer after the last host operation is that arrangement. -/
theorem kernel_value : (W13 m ρ c (Proc.devRef .tc main_v60) : S50000x47.Idx → EReal) = kres m c := by
  funext i
  obtain ⟨n, j, rfl⟩ : ∃ (n : Fin 50000) (j : Fin 47), i = ix2 n j := ⟨i 0, i 1, eq_ix2 i⟩
  refine (v60_apply m ρ c n j).trans ?_
  refine (congrFun ((W12_arr m ρ c 5).trans (KRegion2.final2 (V11 m ρ) c)) _).trans ?_
  exact outRow_eq_outK (srcIK (eiOf m c)) (dstIK (eiOf m c)) (cntK (eiOf m c)) (h2Of m c) (m ((c : Thread nD τ).loc main_arg8)) (m ((c : Thread nD τ).loc main_arg10)) (m ((c : Thread nD τ).loc main_arg9))
    (W6 m ρ c (Proc.devRef .tc main_v45_1)) (V11 m ρ c main_v56) (V11 m ρ c main_v58) _ _ _ n j ⟨j.val, by omega⟩
    (v55_apply m ρ c n _) (fun r => p2_apply m ρ c r j) ((congrFun (V11_v12 m ρ c) _).trans (v12_apply m ρ c n))
    (fun k => (congrFun (V11_v45_0 m ρ c) _).trans (congrFun (h2_eq m ρ c) _))
    (fun k => (v56_apply m ρ c k ⟨j.val, by omega⟩).trans (dif_pos j.isLt)) ((v58_apply m ρ c ⟨j.val, by omega⟩).trans (dif_pos j.isLt))

theorem resK_congr {sI sI' dI dI' : IVec ⟨2, ![600000, 1]⟩ 32} {cnt cnt' : (⟨1, ![50000]⟩ : Shape).Idx → EReal}
    (h1 : sI = sI') (h2 : dI = dI') (h3 : cnt = cnt') (x : (⟨2, ![50000, 128]⟩ : Shape).Idx → EReal)
    (W1l W1r W2l W2r : (⟨2, ![128, 128]⟩ : Shape).Idx → EReal) (W3l W3r : (⟨2, ![128, 47]⟩ : Shape).Idx → EReal)
    (b1 b2 g1 be1 m1 v1 g2 be2 m2 v2 : (⟨1, ![128]⟩ : Shape).Idx → EReal) (b3 : (⟨1, ![47]⟩ : Shape).Idx → EReal) :
    resK sI dI cnt x W1l W1r W2l W2r W3l W3r b1 b2 g1 be1 m1 v1 g2 be2 m2 v2 b3
      = resK sI' dI' cnt' x W1l W1r W2l W2r W3l W3r b1 b2 g1 be1 m1 v1 g2 be2 m2 v2 b3 := by
  subst h1 h2 h3; rfl

/-- The first arrangement over the kernel program's index arrays is the second over the reference's. -/
theorem kres_eq_resR : kres m c
    = resR (Cert.Sage.Ref.srcI (eiOf m c)) (Cert.Sage.Ref.dstI (eiOf m c)) (Cert.Sage.Ref.cntA (eiOf m c)) (m ((c : Thread nD τ).loc main_arg0)) (m ((c : Thread nD τ).loc main_arg2)) (m ((c : Thread nD τ).loc main_arg4)) (m ((c : Thread nD τ).loc main_arg5)) (m ((c : Thread nD τ).loc main_arg7)) (m ((c : Thread nD τ).loc main_arg8)) (m ((c : Thread nD τ).loc main_arg10)) (m ((c : Thread nD τ).loc main_arg3)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg9)) :=
  (resK_congr (Cert.Sage.Bridge.srcI_eq (eiOf m c)) (Cert.Sage.Bridge.dstI_eq (eiOf m c)) (Cert.Sage.Bridge.cnt_eq (eiOf m c)) _ _ _ _ _ _ _ _ _ _ _ _ _ _ _ _ _ _).trans
    (resK_eq_resR _ _ _ _ _ _ _ _ _ _ _ _ _ _ _ _ _ _ _ _ _)

end Cert.Sage.KValue

end
-- ==== Proof.lean ====
/-
  A three-layer neighbour-mean network on 50000 nodes and 600000 edges, computed by a program of three kernel regions among
  host gathers and scatter-adds, against its plain reference.

  At the exact instance (floats are extended reals, every operation exact, format changes the identity) both programs
  compute, node by node, two hidden layers max(((mean · Wl + x · Wr + b) − m) · (g · rsqrt(v + ε)) + be, 0) and an output
  layer mean(h) · W3l + b3 + h · W3r, where mean is the neighbour sum over a node's in-edges divided by its degree floored at
  one. The kernel program multiplies by the reciprocal of the floored degree where the reference divides (the same extended
  real: the divisor is at least one, so never zero), adds the bias after the root term where the reference adds it before
  (addition of extended reals is commutative and associative), pads the output width to 64 with zero columns that the final
  slice drops, and in the last layer projects h by W3l on every node BEFORE taking the neighbour sum: the two orders agree
  because h is a maximum with zero, hence nonnegative, and (a + b) · w = a · w + b · w holds on the extended reals for
  nonnegative a, b, while multiplying by the reciprocal degree, a nonnegative real, distributes over every sum. No finiteness
  of the inputs is used.

  The kernel program's run names every buffer at the end (KRun); each region's output array is one whole-array function of
  what the region finds (KRegion0–2) and each host stretch's result is read at an index (KHost0, KHost2), which composed give
  the result array as the specification's first arrangement (KValue). The reference's run gives its result as the second
  arrangement (RefValue). The two arrangements are one function (SageAlgebra), and the two programs build the edge index arrays
  and the degree by the same operations (EdgeBridge).

  The frames of the two kernel programs are the generated frame certificates; the reference's frame is its generated run with
  the result dropped. No rewrite was applied in printing the idealized kernel, so there is nothing to preserve.
-/
import proofs.«148049_j15126874816626_2_alg».proof.Defs
import proofs.«148049_j15126874816626_2_alg».proof.Proof.Gen.Kernel
import proofs.«148049_j15126874816626_2_alg».proof.Proof.Gen.Kernel.Skeleton
import proofs.«148049_j15126874816626_2_alg».proof.Proof.Gen.Kernel.Launch
import proofs.«148049_j15126874816626_2_alg».proof.Proof.Gen.Kernel.Points
import proofs.«148049_j15126874816626_2_alg».proof.Proof.Gen.Kernel.Frame
import proofs.«148049_j15126874816626_2_alg».proof.Proof.Gen.KernelIdeal
import proofs.«148049_j15126874816626_2_alg».proof.Proof.Gen.KernelIdeal.Skeleton
import proofs.«148049_j15126874816626_2_alg».proof.Proof.Gen.KernelIdeal.Launch
import proofs.«148049_j15126874816626_2_alg».proof.Proof.Gen.KernelIdeal.Points
import proofs.«148049_j15126874816626_2_alg».proof.Proof.Gen.KernelIdeal.Frame
import proofs.«148049_j15126874816626_2_alg».proof.Proof.Gen.ReferenceIdeal
import proofs.«148049_j15126874816626_2_alg».proof.Proof.Gen.ReferenceIdeal.Run
import proofs.«148049_j15126874816626_2_alg».proof.Proof.Gen.Pre_finite_inputs
import proofs.«148049_j15126874816626_2_alg».proof.Proof.KRun
import proofs.«148049_j15126874816626_2_alg».proof.Proof.KValue
import proofs.«148049_j15126874816626_2_alg».proof.Proof.RefValue
import proofs.«148049_j15126874816626_2_alg».proof.Proof.SageAlgebra
import proofs.«148049_j15126874816626_2_alg».proof.Proof.EdgeBridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the same result array: the kernel program's is the specification's first arrangement of the
    argument arrays, the reference's the second, and the two are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Sage.KValue.kres m c, ?_, ?_⟩
  · exact (θ_run Cert.KernelIdeal.defs _ _).mono (fun r h c =>
      ⟨(h c Cert.KernelIdeal.main_v60 (by decide)).trans (Cert.Sage.KValue.kernel_value m ρ c),
        (h c Cert.KernelIdeal.main_arg0 (by decide)).trans (Cert.KernelIdeal.Gen.W13_main_arg0 m ρ c),
        (h c Cert.KernelIdeal.main_arg1 (by decide)).trans (Cert.KernelIdeal.Gen.W13_main_arg1 m ρ c),
        (h c Cert.KernelIdeal.main_arg2 (by decide)).trans (Cert.KernelIdeal.Gen.W13_main_arg2 m ρ c),
        (h c Cert.KernelIdeal.main_arg3 (by decide)).trans (Cert.KernelIdeal.Gen.W13_main_arg3 m ρ c),
        (h c Cert.KernelIdeal.main_arg4 (by decide)).trans (Cert.KernelIdeal.Gen.W13_main_arg4 m ρ c),
        (h c Cert.KernelIdeal.main_arg5 (by decide)).trans (Cert.KernelIdeal.Gen.W13_main_arg5 m ρ c),
        (h c Cert.KernelIdeal.main_arg6 (by decide)).trans (Cert.KernelIdeal.Gen.W13_main_arg6 m ρ c),
        (h c Cert.KernelIdeal.main_arg7 (by decide)).trans (Cert.KernelIdeal.Gen.W13_main_arg7 m ρ c),
        (h c Cert.KernelIdeal.main_arg8 (by decide)).trans (Cert.KernelIdeal.Gen.W13_main_arg8 m ρ c),
        (h c Cert.KernelIdeal.main_arg9 (by decide)).trans (Cert.KernelIdeal.Gen.W13_main_arg9 m ρ c),
        (h c Cert.KernelIdeal.main_arg10 (by decide)).trans (Cert.KernelIdeal.Gen.W13_main_arg10 m ρ c),
        (h c Cert.KernelIdeal.main_arg11 (by decide)).trans (Cert.KernelIdeal.Gen.W13_main_arg11 m ρ c),
        (h c Cert.KernelIdeal.main_arg12 (by decide)).trans (Cert.KernelIdeal.Gen.W13_main_arg12 m ρ c),
        (h c Cert.KernelIdeal.main_arg13 (by decide)).trans (Cert.KernelIdeal.Gen.W13_main_arg13 m ρ c),
        (h c Cert.KernelIdeal.main_arg14 (by decide)).trans (Cert.KernelIdeal.Gen.W13_main_arg14 m ρ c),
        (h c Cert.KernelIdeal.main_arg15 (by decide)).trans (Cert.KernelIdeal.Gen.W13_main_arg15 m ρ c),
        (h c Cert.KernelIdeal.main_arg16 (by decide)).trans (Cert.KernelIdeal.Gen.W13_main_arg16 m ρ c),
        (h c Cert.KernelIdeal.main_arg17 (by decide)).trans (Cert.KernelIdeal.Gen.W13_main_arg17 m ρ c),
        (h c Cert.KernelIdeal.main_arg18 (by decide)).trans (Cert.KernelIdeal.Gen.W13_main_arg18 m ρ c)⟩)
      (Cert.Sage.KRun.run_all m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17, a18⟩ := hagree c
    rw [Cert.Sage.Ref.res_eq, a0, a1, a2, a3, a4, a5, a6, a7, a8, a9, a10, a11, a12, a13, a14, a15, a16, a17, a18]
    exact (Cert.Sage.KValue.kres_eq_resR m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
